-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S2x1200000 : Shape := ⟨2, ![2, 1200000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128x128 .f32) (main_arg10 : FVec F S128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S200000x64 .f32) (main_arg1 : IVec S2x1200000 32) (main_arg2 : FVec F S64x128 .f32) (main_arg3 : FVec F S128 .f32) (main_arg4 : FVec F S64x128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_v13 main_v16
-- ==== Kernel.lean ====
abbrev S200000x64 : Shape := ⟨2, ![200000, 64]⟩
abbrev S2x1200000 : Shape := ⟨2, ![2, 1200000]⟩
abbrev S64x128 : Shape := ⟨2, ![64, 128]⟩
abbrev S128 : Shape := ⟨1, ![128]⟩
abbrev S128x128 : Shape := ⟨2, ![128, 128]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S1x128 : Shape := ⟨2, ![1, 128]⟩
abbrev S200000x128 : Shape := ⟨2, ![200000, 128]⟩
abbrev S5000x64 : Shape := ⟨2, ![5000, 64]⟩
abbrev S5000x128 : Shape := ⟨2, ![5000, 128]⟩
abbrev S1200000x128 : Shape := ⟨2, ![1200000, 128]⟩

abbrev nBuf : Space → Nat
  | .hbm => 86
  | .vmem => 38
  | .smem => 0
  | _ => 0

abbrev bufTy : (tb : Table) → Fin (tcTables nBuf tb) → BufTy
  | .hbm, ⟨0, _⟩ => ⟨S200000x64, .f32⟩
  | .hbm, ⟨1, _⟩ => ⟨S2x1200000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S1x1200000, .i32⟩
  | .hbm, ⟨13, _⟩ => ⟨S1200000, .i32⟩
  | .hbm, ⟨14, _⟩ => ⟨S1x1200000, .i32⟩
  | .hbm, ⟨15, _⟩ => ⟨S1200000, .i32⟩
  | .hbm, ⟨16, _⟩ => ⟨S_, .i32⟩
  | .hbm, ⟨17, _⟩ => ⟨S1200000, .i32⟩
  | .hbm, ⟨18, _⟩ => ⟨S1200000, .i1⟩
  | .hbm, ⟨19, _⟩ => ⟨S_, .i32⟩
  | .hbm, ⟨20, _⟩ => ⟨S1200000, .i32⟩
  | .hbm, ⟨21, _⟩ => ⟨S1200000, .i32⟩
  | .hbm, ⟨22, _⟩ => ⟨S1200000, .i32⟩
  | .hbm, ⟨23, _⟩ => ⟨S1200000x1, .i32⟩
  | .hbm, ⟨24, _⟩ => ⟨S1200000x64, .f32⟩
  | .hbm, ⟨25, _⟩ => ⟨S_, .f32⟩
  | .hbm, ⟨26, _⟩ => ⟨S200000x64, .f32⟩
  | .hbm, ⟨27, _⟩ => ⟨S1200000x1, .i32⟩
  | .hbm, ⟨28, _⟩ => ⟨S200000x64, .f32⟩
  | .hbm, ⟨29, _⟩ => ⟨S1x128, .f32⟩
  | .hbm, ⟨30, _⟩ => ⟨S200000x128, .f32⟩
  | .hbm, ⟨31, _⟩ => ⟨S1x128, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S200000x128, .f32⟩
  | .hbm, ⟨51, _⟩ => ⟨S_, .i32⟩
  | .hbm, ⟨52, _⟩ => ⟨S1200000, .i32⟩
  | .hbm, ⟨53, _⟩ => ⟨S1200000, .i1⟩
  | .hbm, ⟨54, _⟩ => ⟨S_, .i32⟩
  | .hbm, ⟨55, _⟩ => ⟨S1200000, .i32⟩
  | .hbm, ⟨56, _⟩ => ⟨S1200000, .i32⟩
  | .hbm, ⟨57, _⟩ => ⟨S1200000, .i32⟩
  | .hbm, ⟨58, _⟩ => ⟨S1200000x1, .i32⟩
  | .hbm, ⟨59, _⟩ => ⟨S1200000x128, .f32⟩
  | .hbm, ⟨60, _⟩ => ⟨S_, .f32⟩
  | .hbm, ⟨61, _⟩ => ⟨S200000x128, .f32⟩
  | .hbm, ⟨62, _⟩ => ⟨S1200000x1, .i32⟩
  | .hbm, ⟨63, _⟩ => ⟨S200000x128, .f32⟩
  | .hbm, ⟨64, _⟩ => ⟨S1x128, .f32⟩
  | .hbm, ⟨65, _⟩ => ⟨S200000x128, .f32⟩
  | .hbm, ⟨66, _⟩ => ⟨S1x128, .f32⟩
  | .hbm, ⟨67, _⟩ => ⟨S1x128, .f32⟩
  | .hbm, ⟨68, _⟩ => ⟨S_, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S1x128, .f32⟩
  | .hbm, ⟨76, _⟩ => ⟨S_, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S200000x128, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15_0 : Ref sig .tc := ⟨.hbm, 30, rfl⟩
abbrev main_v15_1 : Ref sig .tc := ⟨.hbm, 31, rfl⟩
abbrev main_v15_2 : Ref sig .tc := ⟨.hbm, 32, rfl⟩
abbrev main_cst_1 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_4 : Ref sig .tc := ⟨.hbm, 51, rfl⟩
abbrev main_v31 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42_0 : Ref sig .tc := ⟨.hbm, 65, rfl⟩
abbrev main_v42_1 : Ref sig .tc := ⟨.hbm, 66, rfl⟩
abbrev main_v42_2 : Ref sig .tc := ⟨.hbm, 67, rfl⟩
abbrev main_cst_7 : Ref sig .tc := ⟨.hbm, 68, rfl⟩
abbrev main_v43 : Ref sig .tc := ⟨.hbm, 69, rfl⟩
abbrev main_v44 : Ref sig .tc := ⟨.hbm, 70, rfl⟩
abbrev main_cst_8 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc2_scratch0 : Ref sig .tc := ⟨.vmem, 30, rfl⟩
abbrev cc2_scratch1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg3_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S200000x64 : S_.BroadcastsInDim S200000x64 (![] : Fin 0 → Fin S200000x64.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x128_S64x128_0_0 : ∀ a, (![0, 0] : Fin 2 → Nat) a + S64x128.size a ≤ S64x128.size a
  h_S64x128 : 0 < S64x128.numel
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  bcast_S_S200000x128 : S_.BroadcastsInDim S200000x128 (![] : Fin 0 → Fin S200000x128.rank)
  inb_S128x128_S128x128_0_0 : ∀ a, (![0, 0] : Fin 2 → Nat) a + S128x128.size a ≤ S128x128.size a
  h_S128x128 : 0 < S128x128.numel
  gather_S200000x64_S1200000x1_S1200000x64_1_0_n_n_0_1_164_wf : GatherDims.WF S200000x64 S1200000x1 S1200000x64 [1] [0] [] [0] [] 1 ![1, 64]
  scatter_S200000x64_S1200000x1_S1200000x64_1_0_0_1_wf : ScatterDims.WF S200000x64 S1200000x1 S1200000x64 [1] [0] [0] 1
  dot_S5000x64_S64x128_S5000x128_1_0_0_1_n_n_wf : DotDims.WF S5000x64 S64x128 S5000x128 [1] [0] [0] [1] [] []
  gather_S200000x128_S1200000x1_S1200000x128_1_0_n_n_0_1_1128_wf : GatherDims.WF S200000x128 S1200000x1 S1200000x128 [1] [0] [] [0] [] 1 ![1, 128]
  scatter_S200000x128_S1200000x1_S1200000x128_1_0_0_1_wf : ScatterDims.WF S200000x128 S1200000x1 S1200000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S200000x64.size a
  hwx0_0 : ∀ i : grid0.Coords, EltTy.bits .f32 = 32 ∨ (Rect.block (s := S200000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S200000x64.size a
  hwx0_1 : ∀ i : grid0.Coords, EltTy.bits .f32 = 32 ∨ (Rect.block (s := S200000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S200000x128.size a
  hwx0_5 : ∀ i : grid0.Coords, EltTy.bits .f32 = 32 ∨ (Rect.block (s := S200000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S200000x128.size a
  hwx1_0 : ∀ i : grid1.Coords, EltTy.bits .f32 = 32 ∨ (Rect.block (s := S200000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S200000x128.size a
  hwx1_3 : ∀ i : grid1.Coords, EltTy.bits .f32 = 32 ∨ (Rect.block (s := S200000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S200000x128.size a
  hwx2_0 : ∀ i : grid2.Coords, EltTy.bits .f32 = 32 ∨ (Rect.block (s := S200000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S200000x128.size a
  hwx2_1 : ∀ i : grid2.Coords, EltTy.bits .f32 = 32 ∨ (Rect.block (s := S200000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S200000x128.size a
  hwx2_5 : ∀ i : grid2.Coords, EltTy.bits .f32 = 32 ∨ (Rect.block (s := S200000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S200000x128.size a
  hwx3_0 : ∀ i : grid3.Coords, EltTy.bits .f32 = 32 ∨ (Rect.block (s := S200000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S200000x128.size a
  hwx3_3 : ∀ i : grid3.Coords, EltTy.bits .f32 = 32 ∨ (Rect.block (s := S200000x128) S5000x128.size (cc3_transform_3 i) (hinb3_3 i)).WholeWords (EltTy.packing .f32)

variable [Facts₀]

def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S200000x128_S1200000x1_S1200000x128_1_0_n_n_0_1_1128 : GatherDims S200000x128 S1200000x1 S1200000x128 where
  offsetDims := [1]
  collapsedSliceDims := [0]
  operandBatchingDims := []
  startIndicesBatchingDims := []
  startIndexMap := [0]
  indexVectorDim := 1
  sliceSizes := ![1, 128]
  wf := gather_S200000x128_S1200000x1_S1200000x128_1_0_n_n_0_1_1128_wf
def scatter_S200000x128_S1200000x1_S1200000x128_1_0_0_1 : ScatterDims S200000x128 S1200000x1 S1200000x128 where
  updateWindowDims := [1]
  insertedWindowDims := [0]
  scatterDimsToOperandDims := [0]
  indexVectorDim := 1
  wf := scatter_S200000x128_S1200000x1_S1200000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v15_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v42_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v42_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v57) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S200000x64 : Shape := ⟨2, ![200000, 64]⟩
abbrev S2x1200000 : Shape := ⟨2, ![2, 1200000]⟩
abbrev S64x128 : Shape := ⟨2, ![64, 128]⟩
abbrev S128 : Shape := ⟨1, ![128]⟩
abbrev S128x128 : Shape := ⟨2, ![128, 128]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S200000x128 : Shape := ⟨2, ![200000, 128]⟩
abbrev S1x128 : Shape := ⟨2, ![1, 128]⟩
abbrev S1200000x128 : Shape := ⟨2, ![1200000, 128]⟩

abbrev nBuf : Space → Nat
  | .hbm => 123
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S2x1200000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S1x1200000, .i32⟩
  | .hbm, ⟨13, _⟩ => ⟨S1200000, .i32⟩
  | .hbm, ⟨14, _⟩ => ⟨S1x1200000, .i32⟩
  | .hbm, ⟨15, _⟩ => ⟨S1200000, .i32⟩
  | .hbm, ⟨16, _⟩ => ⟨S_, .i32⟩
  | .hbm, ⟨17, _⟩ => ⟨S1200000, .i32⟩
  | .hbm, ⟨18, _⟩ => ⟨S1200000, .i1⟩
  | .hbm, ⟨19, _⟩ => ⟨S_, .i32⟩
  | .hbm, ⟨20, _⟩ => ⟨S1200000, .i32⟩
  | .hbm, ⟨21, _⟩ => ⟨S1200000, .i32⟩
  | .hbm, ⟨22, _⟩ => ⟨S1200000, .i32⟩
  | .hbm, ⟨23, _⟩ => ⟨S1200000x1, .i32⟩
  | .hbm, ⟨24, _⟩ => ⟨S1200000x64, .f32⟩
  | .hbm, ⟨25, _⟩ => ⟨S_, .f32⟩
  | .hbm, ⟨26, _⟩ => ⟨S200000x64, .f32⟩
  | .hbm, ⟨27, _⟩ => ⟨S1200000x1, .i32⟩
  | .hbm, ⟨28, _⟩ => ⟨S200000x64, .f32⟩
  | .hbm, ⟨29, _⟩ => ⟨S200000x128, .f32⟩
  | .hbm, ⟨30, _⟩ => ⟨S1x128, .f32⟩
  | .hbm, ⟨31, _⟩ => ⟨S200000x128, .f32⟩
  | .hbm, ⟨32, _⟩ => ⟨S200000x128, .f32⟩
  | .hbm, ⟨33, _⟩ => ⟨S200000x128, .f32⟩
  | .hbm, ⟨34, _⟩ => ⟨S200000x128, .f32⟩
  | .hbm, ⟨35, _⟩ => ⟨S_, .f32⟩
  | .hbm, ⟨36, _⟩ => ⟨S200000x128, .f32⟩
  | .hbm, ⟨37, _⟩ => ⟨S200000x128, .f32⟩
  | .hbm, ⟨38, _⟩ => ⟨S_, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S200000x128, .f32⟩
  | .hbm, ⟨45, _⟩ => ⟨S200000x128, .f32⟩
  | .hbm, ⟨46, _⟩ => ⟨S200000x128, .f32⟩
  | .hbm, ⟨47, _⟩ => ⟨S_, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S200000x128, .f32⟩
  | .hbm, ⟨54, _⟩ => ⟨S200000x128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S200000x128, .f32⟩
  | .hbm, ⟨61, _⟩ => ⟨S200000x128, .f32⟩
  | .hbm, ⟨62, _⟩ => ⟨S1x128, .f32⟩
  | .hbm, ⟨63, _⟩ => ⟨S200000x128, .f32⟩
  | .hbm, ⟨64, _⟩ => ⟨S200000x128, .f32⟩
  | .hbm, ⟨65, _⟩ => ⟨S1x128, .f32⟩
  | .hbm, ⟨66, _⟩ => ⟨S200000x128, .f32⟩
  | .hbm, ⟨67, _⟩ => ⟨S200000x128, .f32⟩
  | .hbm, ⟨68, _⟩ => ⟨S_, .i32⟩
  | .hbm, ⟨69, _⟩ => ⟨S1200000, .i32⟩
  | .hbm, ⟨70, _⟩ => ⟨S1200000, .i1⟩
  | .hbm, ⟨71, _⟩ => ⟨S_, .i32⟩
  | .hbm, ⟨72, _⟩ => ⟨S1200000, .i32⟩
  | .hbm, ⟨73, _⟩ => ⟨S1200000, .i32⟩
  | .hbm, ⟨74, _⟩ => ⟨S1200000, .i32⟩
  | .hbm, ⟨75, _⟩ => ⟨S1200000x1, .i32⟩
  | .hbm, ⟨76, _⟩ => ⟨S1200000x128, .f32⟩
  | .hbm, ⟨77, _⟩ => ⟨S_, .f32⟩
  | .hbm, ⟨78, _⟩ => ⟨S200000x128, .f32⟩
  | .hbm, ⟨79, _⟩ => ⟨S1200000x1, .i32⟩
  | .hbm, ⟨80, _⟩ => ⟨S200000x128, .f32⟩
  | .hbm, ⟨81, _⟩ => ⟨S200000x128, .f32⟩
  | .hbm, ⟨82, _⟩ => ⟨S1x128, .f32⟩
  | .hbm, ⟨83, _⟩ => ⟨S200000x128, .f32⟩
  | .hbm, ⟨84, _⟩ => ⟨S200000x128, .f32⟩
  | .hbm, ⟨85, _⟩ => ⟨S200000x128, .f32⟩
  | .hbm, ⟨86, _⟩ => ⟨S200000x128, .f32⟩
  | .hbm, ⟨87, _⟩ => ⟨S_, .f32⟩
  | .hbm, ⟨88, _⟩ => ⟨S200000x128, .f32⟩
  | .hbm, ⟨89, _⟩ => ⟨S200000x128, .f32⟩
  | .hbm, ⟨90, _⟩ => ⟨S_, .f32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S1x128, .f32⟩
  | .hbm, ⟨96, _⟩ => ⟨S200000x128, .f32⟩
  | .hbm, ⟨97, _⟩ => ⟨S200000x128, .f32⟩
  | .hbm, ⟨98, _⟩ => ⟨S200000x128, .f32⟩
  | .hbm, ⟨99, _⟩ => ⟨S_, .f32⟩
  | .hbm, ⟨100, _⟩ => ⟨S128, .f32⟩
  | .hbm, ⟨101, _⟩ => ⟨S_, .f32⟩
  | .hbm, ⟨102, _⟩ => ⟨S128, .f32⟩
  | .hbm, ⟨103, _⟩ => ⟨S128, .f32⟩
  | .hbm, ⟨104, _⟩ => ⟨S1x128, .f32⟩
  | .hbm, ⟨105, _⟩ => ⟨S200000x128, .f32⟩
  | .hbm, ⟨106, _⟩ => ⟨S200000x128, .f32⟩
  | .hbm, ⟨107, _⟩ => ⟨S_, .f32⟩
  | .hbm, ⟨108, _⟩ => ⟨S128, .f32⟩
  | .hbm, ⟨109, _⟩ => ⟨S128, .f32⟩
  | .hbm, ⟨110, _⟩ => ⟨S128, .f32⟩
  | .hbm, ⟨111, _⟩ => ⟨S1x128, .f32⟩
  | .hbm, ⟨112, _⟩ => ⟨S200000x128, .f32⟩
  | .hbm, ⟨113, _⟩ => ⟨S200000x128, .f32⟩
  | .hbm, ⟨114, _⟩ => ⟨S1x128, .f32⟩
  | .hbm, ⟨115, _⟩ => ⟨S200000x128, .f32⟩
  | .hbm, ⟨116, _⟩ => ⟨S200000x128, .f32⟩
  | .hbm, ⟨117, _⟩ => ⟨S1x128, .f32⟩
  | .hbm, ⟨118, _⟩ => ⟨S200000x128, .f32⟩
  | .hbm, ⟨119, _⟩ => ⟨S200000x128, .f32⟩
  | .hbm, ⟨120, _⟩ => ⟨S_, .f32⟩
  | .hbm, ⟨121, _⟩ => ⟨S200000x128, .f32⟩
  | .hbm, ⟨122, _⟩ => ⟨S200000x128, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_6 : Ref sig .tc := ⟨.hbm, 68, rfl⟩
abbrev main_v46 : Ref sig .tc := ⟨.hbm, 69, rfl⟩
abbrev main_v47 : Ref sig .tc := ⟨.hbm, 70, rfl⟩
abbrev main_c_7 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_call1_cst : Ref sig .tc := ⟨.hbm, 87, rfl⟩
abbrev main_call1_v0 : Ref sig .tc := ⟨.hbm, 88, rfl⟩
abbrev main_v62 : Ref sig .tc := ⟨.hbm, 89, rfl⟩
abbrev main_cst_9 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_cst_12 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_13 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_call2_cst : Ref sig .tc := ⟨.hbm, 120, rfl⟩
abbrev main_call2_v0 : Ref sig .tc := ⟨.hbm, 121, rfl⟩
abbrev main_v88 : Ref sig .tc := ⟨.hbm, 122, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S200000x64 : S_.BroadcastsInDim S200000x64 (![] : Fin 0 → Fin S200000x64.rank)
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  reducesTo_S200000x128_S128_d0 : S200000x128.ReducesTo [0] S128
  h_S_ : 0 < S_.numel
  bcast_S_S128 : S_.BroadcastsInDim S128 (![] : Fin 0 → Fin S128.rank)
  gather_S200000x64_S1200000x1_S1200000x64_1_0_n_n_0_1_164_wf : GatherDims.WF S200000x64 S1200000x1 S1200000x64 [1] [0] [] [0] [] 1 ![1, 64]
  scatter_S200000x64_S1200000x1_S1200000x64_1_0_0_1_wf : ScatterDims.WF S200000x64 S1200000x1 S1200000x64 [1] [0] [0] 1
  dot_S200000x64_S64x128_S200000x128_1_0_0_1_n_n_wf : DotDims.WF S200000x64 S64x128 S200000x128 [1] [0] [0] [1] [] []
  gather_S200000x128_S1200000x1_S1200000x128_1_0_n_n_0_1_1128_wf : GatherDims.WF S200000x128 S1200000x1 S1200000x128 [1] [0] [] [0] [] 1 ![1, 128]
  scatter_S200000x128_S1200000x1_S1200000x128_1_0_0_1_wf : ScatterDims.WF S200000x128 S1200000x1 S1200000x128 [1] [0] [0] 1
  dot_S200000x128_S128x128_S200000x128_1_0_0_1_n_n_wf : DotDims.WF S200000x128 S128x128 S200000x128 [1] [0] [0] [1] [] []

variable [Facts₀]

def gather_S200000x64_S1200000x1_S1200000x64_1_0_n_n_0_1_164 : GatherDims S200000x64 S1200000x1 S1200000x64 where
  offsetDims := [1]
  collapsedSliceDims := [0]
  operandBatchingDims := []
  startIndicesBatchingDims := []
  startIndexMap := [0]
  indexVectorDim := 1
  sliceSizes := ![1, 64]
  wf := gather_S200000x64_S1200000x1_S1200000x64_1_0_n_n_0_1_164_wf
def scatter_S200000x64_S1200000x1_S1200000x64_1_0_0_1 : ScatterDims S200000x64 S1200000x1 S1200000x64 where
  updateWindowDims := [1]
  insertedWindowDims := [0]
  scatterDimsToOperandDims := [0]
  indexVectorDim := 1
  wf := scatter_S200000x64_S1200000x1_S1200000x64_1_0_0_1_wf
def dot_S200000x64_S64x128_S200000x128_1_0_0_1_n_n : DotDims S200000x64 S64x128 S200000x128 where
  lhsContracting := [1]
  rhsContracting := [0]
  lhsNonContracting := [0]
  rhsNonContracting := [1]
  lhsBatch := []
  rhsBatch := []
  wf := dot_S200000x64_S64x128_S200000x128_1_0_0_1_n_n_wf
def gather_S200000x128_S1200000x1_S1200000x128_1_0_n_n_0_1_1128 : GatherDims S200000x128 S1200000x1 S1200000x128 where
  offsetDims := [1]
  collapsedSliceDims := [0]
  operandBatchingDims := []
  startIndicesBatchingDims := []
  startIndexMap := [0]
  indexVectorDim := 1
  sliceSizes := ![1, 128]
  wf := gather_S200000x128_S1200000x1_S1200000x128_1_0_n_n_0_1_1128_wf
def scatter_S200000x128_S1200000x1_S1200000x128_1_0_0_1 : ScatterDims S200000x128 S1200000x1 S1200000x128 where
  updateWindowDims := [1]
  insertedWindowDims := [0]
  scatterDimsToOperandDims := [0]
  indexVectorDim := 1
  wf := scatter_S200000x128_S1200000x1_S1200000x128_1_0_0_1_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.KB.Stats0Base.lean ====
/-
  The fused pass of layer 1 (linear map of the aggregated rows plus linear map of the rows themselves plus bias, clipped
  at zero, with the column sums of the result and of its square) is run tile by tile over forty row tiles of 5000
  rows. Its body branches once, on whether the tile is the first: there the two running column totals are cleared
  before they are added to. This module names that condition, decides over the forty tiles where it holds, and names
  the buffers the body is handed at a tile.
-/
import proofs.«178594_j20590073217563_1_alg».proof.Proof.Gen.Kernel.Launch
import proofs.«178594_j20590073217563_1_alg».proof.Proof.Gen.Kernel.Skeleton
import proofs.«178594_j20590073217563_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile is the first of the forty: the body's guard, as the printed chain of word comparisons on the tile index. -/
abbrev isFirst0 (i : grid0.Coords) : Prop :=
  (Scalar.cmpi .ne (Scalar.extui (Scalar.cmpi .eq (BitVec.ofNat 32 (i 0).val) 0#32)) 0#32) = 1#1

/-- Over the forty tiles the guard holds at tile 0 and nowhere else. -/
theorem isFirst0_iff : ∀ t : Fin cfg0.N, isFirst0 (grid0.coords t) ↔ t.val = 0 :=
  (by decide +kernel : ∀ t : Fin grid0.N, isFirst0 (grid0.coords t) ↔ t.val = 0)

/-- No window of this pass is ever idle: every tile reads all five inputs and stores all three results. -/
theorem live0 : ∀ (w : Fin cfg0.W) (t : Fin cfg0.N), cfg0.idle w (grid0.coords t) = false := by decide +kernel

/-- The buffer window 0 is on at tile `t`, and that it is a whole buffer. -/
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
/-- The buffer window 1 is on at tile `t`, and that it is a whole buffer. -/
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
/-- The buffer window 2 is on at tile `t`, and that it is a whole buffer. -/
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
/-- The buffer window 3 is on at tile `t`, and that it is a whole buffer. -/
abbrev ms0_3 (t : Fin cfg0.N) : Memref sig .tc .vmem S64x128 .f32 := win0_3.stage (cfg0.slots t 3)
abbrev hs0_3 (t : Fin cfg0.N) : (ms0_3 t).IsWhole := hstage0_3 ((cfg0.slots t 3).cast nbuf0_3)
/-- The buffer window 4 is on at tile `t`, and that it is a whole buffer. -/
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
/-- The buffer window 5 is on at tile `t`, and that it is a whole buffer. -/
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
/-- The buffer window 6 is on at tile `t`, and that it is a whole buffer. -/
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
/-- The buffer window 7 is on at tile `t`, and that it is a whole buffer. -/
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The two running column totals (of the clipped values, of their squares): buffers of the pass's own, kept from tile to tile. -/
abbrev tot0_0 : Memref sig .tc .vmem S1x128 .f32 := Memref.whole cc0_scratch0
abbrev tot0_1 : Memref sig .tc .vmem S1x128 .f32 := Memref.whole cc0_scratch1

end Cert.Kernel.Hand

end
-- ==== Proof.KB.Stats0First.lean ====
/-
  The body of layer 1's fused pass at the first tile: run on whole buffers — the five inputs at given contents, the
  three result buffers at anything, the two running totals at anything (they are cleared before they are read) — it ends with the
  inputs untouched and each result buffer and each running total overwritten by the stores the run meets, which are
  kept as lists of (rectangle, value) pieces, last store first.
-/
import proofs.«178594_j20590073217563_1_alg».proof.Proof.KB.Stats0Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes at the first tile, per written buffer, with the proof that it runs to its end and leaves exactly them. -/
noncomputable def runFirst0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)
    (hc : isFirst0 i) (x1 : Vec F S5000x64 .f32) (x2 : Vec F S5000x64 .f32) (x3 : Vec F S64x128 .f32) (x4 : Vec F S64x128 .f32) (x5 : Vec F S1x128 .f32) :
    Σ' (L6 : List (View.Piece (Elt F) S5000x128 .f32)) (L7 : List (View.Piece (Elt F) S1x128 .f32)) (L8 : List (View.Piece (Elt F) S1x128 .f32)) (LS0 : List (View.Piece (Elt F) S1x128 .f32)),
    { LS1 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_relu_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__linear_relu_stats_kernel_eq_skeleton]; unfold cc0__linear_relu_stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Hand

end
-- ==== Proof.KB.Stats0Later.lean ====
/-
  The body of layer 1's fused pass at a tile after the first: run on whole buffers — the five inputs at given contents, the
  three result buffers at anything, the two running totals at what the tile before left — it ends with the
  inputs untouched and each result buffer and each running total overwritten by the stores the run meets, which are
  kept as lists of (rectangle, value) pieces, last store first.
-/
import proofs.«178594_j20590073217563_1_alg».proof.Proof.KB.Stats0Base
import proofs.«178594_j20590073217563_1_alg».proof.Proof.KB.Stats0First

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes at a later tile, per written buffer, with the proof that it runs to its end and leaves exactly them. -/
noncomputable def runLater0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)
    (hc : ¬isFirst0 i) (x1 : Vec F S5000x64 .f32) (x2 : Vec F S5000x64 .f32) (x3 : Vec F S64x128 .f32) (x4 : Vec F S64x128 .f32) (x5 : Vec F S1x128 .f32) (s0 : Vec F S1x128 .f32) (s1 : Vec F S1x128 .f32) :
    Σ' (L6 : List (View.Piece (Elt F) S5000x128 .f32)) (L7 : List (View.Piece (Elt F) S1x128 .f32)) (L8 : List (View.Piece (Elt F) S1x128 .f32)) (LS0 : List (View.Piece (Elt F) S1x128 .f32)),
    { LS1 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare s0 ∗ owns (c : Thread nD τ) arg10 fullShare s1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_relu_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__linear_relu_stats_kernel_eq_skeleton]; unfold cc0__linear_relu_stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Hand

end
-- ==== Proof.KB.Stats0Data.lean ====
/-
  The proof data of layer 1's fused pass, at any contents `V` of the buffers at the pass's entry. After the body at tile
  `n` the pass's three result buffers and its two running totals hold five arrays, defined by recursion on `n`: at tile
  0 what the first-tile run leaves from the tile's input blocks; at tile `n + 1` what the later-tile run leaves from the
  tile's input blocks and the two totals tile `n` left. The pipeline's invariant before tile `n + 1` says exactly that the two
  total buffers hold tile `n`'s totals (before tile 0: anything, they are cleared first). From this the body obligation
  at every tile follows from the two runs, by cases on whether the tile is the first.
-/
import proofs.«178594_j20590073217563_1_alg».proof.Proof.KB.Stats0Later

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at tile `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current buffer holds the window's block at every tile, freshly fetched there or not (a block not
    re-fetched has not moved), for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

/-! ## What one run leaves: the result tile, the two result rows, the two totals -/

/-- The five arrays the first-tile run leaves (each the contents its list of stores determines). -/
def leftFirst0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst0 i) (x1 : Vec F S5000x64 .f32) (x2 : Vec F S5000x64 .f32) (x3 : Vec F S64x128 .f32) (x4 : Vec F S64x128 .f32) (x5 : Vec F S1x128 .f32) : (Vec F S5000x128 .f32 × Vec F S1x128 .f32 × Vec F S1x128 .f32 × Vec F S1x128 .f32 × Vec F S1x128 .f32) :=
  (View.canon (runFirst0 c i arg1 harg1 arg2 harg2 arg3 harg3 arg4 harg4 arg5 harg5 arg6 harg6 arg7 harg7 arg8 harg8 arg9 harg9 arg10 harg10 hc x1 x2 x3 x4 x5).1, View.canon (runFirst0 c i arg1 harg1 arg2 harg2 arg3 harg3 arg4 harg4 arg5 harg5 arg6 harg6 arg7 harg7 arg8 harg8 arg9 harg9 arg10 harg10 hc x1 x2 x3 x4 x5).2.1, View.canon (runFirst0 c i arg1 harg1 arg2 harg2 arg3 harg3 arg4 harg4 arg5 harg5 arg6 harg6 arg7 harg7 arg8 harg8 arg9 harg9 arg10 harg10 hc x1 x2 x3 x4 x5).2.2.1, View.canon (runFirst0 c i arg1 harg1 arg2 harg2 arg3 harg3 arg4 harg4 arg5 harg5 arg6 harg6 arg7 harg7 arg8 harg8 arg9 harg9 arg10 harg10 hc x1 x2 x3 x4 x5).2.2.2.1, View.canon (runFirst0 c i arg1 harg1 arg2 harg2 arg3 harg3 arg4 harg4 arg5 harg5 arg6 harg6 arg7 harg7 arg8 harg8 arg9 harg9 arg10 harg10 hc x1 x2 x3 x4 x5).2.2.2.2.1)
/-- The first-tile run's stores into written buffer 0 cover it. -/
theorem coverFirst0_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst0 i) (x1 : Vec F S5000x64 .f32) (x2 : Vec F S5000x64 .f32) (x3 : Vec F S64x128 .f32) (x4 : Vec F S64x128 .f32) (x5 : Vec F S1x128 .f32) (y : S5000x128.Idx) :
    ∃ pc ∈ (runFirst0 c i arg1 harg1 arg2 harg2 arg3 harg3 arg4 harg4 arg5 harg5 arg6 harg6 arg7 harg7 arg8 harg8 arg9 harg9 arg10 harg10 hc x1 x2 x3 x4 x5).1, y ∈ pc.1.set :=
  View.cover_of_tiledL (runFirst0 c i arg1 harg1 arg2 harg2 arg3 harg3 arg4 harg4 arg5 harg5 arg6 harg6 arg7 harg7 arg8 harg8 arg9 harg9 arg10 harg10 hc x1 x2 x3 x4 x5).1 S5000x128.size (by sl_kernel_rfl) y
/-- The first-tile run's stores into written buffer 1 cover it. -/
theorem coverFirst0_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst0 i) (x1 : Vec F S5000x64 .f32) (x2 : Vec F S5000x64 .f32) (x3 : Vec F S64x128 .f32) (x4 : Vec F S64x128 .f32) (x5 : Vec F S1x128 .f32) (y : S1x128.Idx) :
    ∃ pc ∈ (runFirst0 c i arg1 harg1 arg2 harg2 arg3 harg3 arg4 harg4 arg5 harg5 arg6 harg6 arg7 harg7 arg8 harg8 arg9 harg9 arg10 harg10 hc x1 x2 x3 x4 x5).2.1, y ∈ pc.1.set :=
  View.cover_of_tiledL (runFirst0 c i arg1 harg1 arg2 harg2 arg3 harg3 arg4 harg4 arg5 harg5 arg6 harg6 arg7 harg7 arg8 harg8 arg9 harg9 arg10 harg10 hc x1 x2 x3 x4 x5).2.1 S1x128.size (by sl_kernel_rfl) y
/-- The first-tile run's stores into written buffer 2 cover it. -/
theorem coverFirst0_2 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst0 i) (x1 : Vec F S5000x64 .f32) (x2 : Vec F S5000x64 .f32) (x3 : Vec F S64x128 .f32) (x4 : Vec F S64x128 .f32) (x5 : Vec F S1x128 .f32) (y : S1x128.Idx) :
    ∃ pc ∈ (runFirst0 c i arg1 harg1 arg2 harg2 arg3 harg3 arg4 harg4 arg5 harg5 arg6 harg6 arg7 harg7 arg8 harg8 arg9 harg9 arg10 harg10 hc x1 x2 x3 x4 x5).2.2.1, y ∈ pc.1.set :=
  View.cover_of_tiledL (runFirst0 c i arg1 harg1 arg2 harg2 arg3 harg3 arg4 harg4 arg5 harg5 arg6 harg6 arg7 harg7 arg8 harg8 arg9 harg9 arg10 harg10 hc x1 x2 x3 x4 x5).2.2.1 S1x128.size (by sl_kernel_rfl) y
/-- The first-tile run's stores into written buffer 3 cover it. -/
theorem coverFirst0_3 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst0 i) (x1 : Vec F S5000x64 .f32) (x2 : Vec F S5000x64 .f32) (x3 : Vec F S64x128 .f32) (x4 : Vec F S64x128 .f32) (x5 : Vec F S1x128 .f32) (y : S1x128.Idx) :
    ∃ pc ∈ (runFirst0 c i arg1 harg1 arg2 harg2 arg3 harg3 arg4 harg4 arg5 harg5 arg6 harg6 arg7 harg7 arg8 harg8 arg9 harg9 arg10 harg10 hc x1 x2 x3 x4 x5).2.2.2.1, y ∈ pc.1.set :=
  View.cover_of_tiledL (runFirst0 c i arg1 harg1 arg2 harg2 arg3 harg3 arg4 harg4 arg5 harg5 arg6 harg6 arg7 harg7 arg8 harg8 arg9 harg9 arg10 harg10 hc x1 x2 x3 x4 x5).2.2.2.1 S1x128.size (by sl_kernel_rfl) y
/-- The first-tile run's stores into written buffer 4 cover it. -/
theorem coverFirst0_4 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst0 i) (x1 : Vec F S5000x64 .f32) (x2 : Vec F S5000x64 .f32) (x3 : Vec F S64x128 .f32) (x4 : Vec F S64x128 .f32) (x5 : Vec F S1x128 .f32) (y : S1x128.Idx) :
    ∃ pc ∈ (runFirst0 c i arg1 harg1 arg2 harg2 arg3 harg3 arg4 harg4 arg5 harg5 arg6 harg6 arg7 harg7 arg8 harg8 arg9 harg9 arg10 harg10 hc x1 x2 x3 x4 x5).2.2.2.2.1, y ∈ pc.1.set :=
  View.cover_of_tiledL (runFirst0 c i arg1 harg1 arg2 harg2 arg3 harg3 arg4 harg4 arg5 harg5 arg6 harg6 arg7 harg7 arg8 harg8 arg9 harg9 arg10 harg10 hc x1 x2 x3 x4 x5).2.2.2.2.1 S1x128.size (by sl_kernel_rfl) y

/-- The five arrays a later-tile run leaves, from the totals `s0`, `s1` the tile before left. -/
def leftLater0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst0 i) (x1 : Vec F S5000x64 .f32) (x2 : Vec F S5000x64 .f32) (x3 : Vec F S64x128 .f32) (x4 : Vec F S64x128 .f32) (x5 : Vec F S1x128 .f32) (s0 : Vec F S1x128 .f32) (s1 : Vec F S1x128 .f32) : (Vec F S5000x128 .f32 × Vec F S1x128 .f32 × Vec F S1x128 .f32 × Vec F S1x128 .f32 × Vec F S1x128 .f32) :=
  (View.canon (runLater0 c i arg1 harg1 arg2 harg2 arg3 harg3 arg4 harg4 arg5 harg5 arg6 harg6 arg7 harg7 arg8 harg8 arg9 harg9 arg10 harg10 hc x1 x2 x3 x4 x5 s0 s1).1, View.canon (runLater0 c i arg1 harg1 arg2 harg2 arg3 harg3 arg4 harg4 arg5 harg5 arg6 harg6 arg7 harg7 arg8 harg8 arg9 harg9 arg10 harg10 hc x1 x2 x3 x4 x5 s0 s1).2.1, View.canon (runLater0 c i arg1 harg1 arg2 harg2 arg3 harg3 arg4 harg4 arg5 harg5 arg6 harg6 arg7 harg7 arg8 harg8 arg9 harg9 arg10 harg10 hc x1 x2 x3 x4 x5 s0 s1).2.2.1, View.canon (runLater0 c i arg1 harg1 arg2 harg2 arg3 harg3 arg4 harg4 arg5 harg5 arg6 harg6 arg7 harg7 arg8 harg8 arg9 harg9 arg10 harg10 hc x1 x2 x3 x4 x5 s0 s1).2.2.2.1, View.canon (runLater0 c i arg1 harg1 arg2 harg2 arg3 harg3 arg4 harg4 arg5 harg5 arg6 harg6 arg7 harg7 arg8 harg8 arg9 harg9 arg10 harg10 hc x1 x2 x3 x4 x5 s0 s1).2.2.2.2.1)
/-- A later-tile run's stores into written buffer 0 cover it. -/
theorem coverLater0_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst0 i) (x1 : Vec F S5000x64 .f32) (x2 : Vec F S5000x64 .f32) (x3 : Vec F S64x128 .f32) (x4 : Vec F S64x128 .f32) (x5 : Vec F S1x128 .f32) (s0 : Vec F S1x128 .f32) (s1 : Vec F S1x128 .f32) (y : S5000x128.Idx) :
    ∃ pc ∈ (runLater0 c i arg1 harg1 arg2 harg2 arg3 harg3 arg4 harg4 arg5 harg5 arg6 harg6 arg7 harg7 arg8 harg8 arg9 harg9 arg10 harg10 hc x1 x2 x3 x4 x5 s0 s1).1, y ∈ pc.1.set :=
  View.cover_of_tiledL (runLater0 c i arg1 harg1 arg2 harg2 arg3 harg3 arg4 harg4 arg5 harg5 arg6 harg6 arg7 harg7 arg8 harg8 arg9 harg9 arg10 harg10 hc x1 x2 x3 x4 x5 s0 s1).1 S5000x128.size (by sl_kernel_rfl) y
/-- A later-tile run's stores into written buffer 1 cover it. -/
theorem coverLater0_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst0 i) (x1 : Vec F S5000x64 .f32) (x2 : Vec F S5000x64 .f32) (x3 : Vec F S64x128 .f32) (x4 : Vec F S64x128 .f32) (x5 : Vec F S1x128 .f32) (s0 : Vec F S1x128 .f32) (s1 : Vec F S1x128 .f32) (y : S1x128.Idx) :
    ∃ pc ∈ (runLater0 c i arg1 harg1 arg2 harg2 arg3 harg3 arg4 harg4 arg5 harg5 arg6 harg6 arg7 harg7 arg8 harg8 arg9 harg9 arg10 harg10 hc x1 x2 x3 x4 x5 s0 s1).2.1, y ∈ pc.1.set :=
  View.cover_of_tiledL (runLater0 c i arg1 harg1 arg2 harg2 arg3 harg3 arg4 harg4 arg5 harg5 arg6 harg6 arg7 harg7 arg8 harg8 arg9 harg9 arg10 harg10 hc x1 x2 x3 x4 x5 s0 s1).2.1 S1x128.size (by sl_kernel_rfl) y
/-- A later-tile run's stores into written buffer 2 cover it. -/
theorem coverLater0_2 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst0 i) (x1 : Vec F S5000x64 .f32) (x2 : Vec F S5000x64 .f32) (x3 : Vec F S64x128 .f32) (x4 : Vec F S64x128 .f32) (x5 : Vec F S1x128 .f32) (s0 : Vec F S1x128 .f32) (s1 : Vec F S1x128 .f32) (y : S1x128.Idx) :
    ∃ pc ∈ (runLater0 c i arg1 harg1 arg2 harg2 arg3 harg3 arg4 harg4 arg5 harg5 arg6 harg6 arg7 harg7 arg8 harg8 arg9 harg9 arg10 harg10 hc x1 x2 x3 x4 x5 s0 s1).2.2.1, y ∈ pc.1.set :=
  View.cover_of_tiledL (runLater0 c i arg1 harg1 arg2 harg2 arg3 harg3 arg4 harg4 arg5 harg5 arg6 harg6 arg7 harg7 arg8 harg8 arg9 harg9 arg10 harg10 hc x1 x2 x3 x4 x5 s0 s1).2.2.1 S1x128.size (by sl_kernel_rfl) y
/-- A later-tile run's stores into written buffer 3 cover it. -/
theorem coverLater0_3 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst0 i) (x1 : Vec F S5000x64 .f32) (x2 : Vec F S5000x64 .f32) (x3 : Vec F S64x128 .f32) (x4 : Vec F S64x128 .f32) (x5 : Vec F S1x128 .f32) (s0 : Vec F S1x128 .f32) (s1 : Vec F S1x128 .f32) (y : S1x128.Idx) :
    ∃ pc ∈ (runLater0 c i arg1 harg1 arg2 harg2 arg3 harg3 arg4 harg4 arg5 harg5 arg6 harg6 arg7 harg7 arg8 harg8 arg9 harg9 arg10 harg10 hc x1 x2 x3 x4 x5 s0 s1).2.2.2.1, y ∈ pc.1.set :=
  View.cover_of_tiledL (runLater0 c i arg1 harg1 arg2 harg2 arg3 harg3 arg4 harg4 arg5 harg5 arg6 harg6 arg7 harg7 arg8 harg8 arg9 harg9 arg10 harg10 hc x1 x2 x3 x4 x5 s0 s1).2.2.2.1 S1x128.size (by sl_kernel_rfl) y
/-- A later-tile run's stores into written buffer 4 cover it. -/
theorem coverLater0_4 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst0 i) (x1 : Vec F S5000x64 .f32) (x2 : Vec F S5000x64 .f32) (x3 : Vec F S64x128 .f32) (x4 : Vec F S64x128 .f32) (x5 : Vec F S1x128 .f32) (s0 : Vec F S1x128 .f32) (s1 : Vec F S1x128 .f32) (y : S1x128.Idx) :
    ∃ pc ∈ (runLater0 c i arg1 harg1 arg2 harg2 arg3 harg3 arg4 harg4 arg5 harg5 arg6 harg6 arg7 harg7 arg8 harg8 arg9 harg9 arg10 harg10 hc x1 x2 x3 x4 x5 s0 s1).2.2.2.2.1, y ∈ pc.1.set :=
  View.cover_of_tiledL (runLater0 c i arg1 harg1 arg2 harg2 arg3 harg3 arg4 harg4 arg5 harg5 arg6 harg6 arg7 harg7 arg8 harg8 arg9 harg9 arg10 harg10 hc x1 x2 x3 x4 x5 s0 s1).2.2.2.2.1 S1x128.size (by sl_kernel_rfl) y

section
variable (V : (c : Dev nD) → (b : Ref sig .tc) → Buf (Elt F) ((c : Thread nD τ).loc b))

/-! ## Tile by tile -/

/-- What the three result buffers and the two totals hold after the body at tile `n`. -/
def outsAt0 (c : Dev nD) : (n : ℕ) → n < cfg0.N → (Vec F S5000x128 .f32 × Vec F S1x128 .f32 × Vec F S1x128 .f32 × Vec F S1x128 .f32 × Vec F S1x128 .f32)
  | 0, hn => leftFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) tot0_0 (Memref.isWhole_whole _) tot0_1 (Memref.isWhole_whole _) ((isFirst0_iff ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn => leftLater0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) tot0_0 (Memref.isWhole_whole _) tot0_1 (Memref.isWhole_whole _) (fun h => Nat.succ_ne_zero n ((isFirst0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
      (outsAt0 c n (Nat.lt_of_succ_lt hn)).2.2.2.1 (outsAt0 c n (Nat.lt_of_succ_lt hn)).2.2.2.2

theorem outsAt0_first (c : Dev nD) (t : Fin cfg0.N) (h0 : t.val = 0) :
    outsAt0 V c t.val t.isLt = leftFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tot0_0 (Memref.isWhole_whole _) tot0_1 (Memref.isWhole_whole _) ((isFirst0_iff t).mpr h0) (iblk0 V c 0 t) (iblk0 V c 1 t) (iblk0 V c 2 t) (iblk0 V c 3 t) (iblk0 V c 4 t) := by
  obtain ⟨n, hn⟩ := t
  cases n with
  | zero => rfl
  | succ n => exact absurd h0 (Nat.succ_ne_zero n)

theorem outsAt0_later (c : Dev nD) (t : Fin cfg0.N) (h0 : ¬t.val = 0) :
    outsAt0 V c t.val t.isLt = leftLater0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tot0_0 (Memref.isWhole_whole _) tot0_1 (Memref.isWhole_whole _) (fun h => h0 ((isFirst0_iff t).mp h)) (iblk0 V c 0 t) (iblk0 V c 1 t) (iblk0 V c 2 t) (iblk0 V c 3 t) (iblk0 V c 4 t)
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd rfl h0
  | succ n => rfl

/-! ## The invariant: the totals between tiles -/

/-- Before tile `n`: at `n = 0` the pass's own on-chip buffers at anything; at `n + 1` the two totals at what tile `n` left,
    the other on-chip buffers at anything; always the generator register at some state. -/
def PhiS0 (c : Dev nD) : (n : ℕ) → n ≤ cfg0.N → sProp 𝕄
  | 0, _ => Pipeline.ΦA spec0 c
  | n + 1, hn => iprop(iprop(owns (c : Thread nD τ) tot0_0 fullShare (outsAt0 V c n hn).2.2.2.1 ∗ owns (c : Thread nD τ) tot0_1 fullShare (outsAt0 V c n hn).2.2.2.2)
      ∗ Pipeline.scopedRestBut (Ix := Unit) (Name := ℕ) (U := UR sig nD τ) (Lvl := ℕ) (Val := Elt F) spec0 c [cc0_scratch0, cc0_scratch1] ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) tot0_0 fullShare (outsAt0 V c n hn).2.2.2.1 ∗ owns (c : Thread nD τ) tot0_1 fullShare (outsAt0 V c n hn).2.2.2.2)
      ∗ Pipeline.scopedRestBut (Ix := Unit) (Name := ℕ) (U := UR sig nD τ) (Lvl := ℕ) (Val := Elt F) spec0 c [cc0_scratch0, cc0_scratch1] ∗ (∃ r, prngReg c r)) := rfl

theorem PhiS0_pos (c : Dev nD) (n : ℕ) (h : n ≤ cfg0.N) (hz : ¬n = 0) :
    PhiS0 V c n h = iprop(iprop(owns (c : Thread nD τ) tot0_0 fullShare (outsAt0 V c (n - 1) (by omega)).2.2.2.1 ∗ owns (c : Thread nD τ) tot0_1 fullShare (outsAt0 V c (n - 1) (by omega)).2.2.2.2)
      ∗ Pipeline.scopedRestBut (Ix := Unit) (Name := ℕ) (U := UR sig nD τ) (Lvl := ℕ) (Val := Elt F) spec0 c [cc0_scratch0, cc0_scratch1] ∗ (∃ r, prngReg c r)) := by
  cases n with
  | zero => exact absurd rfl hz
  | succ n => rfl

/-- The entry invariant with the two totals split out as buffers owned at some contents. -/
theorem PhiA0_eq (c : Dev nD) :
    (Pipeline.ΦA spec0 c : sProp 𝕄)
      = iprop(iprop(iprop((∃ d, owns (c : Thread nD τ) tot0_0 fullShare d) ∗ (∃ d, owns (c : Thread nD τ) tot0_1 fullShare d)) ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [tot0_0, tot0_1, owns_whole]; try rfl

/-! ## The proof data and the body obligation -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 4800000 in
/-- The body at any tile: the inputs' buffers hold their blocks; at tile 0 the first-tile run applies with the totals at
    anything, at a later tile the later-tile run with the totals at what the tile before left; either way the totals come
    back at this tile's contents, which is the invariant before the next tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7]
  by_cases h0 : t.val = 0
  ·
    rw [outsAt0_first V c t h0]
    unfold leftFirst0; dsimp only
    rw [PhiS0_castSucc V c t, PhiS0_zero V c _ _ h0, PhiA0_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst0 c (grid0.coords t) _ _ _ _ _ _ _ _ _ _ _ _ _ _ _ _ _ _ _ _ ((isFirst0_iff t).mpr h0) (iblk0 V c 0 t) (iblk0 V c 1 t) (iblk0 V c 2 t) (iblk0 V c 3 t) (iblk0 V c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (coverFirst0_3 c _ _ _ _ _ _ _ _ _ _ _ _ _ _ _ _ _ _ _ _ _ _ _ _ _ _ _ )
        · unfold owns; iexists _; isplitr
          swap; · iexact HS1
          ipureintro; exact View.read_writes_eq_canon _ _ _ (coverFirst0_4 c _ _ _ _ _ _ _ _ _ _ _ _ _ _ _ _ _ _ _ _ _ _ _ _ _ _ _ )
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverFirst0_0 c _ _ _ _ _ _ _ _ _ _ _ _ _ _ _ _ _ _ _ _ _ _ _ _ _ _ _ )
    isplitl [H6]
    · unfold owns; iexists _; isplitr
      swap; · iexact H6
      ipureintro; exact View.read_writes_eq_canon _ _ _ (coverFirst0_1 c _ _ _ _ _ _ _ _ _ _ _ _ _ _ _ _ _ _ _ _ _ _ _ _ _ _ _ )
    · unfold owns; iexists _; isplitr
      swap; · iexact H7
      ipureintro; exact View.read_writes_eq_canon _ _ _ (coverFirst0_2 c _ _ _ _ _ _ _ _ _ _ _ _ _ _ _ _ _ _ _ _ _ _ _ _ _ _ _ )
  ·
    rw [outsAt0_later V c t h0]
    unfold leftLater0; dsimp only
    rw [PhiS0_castSucc V c t, PhiS0_pos V c _ _ h0]
    iintro ⟨⟨⟨HS0, HS1⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater0 c (grid0.coords t) _ _ _ _ _ _ _ _ _ _ _ _ _ _ _ _ _ _ _ _ (fun h => h0 ((isFirst0_iff t).mp h)) (iblk0 V c 0 t) (iblk0 V c 1 t) (iblk0 V c 2 t) (iblk0 V c 3 t) (iblk0 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (coverLater0_3 c _ _ _ _ _ _ _ _ _ _ _ _ _ _ _ _ _ _ _ _ _ _ _ _ _ _ _ _ _ )
        · unfold owns; iexists _; isplitr
          swap; · iexact HS1
          ipureintro; exact View.read_writes_eq_canon _ _ _ (coverLater0_4 c _ _ _ _ _ _ _ _ _ _ _ _ _ _ _ _ _ _ _ _ _ _ _ _ _ _ _ _ _ )
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverLater0_0 c _ _ _ _ _ _ _ _ _ _ _ _ _ _ _ _ _ _ _ _ _ _ _ _ _ _ _ _ _ )
    isplitl [H6]
    · unfold owns; iexists _; isplitr
      swap; · iexact H6
      ipureintro; exact View.read_writes_eq_canon _ _ _ (coverLater0_1 c _ _ _ _ _ _ _ _ _ _ _ _ _ _ _ _ _ _ _ _ _ _ _ _ _ _ _ _ _ )
    · unfold owns; iexists _; isplitr
      swap; · iexact H7
      ipureintro; exact View.read_writes_eq_canon _ _ _ (coverLater0_2 c _ _ _ _ _ _ _ _ _ _ _ _ _ _ _ _ _ _ _ _ _ _ _ _ _ _ _ _ _ )

/-- The pipeline's body obligation, at every tile. -/
theorem body_obligation0 (c : Dev nD) : BodyObligation (dat0 (F := F) V c) (defs₀ (F := F)) Variants.none () Set.univ := fun t => by
  rw [bigSep_W0, bigSep_W0]
  exact sound_body0 V c t

/-- What the launch hands the pass is the invariant before tile 0. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last tile the invariant gives the entry invariant back: what the totals hold is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 40 := N_0; omega), PhiA0_eq]
  iintro ⟨⟨HS0, HS1⟩, HR, Hg⟩
  isplitl [HS0 HS1 HR]
  · isplitl [HS0 HS1]
    · isplitl [HS0]
      · iexists _; iexact HS0
      · iexists _; iexact HS1
    iexact HR
  iexact Hg

end

end Cert.Kernel.Hand

end
-- ==== Proof.KB.Norm1.lean ====
/-
  The normalising pass of layer 1: tile by tile over forty row tiles of 5000 rows, each entry of the tile times its
  column's scale plus its column's shift. The body loads the tile, the scale row and the shift row whole, and stores
  the result tile whole, so what it leaves in the result buffer is one function of the three loaded blocks. This module
  states that function, proves the body's run against it, and packs the per-tile facts as the pipeline's proof data at
  any contents `V` of the buffers at the pass's entry.
-/
import proofs.«178594_j20590073217563_1_alg».proof.Proof.Gen.Kernel.Launch
import proofs.«178594_j20590073217563_1_alg».proof.Proof.Gen.Kernel.Skeleton
import proofs.«178594_j20590073217563_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at tile `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds the window's block at every tile, freshly fetched there or not (a block that
    was not re-fetched has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds the window's block at every tile, freshly fetched there or not (a block that
    was not re-fetched has not moved), for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds the window's block at every tile, freshly fetched there or not (a block that
    was not re-fetched has not moved), for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole tile and the whole row, as the rectangles the body's loads and its store go through. -/
abbrev tile1 : Rect S5000x128 := Rect.unit (s := S5000x128) ![0, 0] S5000x128.size inb_S5000x128_S5000x128_0_0
abbrev row1 : Rect S1x128 := Rect.unit (s := S1x128) ![0, 0] S1x128.size inb_S1x128_S1x128_0_0

/-- What the body leaves in the result buffer, from the three input blocks: its one store. -/
def out1_3 (x0 : Vec F S5000x128 .f32) (x1 : Vec F S1x128 .f32) (x2 : Vec F S1x128 .f32) : Vec F S5000x128 .f32 :=
  View.canon [⟨tile1, k1_pay1 (View.ld x0 tile1) (View.ld x1 row1) (View.ld x2 row1)⟩]

/-- That store covers the result buffer. -/
theorem cover1_3 (p0 : Vec F S5000x128 .f32) (y : S5000x128.Idx) :
    ∃ pc ∈ ([⟨tile1, p0⟩] : List (View.Piece (Elt F) S5000x128 .f32)), y ∈ pc.1.set :=
  View.cover_of_tiled [⟨tile1, p0⟩] S5000x128.size (by rfl) y

set_option maxHeartbeats 2000000 in
/-- The body on whole buffers, the inputs' at given contents and the result's at anything, runs to its end with the inputs'
    as they were and the result's at `out1_3` of them. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__normalize_kernel i arg1 harg1 arg2 harg2 arg3 harg3 arg4 harg4) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pass's proof data on core `c`: the arrays as the pass finds them; after the body at tile `t` each input's buffer
    at its block and the result's at `out1_3` of the blocks; the invariant "the pass's other on-chip buffers at
    anything, the generator register at some state"; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
/-- The body at any tile: the inputs' buffers hold their blocks, so the run above applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every tile. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KB.Stats2Base.lean ====
/-
  The fused pass of layer 2 (linear map of the aggregated rows plus linear map of the rows themselves plus bias, clipped
  at zero, with the column sums of the result and of its square) is run tile by tile over forty row tiles of 5000
  rows. Its body branches once, on whether the tile is the first: there the two running column totals are cleared
  before they are added to. This module names that condition, decides over the forty tiles where it holds, and names
  the buffers the body is handed at a tile.
-/
import proofs.«178594_j20590073217563_1_alg».proof.Proof.Gen.Kernel.Launch
import proofs.«178594_j20590073217563_1_alg».proof.Proof.Gen.Kernel.Skeleton
import proofs.«178594_j20590073217563_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile is the first of the forty: the body's guard, as the printed chain of word comparisons on the tile index. -/
abbrev isFirst2 (i : grid2.Coords) : Prop :=
  (Scalar.cmpi .ne (Scalar.extui (Scalar.cmpi .eq (BitVec.ofNat 32 (i 0).val) 0#32)) 0#32) = 1#1

/-- Over the forty tiles the guard holds at tile 0 and nowhere else. -/
theorem isFirst2_iff : ∀ t : Fin cfg2.N, isFirst2 (grid2.coords t) ↔ t.val = 0 :=
  (by decide +kernel : ∀ t : Fin grid2.N, isFirst2 (grid2.coords t) ↔ t.val = 0)

/-- No window of this pass is ever idle: every tile reads all five inputs and stores all three results. -/
theorem live2 : ∀ (w : Fin cfg2.W) (t : Fin cfg2.N), cfg2.idle w (grid2.coords t) = false := by decide +kernel

/-- The buffer window 0 is on at tile `t`, and that it is a whole buffer. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
/-- The buffer window 1 is on at tile `t`, and that it is a whole buffer. -/
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
/-- The buffer window 2 is on at tile `t`, and that it is a whole buffer. -/
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
/-- The buffer window 3 is on at tile `t`, and that it is a whole buffer. -/
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
/-- The buffer window 4 is on at tile `t`, and that it is a whole buffer. -/
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
/-- The buffer window 5 is on at tile `t`, and that it is a whole buffer. -/
abbrev ms2_5 (t : Fin cfg2.N) : Memref sig .tc .vmem S5000x128 .f32 := win2_5.stage (cfg2.slots t 5)
abbrev hs2_5 (t : Fin cfg2.N) : (ms2_5 t).IsWhole := hstage2_5 ((cfg2.slots t 5).cast nbuf2_5)
/-- The buffer window 6 is on at tile `t`, and that it is a whole buffer. -/
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
/-- The buffer window 7 is on at tile `t`, and that it is a whole buffer. -/
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
/-- The two running column totals (of the clipped values, of their squares): buffers of the pass's own, kept from tile to tile. -/
abbrev tot2_0 : Memref sig .tc .vmem S1x128 .f32 := Memref.whole cc2_scratch0
abbrev tot2_1 : Memref sig .tc .vmem S1x128 .f32 := Memref.whole cc2_scratch1

end Cert.Kernel.Hand

end
-- ==== Proof.KB.Stats2First.lean ====
/-
  The body of layer 2's fused pass at the first tile: run on whole buffers — the five inputs at given contents, the
  three result buffers at anything, the two running totals at anything (they are cleared before they are read) — it ends with the
  inputs untouched and each result buffer and each running total overwritten by the stores the run meets, which are
  kept as lists of (rectangle, value) pieces, last store first.
-/
import proofs.«178594_j20590073217563_1_alg».proof.Proof.KB.Stats2Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes at the first tile, per written buffer, with the proof that it runs to its end and leaves exactly them. -/
noncomputable def runFirst2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)
    (hc : isFirst2 i) (x1 : Vec F S5000x128 .f32) (x2 : Vec F S5000x128 .f32) (x3 : Vec F S128x128 .f32) (x4 : Vec F S128x128 .f32) (x5 : Vec F S1x128 .f32) :
    Σ' (L6 : List (View.Piece (Elt F) S5000x128 .f32)) (L7 : List (View.Piece (Elt F) S1x128 .f32)) (L8 : List (View.Piece (Elt F) S1x128 .f32)) (LS0 : List (View.Piece (Elt F) S1x128 .f32)),
    { LS1 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__linear_relu_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__linear_relu_stats_kernel_eq_skeleton]; unfold cc2__linear_relu_stats_kernel_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Hand

end
-- ==== Proof.KB.Stats2Later.lean ====
/-
  The body of layer 2's fused pass at a tile after the first: run on whole buffers — the five inputs at given contents, the
  three result buffers at anything, the two running totals at what the tile before left — it ends with the
  inputs untouched and each result buffer and each running total overwritten by the stores the run meets, which are
  kept as lists of (rectangle, value) pieces, last store first.
-/
import proofs.«178594_j20590073217563_1_alg».proof.Proof.KB.Stats2Base
import proofs.«178594_j20590073217563_1_alg».proof.Proof.KB.Stats2First

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes at a later tile, per written buffer, with the proof that it runs to its end and leaves exactly them. -/
noncomputable def runLater2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)
    (hc : ¬isFirst2 i) (x1 : Vec F S5000x128 .f32) (x2 : Vec F S5000x128 .f32) (x3 : Vec F S128x128 .f32) (x4 : Vec F S128x128 .f32) (x5 : Vec F S1x128 .f32) (s0 : Vec F S1x128 .f32) (s1 : Vec F S1x128 .f32) :
    Σ' (L6 : List (View.Piece (Elt F) S5000x128 .f32)) (L7 : List (View.Piece (Elt F) S1x128 .f32)) (L8 : List (View.Piece (Elt F) S1x128 .f32)) (LS0 : List (View.Piece (Elt F) S1x128 .f32)),
    { LS1 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare s0 ∗ owns (c : Thread nD τ) arg10 fullShare s1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__linear_relu_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__linear_relu_stats_kernel_eq_skeleton]; unfold cc2__linear_relu_stats_kernel_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Hand

end
-- ==== Proof.KB.Stats2Data.lean ====
/-
  The proof data of layer 2's fused pass, at any contents `V` of the buffers at the pass's entry. After the body at tile
  `n` the pass's three result buffers and its two running totals hold five arrays, defined by recursion on `n`: at tile
  0 what the first-tile run leaves from the tile's input blocks; at tile `n + 1` what the later-tile run leaves from the
  tile's input blocks and the two totals tile `n` left. The pipeline's invariant before tile `n + 1` says exactly that the two
  total buffers hold tile `n`'s totals (before tile 0: anything, they are cleared first). From this the body obligation
  at every tile follows from the two runs, by cases on whether the tile is the first.
-/
import proofs.«178594_j20590073217563_1_alg».proof.Proof.KB.Stats2Later

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at tile `t`, read off its array as the pass finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current buffer holds the window's block at every tile, freshly fetched there or not (a block not
    re-fetched has not moved), for any proof data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end

/-! ## What one run leaves: the result tile, the two result rows, the two totals -/

/-- The five arrays the first-tile run leaves (each the contents its list of stores determines). -/
def leftFirst2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst2 i) (x1 : Vec F S5000x128 .f32) (x2 : Vec F S5000x128 .f32) (x3 : Vec F S128x128 .f32) (x4 : Vec F S128x128 .f32) (x5 : Vec F S1x128 .f32) : (Vec F S5000x128 .f32 × Vec F S1x128 .f32 × Vec F S1x128 .f32 × Vec F S1x128 .f32 × Vec F S1x128 .f32) :=
  (View.canon (runFirst2 c i arg1 harg1 arg2 harg2 arg3 harg3 arg4 harg4 arg5 harg5 arg6 harg6 arg7 harg7 arg8 harg8 arg9 harg9 arg10 harg10 hc x1 x2 x3 x4 x5).1, View.canon (runFirst2 c i arg1 harg1 arg2 harg2 arg3 harg3 arg4 harg4 arg5 harg5 arg6 harg6 arg7 harg7 arg8 harg8 arg9 harg9 arg10 harg10 hc x1 x2 x3 x4 x5).2.1, View.canon (runFirst2 c i arg1 harg1 arg2 harg2 arg3 harg3 arg4 harg4 arg5 harg5 arg6 harg6 arg7 harg7 arg8 harg8 arg9 harg9 arg10 harg10 hc x1 x2 x3 x4 x5).2.2.1, View.canon (runFirst2 c i arg1 harg1 arg2 harg2 arg3 harg3 arg4 harg4 arg5 harg5 arg6 harg6 arg7 harg7 arg8 harg8 arg9 harg9 arg10 harg10 hc x1 x2 x3 x4 x5).2.2.2.1, View.canon (runFirst2 c i arg1 harg1 arg2 harg2 arg3 harg3 arg4 harg4 arg5 harg5 arg6 harg6 arg7 harg7 arg8 harg8 arg9 harg9 arg10 harg10 hc x1 x2 x3 x4 x5).2.2.2.2.1)
/-- The first-tile run's stores into written buffer 0 cover it. -/
theorem coverFirst2_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst2 i) (x1 : Vec F S5000x128 .f32) (x2 : Vec F S5000x128 .f32) (x3 : Vec F S128x128 .f32) (x4 : Vec F S128x128 .f32) (x5 : Vec F S1x128 .f32) (y : S5000x128.Idx) :
    ∃ pc ∈ (runFirst2 c i arg1 harg1 arg2 harg2 arg3 harg3 arg4 harg4 arg5 harg5 arg6 harg6 arg7 harg7 arg8 harg8 arg9 harg9 arg10 harg10 hc x1 x2 x3 x4 x5).1, y ∈ pc.1.set :=
  View.cover_of_tiledL (runFirst2 c i arg1 harg1 arg2 harg2 arg3 harg3 arg4 harg4 arg5 harg5 arg6 harg6 arg7 harg7 arg8 harg8 arg9 harg9 arg10 harg10 hc x1 x2 x3 x4 x5).1 S5000x128.size (by sl_kernel_rfl) y
/-- The first-tile run's stores into written buffer 1 cover it. -/
theorem coverFirst2_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst2 i) (x1 : Vec F S5000x128 .f32) (x2 : Vec F S5000x128 .f32) (x3 : Vec F S128x128 .f32) (x4 : Vec F S128x128 .f32) (x5 : Vec F S1x128 .f32) (y : S1x128.Idx) :
    ∃ pc ∈ (runFirst2 c i arg1 harg1 arg2 harg2 arg3 harg3 arg4 harg4 arg5 harg5 arg6 harg6 arg7 harg7 arg8 harg8 arg9 harg9 arg10 harg10 hc x1 x2 x3 x4 x5).2.1, y ∈ pc.1.set :=
  View.cover_of_tiledL (runFirst2 c i arg1 harg1 arg2 harg2 arg3 harg3 arg4 harg4 arg5 harg5 arg6 harg6 arg7 harg7 arg8 harg8 arg9 harg9 arg10 harg10 hc x1 x2 x3 x4 x5).2.1 S1x128.size (by sl_kernel_rfl) y
/-- The first-tile run's stores into written buffer 2 cover it. -/
theorem coverFirst2_2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst2 i) (x1 : Vec F S5000x128 .f32) (x2 : Vec F S5000x128 .f32) (x3 : Vec F S128x128 .f32) (x4 : Vec F S128x128 .f32) (x5 : Vec F S1x128 .f32) (y : S1x128.Idx) :
    ∃ pc ∈ (runFirst2 c i arg1 harg1 arg2 harg2 arg3 harg3 arg4 harg4 arg5 harg5 arg6 harg6 arg7 harg7 arg8 harg8 arg9 harg9 arg10 harg10 hc x1 x2 x3 x4 x5).2.2.1, y ∈ pc.1.set :=
  View.cover_of_tiledL (runFirst2 c i arg1 harg1 arg2 harg2 arg3 harg3 arg4 harg4 arg5 harg5 arg6 harg6 arg7 harg7 arg8 harg8 arg9 harg9 arg10 harg10 hc x1 x2 x3 x4 x5).2.2.1 S1x128.size (by sl_kernel_rfl) y
/-- The first-tile run's stores into written buffer 3 cover it. -/
theorem coverFirst2_3 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst2 i) (x1 : Vec F S5000x128 .f32) (x2 : Vec F S5000x128 .f32) (x3 : Vec F S128x128 .f32) (x4 : Vec F S128x128 .f32) (x5 : Vec F S1x128 .f32) (y : S1x128.Idx) :
    ∃ pc ∈ (runFirst2 c i arg1 harg1 arg2 harg2 arg3 harg3 arg4 harg4 arg5 harg5 arg6 harg6 arg7 harg7 arg8 harg8 arg9 harg9 arg10 harg10 hc x1 x2 x3 x4 x5).2.2.2.1, y ∈ pc.1.set :=
  View.cover_of_tiledL (runFirst2 c i arg1 harg1 arg2 harg2 arg3 harg3 arg4 harg4 arg5 harg5 arg6 harg6 arg7 harg7 arg8 harg8 arg9 harg9 arg10 harg10 hc x1 x2 x3 x4 x5).2.2.2.1 S1x128.size (by sl_kernel_rfl) y
/-- The first-tile run's stores into written buffer 4 cover it. -/
theorem coverFirst2_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst2 i) (x1 : Vec F S5000x128 .f32) (x2 : Vec F S5000x128 .f32) (x3 : Vec F S128x128 .f32) (x4 : Vec F S128x128 .f32) (x5 : Vec F S1x128 .f32) (y : S1x128.Idx) :
    ∃ pc ∈ (runFirst2 c i arg1 harg1 arg2 harg2 arg3 harg3 arg4 harg4 arg5 harg5 arg6 harg6 arg7 harg7 arg8 harg8 arg9 harg9 arg10 harg10 hc x1 x2 x3 x4 x5).2.2.2.2.1, y ∈ pc.1.set :=
  View.cover_of_tiledL (runFirst2 c i arg1 harg1 arg2 harg2 arg3 harg3 arg4 harg4 arg5 harg5 arg6 harg6 arg7 harg7 arg8 harg8 arg9 harg9 arg10 harg10 hc x1 x2 x3 x4 x5).2.2.2.2.1 S1x128.size (by sl_kernel_rfl) y

/-- The five arrays a later-tile run leaves, from the totals `s0`, `s1` the tile before left. -/
def leftLater2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst2 i) (x1 : Vec F S5000x128 .f32) (x2 : Vec F S5000x128 .f32) (x3 : Vec F S128x128 .f32) (x4 : Vec F S128x128 .f32) (x5 : Vec F S1x128 .f32) (s0 : Vec F S1x128 .f32) (s1 : Vec F S1x128 .f32) : (Vec F S5000x128 .f32 × Vec F S1x128 .f32 × Vec F S1x128 .f32 × Vec F S1x128 .f32 × Vec F S1x128 .f32) :=
  (View.canon (runLater2 c i arg1 harg1 arg2 harg2 arg3 harg3 arg4 harg4 arg5 harg5 arg6 harg6 arg7 harg7 arg8 harg8 arg9 harg9 arg10 harg10 hc x1 x2 x3 x4 x5 s0 s1).1, View.canon (runLater2 c i arg1 harg1 arg2 harg2 arg3 harg3 arg4 harg4 arg5 harg5 arg6 harg6 arg7 harg7 arg8 harg8 arg9 harg9 arg10 harg10 hc x1 x2 x3 x4 x5 s0 s1).2.1, View.canon (runLater2 c i arg1 harg1 arg2 harg2 arg3 harg3 arg4 harg4 arg5 harg5 arg6 harg6 arg7 harg7 arg8 harg8 arg9 harg9 arg10 harg10 hc x1 x2 x3 x4 x5 s0 s1).2.2.1, View.canon (runLater2 c i arg1 harg1 arg2 harg2 arg3 harg3 arg4 harg4 arg5 harg5 arg6 harg6 arg7 harg7 arg8 harg8 arg9 harg9 arg10 harg10 hc x1 x2 x3 x4 x5 s0 s1).2.2.2.1, View.canon (runLater2 c i arg1 harg1 arg2 harg2 arg3 harg3 arg4 harg4 arg5 harg5 arg6 harg6 arg7 harg7 arg8 harg8 arg9 harg9 arg10 harg10 hc x1 x2 x3 x4 x5 s0 s1).2.2.2.2.1)
/-- A later-tile run's stores into written buffer 0 cover it. -/
theorem coverLater2_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst2 i) (x1 : Vec F S5000x128 .f32) (x2 : Vec F S5000x128 .f32) (x3 : Vec F S128x128 .f32) (x4 : Vec F S128x128 .f32) (x5 : Vec F S1x128 .f32) (s0 : Vec F S1x128 .f32) (s1 : Vec F S1x128 .f32) (y : S5000x128.Idx) :
    ∃ pc ∈ (runLater2 c i arg1 harg1 arg2 harg2 arg3 harg3 arg4 harg4 arg5 harg5 arg6 harg6 arg7 harg7 arg8 harg8 arg9 harg9 arg10 harg10 hc x1 x2 x3 x4 x5 s0 s1).1, y ∈ pc.1.set :=
  View.cover_of_tiledL (runLater2 c i arg1 harg1 arg2 harg2 arg3 harg3 arg4 harg4 arg5 harg5 arg6 harg6 arg7 harg7 arg8 harg8 arg9 harg9 arg10 harg10 hc x1 x2 x3 x4 x5 s0 s1).1 S5000x128.size (by sl_kernel_rfl) y
/-- A later-tile run's stores into written buffer 1 cover it. -/
theorem coverLater2_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst2 i) (x1 : Vec F S5000x128 .f32) (x2 : Vec F S5000x128 .f32) (x3 : Vec F S128x128 .f32) (x4 : Vec F S128x128 .f32) (x5 : Vec F S1x128 .f32) (s0 : Vec F S1x128 .f32) (s1 : Vec F S1x128 .f32) (y : S1x128.Idx) :
    ∃ pc ∈ (runLater2 c i arg1 harg1 arg2 harg2 arg3 harg3 arg4 harg4 arg5 harg5 arg6 harg6 arg7 harg7 arg8 harg8 arg9 harg9 arg10 harg10 hc x1 x2 x3 x4 x5 s0 s1).2.1, y ∈ pc.1.set :=
  View.cover_of_tiledL (runLater2 c i arg1 harg1 arg2 harg2 arg3 harg3 arg4 harg4 arg5 harg5 arg6 harg6 arg7 harg7 arg8 harg8 arg9 harg9 arg10 harg10 hc x1 x2 x3 x4 x5 s0 s1).2.1 S1x128.size (by sl_kernel_rfl) y
/-- A later-tile run's stores into written buffer 2 cover it. -/
theorem coverLater2_2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst2 i) (x1 : Vec F S5000x128 .f32) (x2 : Vec F S5000x128 .f32) (x3 : Vec F S128x128 .f32) (x4 : Vec F S128x128 .f32) (x5 : Vec F S1x128 .f32) (s0 : Vec F S1x128 .f32) (s1 : Vec F S1x128 .f32) (y : S1x128.Idx) :
    ∃ pc ∈ (runLater2 c i arg1 harg1 arg2 harg2 arg3 harg3 arg4 harg4 arg5 harg5 arg6 harg6 arg7 harg7 arg8 harg8 arg9 harg9 arg10 harg10 hc x1 x2 x3 x4 x5 s0 s1).2.2.1, y ∈ pc.1.set :=
  View.cover_of_tiledL (runLater2 c i arg1 harg1 arg2 harg2 arg3 harg3 arg4 harg4 arg5 harg5 arg6 harg6 arg7 harg7 arg8 harg8 arg9 harg9 arg10 harg10 hc x1 x2 x3 x4 x5 s0 s1).2.2.1 S1x128.size (by sl_kernel_rfl) y
/-- A later-tile run's stores into written buffer 3 cover it. -/
theorem coverLater2_3 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst2 i) (x1 : Vec F S5000x128 .f32) (x2 : Vec F S5000x128 .f32) (x3 : Vec F S128x128 .f32) (x4 : Vec F S128x128 .f32) (x5 : Vec F S1x128 .f32) (s0 : Vec F S1x128 .f32) (s1 : Vec F S1x128 .f32) (y : S1x128.Idx) :
    ∃ pc ∈ (runLater2 c i arg1 harg1 arg2 harg2 arg3 harg3 arg4 harg4 arg5 harg5 arg6 harg6 arg7 harg7 arg8 harg8 arg9 harg9 arg10 harg10 hc x1 x2 x3 x4 x5 s0 s1).2.2.2.1, y ∈ pc.1.set :=
  View.cover_of_tiledL (runLater2 c i arg1 harg1 arg2 harg2 arg3 harg3 arg4 harg4 arg5 harg5 arg6 harg6 arg7 harg7 arg8 harg8 arg9 harg9 arg10 harg10 hc x1 x2 x3 x4 x5 s0 s1).2.2.2.1 S1x128.size (by sl_kernel_rfl) y
/-- A later-tile run's stores into written buffer 4 cover it. -/
theorem coverLater2_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst2 i) (x1 : Vec F S5000x128 .f32) (x2 : Vec F S5000x128 .f32) (x3 : Vec F S128x128 .f32) (x4 : Vec F S128x128 .f32) (x5 : Vec F S1x128 .f32) (s0 : Vec F S1x128 .f32) (s1 : Vec F S1x128 .f32) (y : S1x128.Idx) :
    ∃ pc ∈ (runLater2 c i arg1 harg1 arg2 harg2 arg3 harg3 arg4 harg4 arg5 harg5 arg6 harg6 arg7 harg7 arg8 harg8 arg9 harg9 arg10 harg10 hc x1 x2 x3 x4 x5 s0 s1).2.2.2.2.1, y ∈ pc.1.set :=
  View.cover_of_tiledL (runLater2 c i arg1 harg1 arg2 harg2 arg3 harg3 arg4 harg4 arg5 harg5 arg6 harg6 arg7 harg7 arg8 harg8 arg9 harg9 arg10 harg10 hc x1 x2 x3 x4 x5 s0 s1).2.2.2.2.1 S1x128.size (by sl_kernel_rfl) y

section
variable (V : (c : Dev nD) → (b : Ref sig .tc) → Buf (Elt F) ((c : Thread nD τ).loc b))

/-! ## Tile by tile -/

/-- What the three result buffers and the two totals hold after the body at tile `n`. -/
def outsAt2 (c : Dev nD) : (n : ℕ) → n < cfg2.N → (Vec F S5000x128 .f32 × Vec F S1x128 .f32 × Vec F S1x128 .f32 × Vec F S1x128 .f32 × Vec F S1x128 .f32)
  | 0, hn => leftFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) tot2_0 (Memref.isWhole_whole _) tot2_1 (Memref.isWhole_whole _) ((isFirst2_iff ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn => leftLater2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) tot2_0 (Memref.isWhole_whole _) tot2_1 (Memref.isWhole_whole _) (fun h => Nat.succ_ne_zero n ((isFirst2_iff ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
      (outsAt2 c n (Nat.lt_of_succ_lt hn)).2.2.2.1 (outsAt2 c n (Nat.lt_of_succ_lt hn)).2.2.2.2

theorem outsAt2_first (c : Dev nD) (t : Fin cfg2.N) (h0 : t.val = 0) :
    outsAt2 V c t.val t.isLt = leftFirst2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) tot2_0 (Memref.isWhole_whole _) tot2_1 (Memref.isWhole_whole _) ((isFirst2_iff t).mpr h0) (iblk2 V c 0 t) (iblk2 V c 1 t) (iblk2 V c 2 t) (iblk2 V c 3 t) (iblk2 V c 4 t) := by
  obtain ⟨n, hn⟩ := t
  cases n with
  | zero => rfl
  | succ n => exact absurd h0 (Nat.succ_ne_zero n)

theorem outsAt2_later (c : Dev nD) (t : Fin cfg2.N) (h0 : ¬t.val = 0) :
    outsAt2 V c t.val t.isLt = leftLater2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) tot2_0 (Memref.isWhole_whole _) tot2_1 (Memref.isWhole_whole _) (fun h => h0 ((isFirst2_iff t).mp h)) (iblk2 V c 0 t) (iblk2 V c 1 t) (iblk2 V c 2 t) (iblk2 V c 3 t) (iblk2 V c 4 t)
      (outsAt2 V c (t.val - 1) (Nat.lt_of_le_of_lt (Nat.sub_le _ _) t.isLt)).2.2.2.1 (outsAt2 V c (t.val - 1) (Nat.lt_of_le_of_lt (Nat.sub_le _ _) t.isLt)).2.2.2.2 := by
  obtain ⟨n, hn⟩ := t
  cases n with
  | zero => exact absurd rfl h0
  | succ n => rfl

/-! ## The invariant: the totals between tiles -/

/-- Before tile `n`: at `n = 0` the pass's own on-chip buffers at anything; at `n + 1` the two totals at what tile `n` left,
    the other on-chip buffers at anything; always the generator register at some state. -/
def PhiS2 (c : Dev nD) : (n : ℕ) → n ≤ cfg2.N → sProp 𝕄
  | 0, _ => Pipeline.ΦA spec2 c
  | n + 1, hn => iprop(iprop(owns (c : Thread nD τ) tot2_0 fullShare (outsAt2 V c n hn).2.2.2.1 ∗ owns (c : Thread nD τ) tot2_1 fullShare (outsAt2 V c n hn).2.2.2.2)
      ∗ Pipeline.scopedRestBut (Ix := Unit) (Name := ℕ) (U := UR sig nD τ) (Lvl := ℕ) (Val := Elt F) spec2 c [cc2_scratch0, cc2_scratch1] ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) tot2_0 fullShare (outsAt2 V c n hn).2.2.2.1 ∗ owns (c : Thread nD τ) tot2_1 fullShare (outsAt2 V c n hn).2.2.2.2)
      ∗ Pipeline.scopedRestBut (Ix := Unit) (Name := ℕ) (U := UR sig nD τ) (Lvl := ℕ) (Val := Elt F) spec2 c [cc2_scratch0, cc2_scratch1] ∗ (∃ r, prngReg c r)) := rfl

theorem PhiS2_pos (c : Dev nD) (n : ℕ) (h : n ≤ cfg2.N) (hz : ¬n = 0) :
    PhiS2 V c n h = iprop(iprop(owns (c : Thread nD τ) tot2_0 fullShare (outsAt2 V c (n - 1) (by omega)).2.2.2.1 ∗ owns (c : Thread nD τ) tot2_1 fullShare (outsAt2 V c (n - 1) (by omega)).2.2.2.2)
      ∗ Pipeline.scopedRestBut (Ix := Unit) (Name := ℕ) (U := UR sig nD τ) (Lvl := ℕ) (Val := Elt F) spec2 c [cc2_scratch0, cc2_scratch1] ∗ (∃ r, prngReg c r)) := by
  cases n with
  | zero => exact absurd rfl hz
  | succ n => rfl

/-- The entry invariant with the two totals split out as buffers owned at some contents. -/
theorem PhiA2_eq (c : Dev nD) :
    (Pipeline.ΦA spec2 c : sProp 𝕄)
      = iprop(iprop(iprop((∃ d, owns (c : Thread nD τ) tot2_0 fullShare d) ∗ (∃ d, owns (c : Thread nD τ) tot2_1 fullShare d)) ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [tot2_0, tot2_1, owns_whole]; try rfl

/-! ## The proof data and the body obligation -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 4800000 in
/-- The body at any tile: the inputs' buffers hold their blocks; at tile 0 the first-tile run applies with the totals at
    anything, at a later tile the later-tile run with the totals at what the tile before left; either way the totals come
    back at this tile's contents, which is the invariant before the next tile. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, after2_6, after2_7]
  by_cases h0 : t.val = 0
  ·
    rw [outsAt2_first V c t h0]
    unfold leftFirst2; dsimp only
    rw [PhiS2_castSucc V c t, PhiS2_zero V c _ _ h0, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst2 c (grid2.coords t) _ _ _ _ _ _ _ _ _ _ _ _ _ _ _ _ _ _ _ _ ((isFirst2_iff t).mpr h0) (iblk2 V c 0 t) (iblk2 V c 1 t) (iblk2 V c 2 t) (iblk2 V c 3 t) (iblk2 V c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (coverFirst2_3 c _ _ _ _ _ _ _ _ _ _ _ _ _ _ _ _ _ _ _ _ _ _ _ _ _ _ _ )
        · unfold owns; iexists _; isplitr
          swap; · iexact HS1
          ipureintro; exact View.read_writes_eq_canon _ _ _ (coverFirst2_4 c _ _ _ _ _ _ _ _ _ _ _ _ _ _ _ _ _ _ _ _ _ _ _ _ _ _ _ )
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverFirst2_0 c _ _ _ _ _ _ _ _ _ _ _ _ _ _ _ _ _ _ _ _ _ _ _ _ _ _ _ )
    isplitl [H6]
    · unfold owns; iexists _; isplitr
      swap; · iexact H6
      ipureintro; exact View.read_writes_eq_canon _ _ _ (coverFirst2_1 c _ _ _ _ _ _ _ _ _ _ _ _ _ _ _ _ _ _ _ _ _ _ _ _ _ _ _ )
    · unfold owns; iexists _; isplitr
      swap; · iexact H7
      ipureintro; exact View.read_writes_eq_canon _ _ _ (coverFirst2_2 c _ _ _ _ _ _ _ _ _ _ _ _ _ _ _ _ _ _ _ _ _ _ _ _ _ _ _ )
  ·
    rw [outsAt2_later V c t h0]
    unfold leftLater2; dsimp only
    rw [PhiS2_castSucc V c t, PhiS2_pos V c _ _ h0]
    iintro ⟨⟨⟨HS0, HS1⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater2 c (grid2.coords t) _ _ _ _ _ _ _ _ _ _ _ _ _ _ _ _ _ _ _ _ (fun h => h0 ((isFirst2_iff t).mp h)) (iblk2 V c 0 t) (iblk2 V c 1 t) (iblk2 V c 2 t) (iblk2 V c 3 t) (iblk2 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (coverLater2_3 c _ _ _ _ _ _ _ _ _ _ _ _ _ _ _ _ _ _ _ _ _ _ _ _ _ _ _ _ _ )
        · unfold owns; iexists _; isplitr
          swap; · iexact HS1
          ipureintro; exact View.read_writes_eq_canon _ _ _ (coverLater2_4 c _ _ _ _ _ _ _ _ _ _ _ _ _ _ _ _ _ _ _ _ _ _ _ _ _ _ _ _ _ )
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverLater2_0 c _ _ _ _ _ _ _ _ _ _ _ _ _ _ _ _ _ _ _ _ _ _ _ _ _ _ _ _ _ )
    isplitl [H6]
    · unfold owns; iexists _; isplitr
      swap; · iexact H6
      ipureintro; exact View.read_writes_eq_canon _ _ _ (coverLater2_1 c _ _ _ _ _ _ _ _ _ _ _ _ _ _ _ _ _ _ _ _ _ _ _ _ _ _ _ _ _ )
    · unfold owns; iexists _; isplitr
      swap; · iexact H7
      ipureintro; exact View.read_writes_eq_canon _ _ _ (coverLater2_2 c _ _ _ _ _ _ _ _ _ _ _ _ _ _ _ _ _ _ _ _ _ _ _ _ _ _ _ _ _ )

/-- The pipeline's body obligation, at every tile. -/
theorem body_obligation2 (c : Dev nD) : BodyObligation (dat2 (F := F) V c) (defs₀ (F := F)) Variants.none () Set.univ := fun t => by
  rw [bigSep_W2, bigSep_W2]
  exact sound_body2 V c t

/-- What the launch hands the pass is the invariant before tile 0. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last tile the invariant gives the entry invariant back: what the totals hold is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 40 := N_2; omega), PhiA2_eq]
  iintro ⟨⟨HS0, HS1⟩, HR, Hg⟩
  isplitl [HS0 HS1 HR]
  · isplitl [HS0 HS1]
    · isplitl [HS0]
      · iexists _; iexact HS0
      · iexists _; iexact HS1
    iexact HR
  iexact Hg

end

end Cert.Kernel.Hand

end
-- ==== Proof.KB.Norm3.lean ====
/-
  The normalising pass of layer 2: tile by tile over forty row tiles of 5000 rows, each entry of the tile times its
  column's scale plus its column's shift, clipped at zero. The body loads the tile, the scale row and the shift row whole, and stores
  the result tile whole, so what it leaves in the result buffer is one function of the three loaded blocks. This module
  states that function, proves the body's run against it, and packs the per-tile facts as the pipeline's proof data at
  any contents `V` of the buffers at the pass's entry.
-/
import proofs.«178594_j20590073217563_1_alg».proof.Proof.Gen.Kernel.Launch
import proofs.«178594_j20590073217563_1_alg».proof.Proof.Gen.Kernel.Skeleton
import proofs.«178594_j20590073217563_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at tile `t`, read off its array as the pass finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds the window's block at every tile, freshly fetched there or not (a block that
    was not re-fetched has not moved), for any proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds the window's block at every tile, freshly fetched there or not (a block that
    was not re-fetched has not moved), for any proof data whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds the window's block at every tile, freshly fetched there or not (a block that
    was not re-fetched has not moved), for any proof data whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole tile and the whole row, as the rectangles the body's loads and its store go through. -/
abbrev tile3 : Rect S5000x128 := Rect.unit (s := S5000x128) ![0, 0] S5000x128.size inb_S5000x128_S5000x128_0_0
abbrev row3 : Rect S1x128 := Rect.unit (s := S1x128) ![0, 0] S1x128.size inb_S1x128_S1x128_0_0

/-- What the body leaves in the result buffer, from the three input blocks: its one store. -/
def out3_3 (x0 : Vec F S5000x128 .f32) (x1 : Vec F S1x128 .f32) (x2 : Vec F S1x128 .f32) : Vec F S5000x128 .f32 :=
  View.canon [⟨tile3, k3_pay1 (View.ld x0 tile3) (View.ld x1 row3) (View.ld x2 row3)⟩]

/-- That store covers the result buffer. -/
theorem cover3_3 (p0 : Vec F S5000x128 .f32) (y : S5000x128.Idx) :
    ∃ pc ∈ ([⟨tile3, p0⟩] : List (View.Piece (Elt F) S5000x128 .f32)), y ∈ pc.1.set :=
  View.cover_of_tiled [⟨tile3, p0⟩] S5000x128.size (by rfl) y

set_option maxHeartbeats 2000000 in
/-- The body on whole buffers, the inputs' at given contents and the result's at anything, runs to its end with the inputs'
    as they were and the result's at `out3_3` of them. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__normalize_kernel i arg1 harg1 arg2 harg2 arg3 harg3 arg4 harg4) K := by
  simp only [cc3__normalize_kernel_eq_skeleton]; unfold cc3__normalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pass's proof data on core `c`: the arrays as the pass finds them; after the body at tile `t` each input's buffer
    at its block and the result's at `out3_3` of the blocks; the invariant "the pass's other on-chip buffers at
    anything, the generator register at some state"; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at tile `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

set_option maxHeartbeats 1000000 in
/-- The body at any tile: the inputs' buffers hold their blocks, so the run above applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every tile. -/
theorem body_obligation3 (c : Dev nD) : BodyObligation (dat3 (F := F) V c) (defs₀ (F := F)) Variants.none () Set.univ := fun t => by
  rw [bigSep_W3, bigSep_W3]
  exact sound_body3 V c t

end

end Cert.Kernel.Hand

end
-- ==== Proof.KB.Run.lean ====
/-
  The whole program as a run: four stretches of host operations alternating with the four passes (fused pass of layer 1,
  its normalising pass, fused pass of layer 2, its normalising pass). The contents of every unscoped buffer at each of the
  nine boundaries are a fold from the launch memory: a host stretch applies its operations, a pass replaces its arrays by what
  its write-backs leave and keeps every other buffer. Every weakly fair execution terminates without a fault in a state
  whose unscoped buffers hold the last fold; no stretch writes an argument and no pass writes an input array, so every
  argument ends as launched.
-/
import proofs.«178594_j20590073217563_1_alg».proof.Proof.KB.Stats0Data
import proofs.«178594_j20590073217563_1_alg».proof.Proof.KB.Norm1
import proofs.«178594_j20590073217563_1_alg».proof.Proof.KB.Stats2Data
import proofs.«178594_j20590073217563_1_alg».proof.Proof.KB.Norm3
import proofs.«178594_j20590073217563_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary -/

/-- Core `c`'s buffers at launch. -/
abbrev B0 : Dev nD → Valuation τ sig (Elt F) := fun c b => (s₀ m ρ).mem ((c : Dev nD), b)
/-- Core `c`'s buffers after host stretch 0. -/
abbrev B1 : Dev nD → Valuation τ sig (Elt F) := fun c => StableHlo.after hostOps0 (B0 m ρ c)
/-- The same read at the TensorCore's references: what pass 0 is entered from. -/
abbrev E1 : (c : Dev nD) → (b : Ref sig .tc) → Buf (Elt F) ((c : Thread nD τ).loc b) := fun c b => B1 m ρ c b
theorem B1_of (c : Dev nD) (r : Ref sig .tc) (h : r ∉ hostOps0_W) : B1 m ρ c r = B0 m ρ c r :=
  StableHlo.after_of_writes_sub hostOps0 _ hostOps0_writes h
/-- After pass 0: its arrays at what its write-backs leave, every other buffer as it was entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of m ρ c b fun w e => hb (Finset.mem_image.mpr ⟨w, Finset.mem_univ _, e⟩)
/-- An input window's array is not changed by the pass. -/
theorem B2_in (c : Dev nD) (w : Fin cfg0.W) (hw : (cfg0.win w).isOut = false) :
    B2 m ρ c (Proc.devRef .tc (Pipeline.arrRef spec0 w)) = B1 m ρ c (Proc.devRef .tc (Pipeline.arrRef spec0 w)) :=
  (B2_arr m ρ c w).trans (((dat0 (E1 m ρ) c).arrAt_in w hw _).trans (A_eq0 (E1 m ρ) c w))
/-- Core `c`'s buffers after host stretch 1. -/
abbrev B3 : Dev nD → Valuation τ sig (Elt F) := fun c => StableHlo.after hostOps1 (B2 m ρ c)
/-- The same read at the TensorCore's references: what pass 1 is entered from. -/
abbrev E3 : (c : Dev nD) → (b : Ref sig .tc) → Buf (Elt F) ((c : Thread nD τ).loc b) := fun c b => B3 m ρ c b
theorem B3_of (c : Dev nD) (r : Ref sig .tc) (h : r ∉ hostOps1_W) : B3 m ρ c r = B2 m ρ c r :=
  StableHlo.after_of_writes_sub hostOps1 _ hostOps1_writes h
/-- After pass 1: its arrays at what its write-backs leave, every other buffer as it was entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of m ρ c b fun w e => hb (Finset.mem_image.mpr ⟨w, Finset.mem_univ _, e⟩)
/-- An input window's array is not changed by the pass. -/
theorem B4_in (c : Dev nD) (w : Fin cfg1.W) (hw : (cfg1.win w).isOut = false) :
    B4 m ρ c (Proc.devRef .tc (Pipeline.arrRef spec1 w)) = B3 m ρ c (Proc.devRef .tc (Pipeline.arrRef spec1 w)) :=
  (B4_arr m ρ c w).trans (((dat1 (E3 m ρ) c).arrAt_in w hw _).trans (A_eq1 (E3 m ρ) c w))
/-- Core `c`'s buffers after host stretch 2. -/
abbrev B5 : Dev nD → Valuation τ sig (Elt F) := fun c => StableHlo.after hostOps2 (B4 m ρ c)
/-- The same read at the TensorCore's references: what pass 2 is entered from. -/
abbrev E5 : (c : Dev nD) → (b : Ref sig .tc) → Buf (Elt F) ((c : Thread nD τ).loc b) := fun c b => B5 m ρ c b
theorem B5_of (c : Dev nD) (r : Ref sig .tc) (h : r ∉ hostOps2_W) : B5 m ρ c r = B4 m ρ c r :=
  StableHlo.after_of_writes_sub hostOps2 _ hostOps2_writes h
/-- After pass 2: its arrays at what its write-backs leave, every other buffer as it was entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of m ρ c b fun w e => hb (Finset.mem_image.mpr ⟨w, Finset.mem_univ _, e⟩)
/-- An input window's array is not changed by the pass. -/
theorem B6_in (c : Dev nD) (w : Fin cfg2.W) (hw : (cfg2.win w).isOut = false) :
    B6 m ρ c (Proc.devRef .tc (Pipeline.arrRef spec2 w)) = B5 m ρ c (Proc.devRef .tc (Pipeline.arrRef spec2 w)) :=
  (B6_arr m ρ c w).trans (((dat2 (E5 m ρ) c).arrAt_in w hw _).trans (A_eq2 (E5 m ρ) c w))
/-- Core `c`'s buffers after host stretch 3. -/
abbrev B7 : Dev nD → Valuation τ sig (Elt F) := fun c => StableHlo.after hostOps3 (B6 m ρ c)
/-- The same read at the TensorCore's references: what pass 3 is entered from. -/
abbrev E7 : (c : Dev nD) → (b : Ref sig .tc) → Buf (Elt F) ((c : Thread nD τ).loc b) := fun c b => B7 m ρ c b
theorem B7_of (c : Dev nD) (r : Ref sig .tc) (h : r ∉ hostOps3_W) : B7 m ρ c r = B6 m ρ c r :=
  StableHlo.after_of_writes_sub hostOps3 _ hostOps3_writes h
/-- After pass 3: its arrays at what its write-backs leave, every other buffer as it was entered. -/
def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_of (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev E8 : (c : Dev nD) → (b : Ref sig .tc) → Buf (Elt F) ((c : Thread nD τ).loc b) := fun c b => B8 m ρ c b
theorem hF3 (c : Dev nD) (w : Fin cfg3.W) : (dat3 (E7 m ρ) c).arrAt w cfg3.N = E8 m ρ c (Pipeline.arrRef spec3 w) :=
  (B8_arr m ρ c w).symm
theorem hrest3 (c : Dev nD) : ∀ b, b ∉ Finset.univ.image (Pipeline.arrRef spec3) → E8 m ρ c b = E7 m ρ c b :=
  fun b hb => B8_of m ρ c b fun w e => hb (Finset.mem_image.mpr ⟨w, Finset.mem_univ _, e⟩)
/-- An input window's array is not changed by the pass. -/
theorem B8_in (c : Dev nD) (w : Fin cfg3.W) (hw : (cfg3.win w).isOut = false) :
    B8 m ρ c (Proc.devRef .tc (Pipeline.arrRef spec3 w)) = B7 m ρ c (Proc.devRef .tc (Pipeline.arrRef spec3 w)) :=
  (B8_arr m ρ c w).trans (((dat3 (E7 m ρ) c).arrAt_in w hw _).trans (A_eq3 (E7 m ρ) c w))

/-! ## Every argument ends as launched -/

theorem B8_main_arg0 (c : Dev nD) : B8 m ρ c (Proc.devRef .tc main_arg0) = m ((c : Thread nD τ).loc main_arg0) :=
  (B8_of m ρ c main_arg0 (by decide)).trans <| (B7_of m ρ c main_arg0 (by decide)).trans <| (B6_of m ρ c main_arg0 (by decide)).trans <| (B5_of m ρ c main_arg0 (by decide)).trans <| (B4_of m ρ c main_arg0 (by decide)).trans <| (B3_of m ρ c main_arg0 (by decide)).trans <| (B2_in m ρ c 1 rfl).trans <| (B1_of m ρ c main_arg0 (by decide)).trans <| rfl
theorem B8_main_arg1 (c : Dev nD) : B8 m ρ c (Proc.devRef .tc main_arg1) = m ((c : Thread nD τ).loc main_arg1) :=
  (B8_of m ρ c main_arg1 (by decide)).trans <| (B7_of m ρ c main_arg1 (by decide)).trans <| (B6_of m ρ c main_arg1 (by decide)).trans <| (B5_of m ρ c main_arg1 (by decide)).trans <| (B4_of m ρ c main_arg1 (by decide)).trans <| (B3_of m ρ c main_arg1 (by decide)).trans <| (B2_of m ρ c main_arg1 (by decide)).trans <| (B1_of m ρ c main_arg1 (by decide)).trans <| rfl
theorem B8_main_arg2 (c : Dev nD) : B8 m ρ c (Proc.devRef .tc main_arg2) = m ((c : Thread nD τ).loc main_arg2) :=
  (B8_of m ρ c main_arg2 (by decide)).trans <| (B7_of m ρ c main_arg2 (by decide)).trans <| (B6_of m ρ c main_arg2 (by decide)).trans <| (B5_of m ρ c main_arg2 (by decide)).trans <| (B4_of m ρ c main_arg2 (by decide)).trans <| (B3_of m ρ c main_arg2 (by decide)).trans <| (B2_in m ρ c 2 rfl).trans <| (B1_of m ρ c main_arg2 (by decide)).trans <| rfl
theorem B8_main_arg3 (c : Dev nD) : B8 m ρ c (Proc.devRef .tc main_arg3) = m ((c : Thread nD τ).loc main_arg3) :=
  (B8_of m ρ c main_arg3 (by decide)).trans <| (B7_of m ρ c main_arg3 (by decide)).trans <| (B6_of m ρ c main_arg3 (by decide)).trans <| (B5_of m ρ c main_arg3 (by decide)).trans <| (B4_of m ρ c main_arg3 (by decide)).trans <| (B3_of m ρ c main_arg3 (by decide)).trans <| (B2_of m ρ c main_arg3 (by decide)).trans <| (B1_of m ρ c main_arg3 (by decide)).trans <| rfl
theorem B8_main_arg4 (c : Dev nD) : B8 m ρ c (Proc.devRef .tc main_arg4) = m ((c : Thread nD τ).loc main_arg4) :=
  (B8_of m ρ c main_arg4 (by decide)).trans <| (B7_of m ρ c main_arg4 (by decide)).trans <| (B6_of m ρ c main_arg4 (by decide)).trans <| (B5_of m ρ c main_arg4 (by decide)).trans <| (B4_of m ρ c main_arg4 (by decide)).trans <| (B3_of m ρ c main_arg4 (by decide)).trans <| (B2_in m ρ c 3 rfl).trans <| (B1_of m ρ c main_arg4 (by decide)).trans <| rfl
theorem B8_main_arg5 (c : Dev nD) : B8 m ρ c (Proc.devRef .tc main_arg5) = m ((c : Thread nD τ).loc main_arg5) :=
  (B8_of m ρ c main_arg5 (by decide)).trans <| (B7_of m ρ c main_arg5 (by decide)).trans <| (B6_of m ρ c main_arg5 (by decide)).trans <| (B5_of m ρ c main_arg5 (by decide)).trans <| (B4_of m ρ c main_arg5 (by decide)).trans <| (B3_of m ρ c main_arg5 (by decide)).trans <| (B2_of m ρ c main_arg5 (by decide)).trans <| (B1_of m ρ c main_arg5 (by decide)).trans <| rfl
theorem B8_main_arg6 (c : Dev nD) : B8 m ρ c (Proc.devRef .tc main_arg6) = m ((c : Thread nD τ).loc main_arg6) :=
  (B8_of m ρ c main_arg6 (by decide)).trans <| (B7_of m ρ c main_arg6 (by decide)).trans <| (B6_of m ρ c main_arg6 (by decide)).trans <| (B5_of m ρ c main_arg6 (by decide)).trans <| (B4_of m ρ c main_arg6 (by decide)).trans <| (B3_of m ρ c main_arg6 (by decide)).trans <| (B2_of m ρ c main_arg6 (by decide)).trans <| (B1_of m ρ c main_arg6 (by decide)).trans <| rfl
theorem B8_main_arg7 (c : Dev nD) : B8 m ρ c (Proc.devRef .tc main_arg7) = m ((c : Thread nD τ).loc main_arg7) :=
  (B8_of m ρ c main_arg7 (by decide)).trans <| (B7_of m ρ c main_arg7 (by decide)).trans <| (B6_in m ρ c 2 rfl).trans <| (B5_of m ρ c main_arg7 (by decide)).trans <| (B4_of m ρ c main_arg7 (by decide)).trans <| (B3_of m ρ c main_arg7 (by decide)).trans <| (B2_of m ρ c main_arg7 (by decide)).trans <| (B1_of m ρ c main_arg7 (by decide)).trans <| rfl
theorem B8_main_arg8 (c : Dev nD) : B8 m ρ c (Proc.devRef .tc main_arg8) = m ((c : Thread nD τ).loc main_arg8) :=
  (B8_of m ρ c main_arg8 (by decide)).trans <| (B7_of m ρ c main_arg8 (by decide)).trans <| (B6_of m ρ c main_arg8 (by decide)).trans <| (B5_of m ρ c main_arg8 (by decide)).trans <| (B4_of m ρ c main_arg8 (by decide)).trans <| (B3_of m ρ c main_arg8 (by decide)).trans <| (B2_of m ρ c main_arg8 (by decide)).trans <| (B1_of m ρ c main_arg8 (by decide)).trans <| rfl
theorem B8_main_arg9 (c : Dev nD) : B8 m ρ c (Proc.devRef .tc main_arg9) = m ((c : Thread nD τ).loc main_arg9) :=
  (B8_of m ρ c main_arg9 (by decide)).trans <| (B7_of m ρ c main_arg9 (by decide)).trans <| (B6_in m ρ c 3 rfl).trans <| (B5_of m ρ c main_arg9 (by decide)).trans <| (B4_of m ρ c main_arg9 (by decide)).trans <| (B3_of m ρ c main_arg9 (by decide)).trans <| (B2_of m ρ c main_arg9 (by decide)).trans <| (B1_of m ρ c main_arg9 (by decide)).trans <| rfl
theorem B8_main_arg10 (c : Dev nD) : B8 m ρ c (Proc.devRef .tc main_arg10) = m ((c : Thread nD τ).loc main_arg10) :=
  (B8_of m ρ c main_arg10 (by decide)).trans <| (B7_of m ρ c main_arg10 (by decide)).trans <| (B6_of m ρ c main_arg10 (by decide)).trans <| (B5_of m ρ c main_arg10 (by decide)).trans <| (B4_of m ρ c main_arg10 (by decide)).trans <| (B3_of m ρ c main_arg10 (by decide)).trans <| (B2_of m ρ c main_arg10 (by decide)).trans <| (B1_of m ρ c main_arg10 (by decide)).trans <| rfl
theorem B8_main_arg11 (c : Dev nD) : B8 m ρ c (Proc.devRef .tc main_arg11) = m ((c : Thread nD τ).loc main_arg11) :=
  (B8_of m ρ c main_arg11 (by decide)).trans <| (B7_of m ρ c main_arg11 (by decide)).trans <| (B6_of m ρ c main_arg11 (by decide)).trans <| (B5_of m ρ c main_arg11 (by decide)).trans <| (B4_of m ρ c main_arg11 (by decide)).trans <| (B3_of m ρ c main_arg11 (by decide)).trans <| (B2_of m ρ c main_arg11 (by decide)).trans <| (B1_of m ρ c main_arg11 (by decide)).trans <| rfl

/-! ## The proof data family and the thread state -/

abbrev admH : (p : Fin 4) → (pcfgs (F := F) p).Adm := fun p => (cfgs p).toPCfg_adm
/-- Every pass's proof data, each at its own entry contents. -/
def pdats : (p : Fin 4) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last fold, the generator register at some state. -/
abbrev Tₙ (c : Dev nD) : sProp 𝕄 := iprop(StableHlo.held (c : Thread nD τ) (Pipeline.ucRefs τ sig) (B8 m ρ c) ∗ ∃ r, prngReg c r)

/-! ## The passes as segments -/

set_option backward.isDefEq.respectTransparency.types false in
/-- Pass 0 as a segment: entered with every unscoped buffer at `B1`, left with them at `B2`. Its arrays are split out of the
    unscoped buffers and put back at the exit contents; the generator register goes into the pass's invariant and comes back;
    nothing is owed; the pass has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E1 m ρ) c); unfold Pipeline.ΦA
    iintro ⟨Hp, -, Hr⟩
    isplitl [Hr]; · iexact Hr
    iexact Hp
  hout c := by
    rw [Pipeline.ownSems0_none]
    refine BIBase.Entails.trans (hout0 (E1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 as a segment: entered with every unscoped buffer at `B3`, left with them at `B4`. Its arrays are split out of the
    unscoped buffers and put back at the exit contents; the generator register goes into the pass's invariant and comes back;
    nothing is owed; the pass has no semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 as a segment: entered with every unscoped buffer at `B5`, left with them at `B6`. Its arrays are split out of the
    unscoped buffers and put back at the exit contents; the generator register goes into the pass's invariant and comes back;
    nothing is owed; the pass has no semaphore of its own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E5 m ρ) c); unfold Pipeline.ΦA
    iintro ⟨Hp, -, Hr⟩
    isplitl [Hr]; · iexact Hr
    iexact Hp
  hout c := by
    rw [Pipeline.ownSems0_none]
    refine BIBase.Entails.trans (hout2 (E5 m ρ) c) ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 3 as a segment: entered with every unscoped buffer at `B7`, left with them at `B8`. Its arrays are split out of the
    unscoped buffers and put back at the exit contents; the generator register goes into the pass's invariant and comes back;
    nothing is owed; the pass has no semaphore of its own. -/
def reg3 : Pipeline.RegionSeg (pcfgs (F := F)) admH (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ L lv 3 fun _ _ => rfl
  pre c := iprop(StableHlo.held (c : Thread nD τ) (Pipeline.ucRefs τ sig) (B7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (E7 m ρ c) (E8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segsH : List (Pipeline.Seg (pcfgs (F := F)) admH (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ) ]

theorem main_run (c : Dev nD) : main (F := F) c = Pipeline.Seg.run (segsH m ρ) := by
  rw [main_chain c, Pipeline.Seg.run_eq_chain]; rfl

set_option backward.isDefEq.respectTransparency.types false in
/-- The run: from any memory with zero counters every weakly fair execution terminates, nothing faulting, and in every
    final state each unscoped buffer of each core holds the last fold `B8`. -/
theorem run : θ_run defs (onTc (τ := τ) (main (F := F))) ⟨m, fun _ => 0, ρ⟩ (fun r => ∀ c : Dev nD,
      ∀ b ∈ Pipeline.ucRefs τ sig, r.2.mem (((c : Thread nD τ)).1, b) = B8 m ρ c b) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h c => h c)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c _ (mem_uc main_arg0 (by decide))).trans (B8_main_arg0 m ρ c),
    (h c _ (mem_uc main_arg1 (by decide))).trans (B8_main_arg1 m ρ c),
    (h c _ (mem_uc main_arg2 (by decide))).trans (B8_main_arg2 m ρ c),
    (h c _ (mem_uc main_arg3 (by decide))).trans (B8_main_arg3 m ρ c),
    (h c _ (mem_uc main_arg4 (by decide))).trans (B8_main_arg4 m ρ c),
    (h c _ (mem_uc main_arg5 (by decide))).trans (B8_main_arg5 m ρ c),
    (h c _ (mem_uc main_arg6 (by decide))).trans (B8_main_arg6 m ρ c),
    (h c _ (mem_uc main_arg7 (by decide))).trans (B8_main_arg7 m ρ c),
    (h c _ (mem_uc main_arg8 (by decide))).trans (B8_main_arg8 m ρ c),
    (h c _ (mem_uc main_arg9 (by decide))).trans (B8_main_arg9 m ρ c),
    (h c _ (mem_uc main_arg10 (by decide))).trans (B8_main_arg10 m ρ c),
    (h c _ (mem_uc main_arg11 (by decide))).trans (B8_main_arg11 m ρ c)⟩) (run m ρ)

end Cert.Kernel.Hand

end
-- ==== Proof.KI.Stats0Base.lean ====
/-
  The fused pass of layer 1 (linear map of the aggregated rows plus linear map of the rows themselves plus bias, clipped
  at zero, with the column sums of the result and of its square) is run tile by tile over forty row tiles of 5000
  rows. Its body branches once, on whether the tile is the first: there the two running column totals are cleared
  before they are added to. This module names that condition, decides over the forty tiles where it holds, and names
  the buffers the body is handed at a tile.
-/
import proofs.«178594_j20590073217563_1_alg».proof.Proof.Gen.KernelIdeal.Launch
import proofs.«178594_j20590073217563_1_alg».proof.Proof.Gen.KernelIdeal.Skeleton
import proofs.«178594_j20590073217563_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile is the first of the forty: the body's guard, as the printed chain of word comparisons on the tile index. -/
abbrev isFirst0 (i : grid0.Coords) : Prop :=
  (Scalar.cmpi .ne (Scalar.extui (Scalar.cmpi .eq (BitVec.ofNat 32 (i 0).val) 0#32)) 0#32) = 1#1

/-- Over the forty tiles the guard holds at tile 0 and nowhere else. -/
theorem isFirst0_iff : ∀ t : Fin cfg0.N, isFirst0 (grid0.coords t) ↔ t.val = 0 :=
  (by decide +kernel : ∀ t : Fin grid0.N, isFirst0 (grid0.coords t) ↔ t.val = 0)

/-- No window of this pass is ever idle: every tile reads all five inputs and stores all three results. -/
theorem live0 : ∀ (w : Fin cfg0.W) (t : Fin cfg0.N), cfg0.idle w (grid0.coords t) = false := by decide +kernel

/-- The buffer window 0 is on at tile `t`, and that it is a whole buffer. -/
abbrev ms0_0 (t : Fin cfg0.N) : Memref sig .tc .vmem S5000x64 .f32 := win0_0.stage (cfg0.slots t 0)
abbrev hs0_0 (t : Fin cfg0.N) : (ms0_0 t).IsWhole := hstage0_0 ((cfg0.slots t 0).cast nbuf0_0)
/-- The buffer window 1 is on at tile `t`, and that it is a whole buffer. -/
abbrev ms0_1 (t : Fin cfg0.N) : Memref sig .tc .vmem S5000x64 .f32 := win0_1.stage (cfg0.slots t 1)
abbrev hs0_1 (t : Fin cfg0.N) : (ms0_1 t).IsWhole := hstage0_1 ((cfg0.slots t 1).cast nbuf0_1)
/-- The buffer window 2 is on at tile `t`, and that it is a whole buffer. -/
abbrev ms0_2 (t : Fin cfg0.N) : Memref sig .tc .vmem S64x128 .f32 := win0_2.stage (cfg0.slots t 2)
abbrev hs0_2 (t : Fin cfg0.N) : (ms0_2 t).IsWhole := hstage0_2 ((cfg0.slots t 2).cast nbuf0_2)
/-- The buffer window 3 is on at tile `t`, and that it is a whole buffer. -/
abbrev ms0_3 (t : Fin cfg0.N) : Memref sig .tc .vmem S64x128 .f32 := win0_3.stage (cfg0.slots t 3)
abbrev hs0_3 (t : Fin cfg0.N) : (ms0_3 t).IsWhole := hstage0_3 ((cfg0.slots t 3).cast nbuf0_3)
/-- The buffer window 4 is on at tile `t`, and that it is a whole buffer. -/
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
/-- The buffer window 5 is on at tile `t`, and that it is a whole buffer. -/
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
/-- The buffer window 6 is on at tile `t`, and that it is a whole buffer. -/
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
/-- The buffer window 7 is on at tile `t`, and that it is a whole buffer. -/
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The two running column totals (of the clipped values, of their squares): buffers of the pass's own, kept from tile to tile. -/
abbrev tot0_0 : Memref sig .tc .vmem S1x128 .f32 := Memref.whole cc0_scratch0
abbrev tot0_1 : Memref sig .tc .vmem S1x128 .f32 := Memref.whole cc0_scratch1

end Cert.KernelIdeal.Hand

end
-- ==== Proof.KI.Stats0First.lean ====
/-
  The body of layer 1's fused pass at the first tile: run on whole buffers — the five inputs at given contents, the
  three result buffers at anything, the two running totals at anything (they are cleared before they are read) — it ends with the
  inputs untouched and each result buffer and each running total overwritten by the stores the run meets, which are
  kept as lists of (rectangle, value) pieces, last store first.
-/
import proofs.«178594_j20590073217563_1_alg».proof.Proof.KI.Stats0Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes at the first tile, per written buffer, with the proof that it runs to its end and leaves exactly them. -/
noncomputable def runFirst0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)
    (hc : isFirst0 i) (x1 : Vec F S5000x64 .f32) (x2 : Vec F S5000x64 .f32) (x3 : Vec F S64x128 .f32) (x4 : Vec F S64x128 .f32) (x5 : Vec F S1x128 .f32) :
    Σ' (L6 : List (View.Piece (Elt F) S5000x128 .f32)) (L7 : List (View.Piece (Elt F) S1x128 .f32)) (L8 : List (View.Piece (Elt F) S1x128 .f32)) (LS0 : List (View.Piece (Elt F) S1x128 .f32)),
    { LS1 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_relu_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__linear_relu_stats_kernel_eq_skeleton]; unfold cc0__linear_relu_stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.KI.Stats0Later.lean ====
/-
  The body of layer 1's fused pass at a tile after the first: run on whole buffers — the five inputs at given contents, the
  three result buffers at anything, the two running totals at what the tile before left — it ends with the
  inputs untouched and each result buffer and each running total overwritten by the stores the run meets, which are
  kept as lists of (rectangle, value) pieces, last store first.
-/
import proofs.«178594_j20590073217563_1_alg».proof.Proof.KI.Stats0Base
import proofs.«178594_j20590073217563_1_alg».proof.Proof.KI.Stats0First

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes at a later tile, per written buffer, with the proof that it runs to its end and leaves exactly them. -/
noncomputable def runLater0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)
    (hc : ¬isFirst0 i) (x1 : Vec F S5000x64 .f32) (x2 : Vec F S5000x64 .f32) (x3 : Vec F S64x128 .f32) (x4 : Vec F S64x128 .f32) (x5 : Vec F S1x128 .f32) (s0 : Vec F S1x128 .f32) (s1 : Vec F S1x128 .f32) :
    Σ' (L6 : List (View.Piece (Elt F) S5000x128 .f32)) (L7 : List (View.Piece (Elt F) S1x128 .f32)) (L8 : List (View.Piece (Elt F) S1x128 .f32)) (LS0 : List (View.Piece (Elt F) S1x128 .f32)),
    { LS1 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare s0 ∗ owns (c : Thread nD τ) arg10 fullShare s1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__linear_relu_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__linear_relu_stats_kernel_eq_skeleton]; unfold cc0__linear_relu_stats_kernel_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.KI.Stats0Data.lean ====
/-
  The proof data of layer 1's fused pass, at any contents `V` of the buffers at the pass's entry. After the body at tile
  `n` the pass's three result buffers and its two running totals hold five arrays, defined by recursion on `n`: at tile
  0 what the first-tile run leaves from the tile's input blocks; at tile `n + 1` what the later-tile run leaves from the
  tile's input blocks and the two totals tile `n` left. The pipeline's invariant before tile `n + 1` says exactly that the two
  total buffers hold tile `n`'s totals (before tile 0: anything, they are cleared first). From this the body obligation
  at every tile follows from the two runs, by cases on whether the tile is the first.
-/
import proofs.«178594_j20590073217563_1_alg».proof.Proof.KI.Stats0Later

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at tile `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current buffer holds the window's block at every tile, freshly fetched there or not (a block not
    re-fetched has not moved), for any proof data whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end

/-! ## What one run leaves: the result tile, the two result rows, the two totals -/

/-- The five arrays the first-tile run leaves (each the contents its list of stores determines). -/
def leftFirst0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst0 i) (x1 : Vec F S5000x64 .f32) (x2 : Vec F S5000x64 .f32) (x3 : Vec F S64x128 .f32) (x4 : Vec F S64x128 .f32) (x5 : Vec F S1x128 .f32) : (Vec F S5000x128 .f32 × Vec F S1x128 .f32 × Vec F S1x128 .f32 × Vec F S1x128 .f32 × Vec F S1x128 .f32) :=
  (View.canon (runFirst0 c i arg1 harg1 arg2 harg2 arg3 harg3 arg4 harg4 arg5 harg5 arg6 harg6 arg7 harg7 arg8 harg8 arg9 harg9 arg10 harg10 hc x1 x2 x3 x4 x5).1, View.canon (runFirst0 c i arg1 harg1 arg2 harg2 arg3 harg3 arg4 harg4 arg5 harg5 arg6 harg6 arg7 harg7 arg8 harg8 arg9 harg9 arg10 harg10 hc x1 x2 x3 x4 x5).2.1, View.canon (runFirst0 c i arg1 harg1 arg2 harg2 arg3 harg3 arg4 harg4 arg5 harg5 arg6 harg6 arg7 harg7 arg8 harg8 arg9 harg9 arg10 harg10 hc x1 x2 x3 x4 x5).2.2.1, View.canon (runFirst0 c i arg1 harg1 arg2 harg2 arg3 harg3 arg4 harg4 arg5 harg5 arg6 harg6 arg7 harg7 arg8 harg8 arg9 harg9 arg10 harg10 hc x1 x2 x3 x4 x5).2.2.2.1, View.canon (runFirst0 c i arg1 harg1 arg2 harg2 arg3 harg3 arg4 harg4 arg5 harg5 arg6 harg6 arg7 harg7 arg8 harg8 arg9 harg9 arg10 harg10 hc x1 x2 x3 x4 x5).2.2.2.2.1)
/-- The first-tile run's stores into written buffer 0 cover it. -/
theorem coverFirst0_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst0 i) (x1 : Vec F S5000x64 .f32) (x2 : Vec F S5000x64 .f32) (x3 : Vec F S64x128 .f32) (x4 : Vec F S64x128 .f32) (x5 : Vec F S1x128 .f32) (y : S5000x128.Idx) :
    ∃ pc ∈ (runFirst0 c i arg1 harg1 arg2 harg2 arg3 harg3 arg4 harg4 arg5 harg5 arg6 harg6 arg7 harg7 arg8 harg8 arg9 harg9 arg10 harg10 hc x1 x2 x3 x4 x5).1, y ∈ pc.1.set :=
  View.cover_of_tiledL (runFirst0 c i arg1 harg1 arg2 harg2 arg3 harg3 arg4 harg4 arg5 harg5 arg6 harg6 arg7 harg7 arg8 harg8 arg9 harg9 arg10 harg10 hc x1 x2 x3 x4 x5).1 S5000x128.size (by sl_kernel_rfl) y
/-- The first-tile run's stores into written buffer 1 cover it. -/
theorem coverFirst0_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst0 i) (x1 : Vec F S5000x64 .f32) (x2 : Vec F S5000x64 .f32) (x3 : Vec F S64x128 .f32) (x4 : Vec F S64x128 .f32) (x5 : Vec F S1x128 .f32) (y : S1x128.Idx) :
    ∃ pc ∈ (runFirst0 c i arg1 harg1 arg2 harg2 arg3 harg3 arg4 harg4 arg5 harg5 arg6 harg6 arg7 harg7 arg8 harg8 arg9 harg9 arg10 harg10 hc x1 x2 x3 x4 x5).2.1, y ∈ pc.1.set :=
  View.cover_of_tiledL (runFirst0 c i arg1 harg1 arg2 harg2 arg3 harg3 arg4 harg4 arg5 harg5 arg6 harg6 arg7 harg7 arg8 harg8 arg9 harg9 arg10 harg10 hc x1 x2 x3 x4 x5).2.1 S1x128.size (by sl_kernel_rfl) y
/-- The first-tile run's stores into written buffer 2 cover it. -/
theorem coverFirst0_2 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst0 i) (x1 : Vec F S5000x64 .f32) (x2 : Vec F S5000x64 .f32) (x3 : Vec F S64x128 .f32) (x4 : Vec F S64x128 .f32) (x5 : Vec F S1x128 .f32) (y : S1x128.Idx) :
    ∃ pc ∈ (runFirst0 c i arg1 harg1 arg2 harg2 arg3 harg3 arg4 harg4 arg5 harg5 arg6 harg6 arg7 harg7 arg8 harg8 arg9 harg9 arg10 harg10 hc x1 x2 x3 x4 x5).2.2.1, y ∈ pc.1.set :=
  View.cover_of_tiledL (runFirst0 c i arg1 harg1 arg2 harg2 arg3 harg3 arg4 harg4 arg5 harg5 arg6 harg6 arg7 harg7 arg8 harg8 arg9 harg9 arg10 harg10 hc x1 x2 x3 x4 x5).2.2.1 S1x128.size (by sl_kernel_rfl) y
/-- The first-tile run's stores into written buffer 3 cover it. -/
theorem coverFirst0_3 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst0 i) (x1 : Vec F S5000x64 .f32) (x2 : Vec F S5000x64 .f32) (x3 : Vec F S64x128 .f32) (x4 : Vec F S64x128 .f32) (x5 : Vec F S1x128 .f32) (y : S1x128.Idx) :
    ∃ pc ∈ (runFirst0 c i arg1 harg1 arg2 harg2 arg3 harg3 arg4 harg4 arg5 harg5 arg6 harg6 arg7 harg7 arg8 harg8 arg9 harg9 arg10 harg10 hc x1 x2 x3 x4 x5).2.2.2.1, y ∈ pc.1.set :=
  View.cover_of_tiledL (runFirst0 c i arg1 harg1 arg2 harg2 arg3 harg3 arg4 harg4 arg5 harg5 arg6 harg6 arg7 harg7 arg8 harg8 arg9 harg9 arg10 harg10 hc x1 x2 x3 x4 x5).2.2.2.1 S1x128.size (by sl_kernel_rfl) y
/-- The first-tile run's stores into written buffer 4 cover it. -/
theorem coverFirst0_4 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst0 i) (x1 : Vec F S5000x64 .f32) (x2 : Vec F S5000x64 .f32) (x3 : Vec F S64x128 .f32) (x4 : Vec F S64x128 .f32) (x5 : Vec F S1x128 .f32) (y : S1x128.Idx) :
    ∃ pc ∈ (runFirst0 c i arg1 harg1 arg2 harg2 arg3 harg3 arg4 harg4 arg5 harg5 arg6 harg6 arg7 harg7 arg8 harg8 arg9 harg9 arg10 harg10 hc x1 x2 x3 x4 x5).2.2.2.2.1, y ∈ pc.1.set :=
  View.cover_of_tiledL (runFirst0 c i arg1 harg1 arg2 harg2 arg3 harg3 arg4 harg4 arg5 harg5 arg6 harg6 arg7 harg7 arg8 harg8 arg9 harg9 arg10 harg10 hc x1 x2 x3 x4 x5).2.2.2.2.1 S1x128.size (by sl_kernel_rfl) y

/-- The five arrays a later-tile run leaves, from the totals `s0`, `s1` the tile before left. -/
def leftLater0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst0 i) (x1 : Vec F S5000x64 .f32) (x2 : Vec F S5000x64 .f32) (x3 : Vec F S64x128 .f32) (x4 : Vec F S64x128 .f32) (x5 : Vec F S1x128 .f32) (s0 : Vec F S1x128 .f32) (s1 : Vec F S1x128 .f32) : (Vec F S5000x128 .f32 × Vec F S1x128 .f32 × Vec F S1x128 .f32 × Vec F S1x128 .f32 × Vec F S1x128 .f32) :=
  (View.canon (runLater0 c i arg1 harg1 arg2 harg2 arg3 harg3 arg4 harg4 arg5 harg5 arg6 harg6 arg7 harg7 arg8 harg8 arg9 harg9 arg10 harg10 hc x1 x2 x3 x4 x5 s0 s1).1, View.canon (runLater0 c i arg1 harg1 arg2 harg2 arg3 harg3 arg4 harg4 arg5 harg5 arg6 harg6 arg7 harg7 arg8 harg8 arg9 harg9 arg10 harg10 hc x1 x2 x3 x4 x5 s0 s1).2.1, View.canon (runLater0 c i arg1 harg1 arg2 harg2 arg3 harg3 arg4 harg4 arg5 harg5 arg6 harg6 arg7 harg7 arg8 harg8 arg9 harg9 arg10 harg10 hc x1 x2 x3 x4 x5 s0 s1).2.2.1, View.canon (runLater0 c i arg1 harg1 arg2 harg2 arg3 harg3 arg4 harg4 arg5 harg5 arg6 harg6 arg7 harg7 arg8 harg8 arg9 harg9 arg10 harg10 hc x1 x2 x3 x4 x5 s0 s1).2.2.2.1, View.canon (runLater0 c i arg1 harg1 arg2 harg2 arg3 harg3 arg4 harg4 arg5 harg5 arg6 harg6 arg7 harg7 arg8 harg8 arg9 harg9 arg10 harg10 hc x1 x2 x3 x4 x5 s0 s1).2.2.2.2.1)
/-- A later-tile run's stores into written buffer 0 cover it. -/
theorem coverLater0_0 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst0 i) (x1 : Vec F S5000x64 .f32) (x2 : Vec F S5000x64 .f32) (x3 : Vec F S64x128 .f32) (x4 : Vec F S64x128 .f32) (x5 : Vec F S1x128 .f32) (s0 : Vec F S1x128 .f32) (s1 : Vec F S1x128 .f32) (y : S5000x128.Idx) :
    ∃ pc ∈ (runLater0 c i arg1 harg1 arg2 harg2 arg3 harg3 arg4 harg4 arg5 harg5 arg6 harg6 arg7 harg7 arg8 harg8 arg9 harg9 arg10 harg10 hc x1 x2 x3 x4 x5 s0 s1).1, y ∈ pc.1.set :=
  View.cover_of_tiledL (runLater0 c i arg1 harg1 arg2 harg2 arg3 harg3 arg4 harg4 arg5 harg5 arg6 harg6 arg7 harg7 arg8 harg8 arg9 harg9 arg10 harg10 hc x1 x2 x3 x4 x5 s0 s1).1 S5000x128.size (by sl_kernel_rfl) y
/-- A later-tile run's stores into written buffer 1 cover it. -/
theorem coverLater0_1 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst0 i) (x1 : Vec F S5000x64 .f32) (x2 : Vec F S5000x64 .f32) (x3 : Vec F S64x128 .f32) (x4 : Vec F S64x128 .f32) (x5 : Vec F S1x128 .f32) (s0 : Vec F S1x128 .f32) (s1 : Vec F S1x128 .f32) (y : S1x128.Idx) :
    ∃ pc ∈ (runLater0 c i arg1 harg1 arg2 harg2 arg3 harg3 arg4 harg4 arg5 harg5 arg6 harg6 arg7 harg7 arg8 harg8 arg9 harg9 arg10 harg10 hc x1 x2 x3 x4 x5 s0 s1).2.1, y ∈ pc.1.set :=
  View.cover_of_tiledL (runLater0 c i arg1 harg1 arg2 harg2 arg3 harg3 arg4 harg4 arg5 harg5 arg6 harg6 arg7 harg7 arg8 harg8 arg9 harg9 arg10 harg10 hc x1 x2 x3 x4 x5 s0 s1).2.1 S1x128.size (by sl_kernel_rfl) y
/-- A later-tile run's stores into written buffer 2 cover it. -/
theorem coverLater0_2 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst0 i) (x1 : Vec F S5000x64 .f32) (x2 : Vec F S5000x64 .f32) (x3 : Vec F S64x128 .f32) (x4 : Vec F S64x128 .f32) (x5 : Vec F S1x128 .f32) (s0 : Vec F S1x128 .f32) (s1 : Vec F S1x128 .f32) (y : S1x128.Idx) :
    ∃ pc ∈ (runLater0 c i arg1 harg1 arg2 harg2 arg3 harg3 arg4 harg4 arg5 harg5 arg6 harg6 arg7 harg7 arg8 harg8 arg9 harg9 arg10 harg10 hc x1 x2 x3 x4 x5 s0 s1).2.2.1, y ∈ pc.1.set :=
  View.cover_of_tiledL (runLater0 c i arg1 harg1 arg2 harg2 arg3 harg3 arg4 harg4 arg5 harg5 arg6 harg6 arg7 harg7 arg8 harg8 arg9 harg9 arg10 harg10 hc x1 x2 x3 x4 x5 s0 s1).2.2.1 S1x128.size (by sl_kernel_rfl) y
/-- A later-tile run's stores into written buffer 3 cover it. -/
theorem coverLater0_3 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst0 i) (x1 : Vec F S5000x64 .f32) (x2 : Vec F S5000x64 .f32) (x3 : Vec F S64x128 .f32) (x4 : Vec F S64x128 .f32) (x5 : Vec F S1x128 .f32) (s0 : Vec F S1x128 .f32) (s1 : Vec F S1x128 .f32) (y : S1x128.Idx) :
    ∃ pc ∈ (runLater0 c i arg1 harg1 arg2 harg2 arg3 harg3 arg4 harg4 arg5 harg5 arg6 harg6 arg7 harg7 arg8 harg8 arg9 harg9 arg10 harg10 hc x1 x2 x3 x4 x5 s0 s1).2.2.2.1, y ∈ pc.1.set :=
  View.cover_of_tiledL (runLater0 c i arg1 harg1 arg2 harg2 arg3 harg3 arg4 harg4 arg5 harg5 arg6 harg6 arg7 harg7 arg8 harg8 arg9 harg9 arg10 harg10 hc x1 x2 x3 x4 x5 s0 s1).2.2.2.1 S1x128.size (by sl_kernel_rfl) y
/-- A later-tile run's stores into written buffer 4 cover it. -/
theorem coverLater0_4 (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst0 i) (x1 : Vec F S5000x64 .f32) (x2 : Vec F S5000x64 .f32) (x3 : Vec F S64x128 .f32) (x4 : Vec F S64x128 .f32) (x5 : Vec F S1x128 .f32) (s0 : Vec F S1x128 .f32) (s1 : Vec F S1x128 .f32) (y : S1x128.Idx) :
    ∃ pc ∈ (runLater0 c i arg1 harg1 arg2 harg2 arg3 harg3 arg4 harg4 arg5 harg5 arg6 harg6 arg7 harg7 arg8 harg8 arg9 harg9 arg10 harg10 hc x1 x2 x3 x4 x5 s0 s1).2.2.2.2.1, y ∈ pc.1.set :=
  View.cover_of_tiledL (runLater0 c i arg1 harg1 arg2 harg2 arg3 harg3 arg4 harg4 arg5 harg5 arg6 harg6 arg7 harg7 arg8 harg8 arg9 harg9 arg10 harg10 hc x1 x2 x3 x4 x5 s0 s1).2.2.2.2.1 S1x128.size (by sl_kernel_rfl) y

section
variable (V : (c : Dev nD) → (b : Ref sig .tc) → Buf (Elt F) ((c : Thread nD τ).loc b))

/-! ## Tile by tile -/

/-- What the three result buffers and the two totals hold after the body at tile `n`. -/
def outsAt0 (c : Dev nD) : (n : ℕ) → n < cfg0.N → (Vec F S5000x128 .f32 × Vec F S1x128 .f32 × Vec F S1x128 .f32 × Vec F S1x128 .f32 × Vec F S1x128 .f32)
  | 0, hn => leftFirst0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) tot0_0 (Memref.isWhole_whole _) tot0_1 (Memref.isWhole_whole _) ((isFirst0_iff ⟨0, hn⟩).mpr rfl) (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn => leftLater0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) tot0_0 (Memref.isWhole_whole _) tot0_1 (Memref.isWhole_whole _) (fun h => Nat.succ_ne_zero n ((isFirst0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
      (outsAt0 c n (Nat.lt_of_succ_lt hn)).2.2.2.1 (outsAt0 c n (Nat.lt_of_succ_lt hn)).2.2.2.2

theorem outsAt0_first (c : Dev nD) (t : Fin cfg0.N) (h0 : t.val = 0) :
    outsAt0 V c t.val t.isLt = leftFirst0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tot0_0 (Memref.isWhole_whole _) tot0_1 (Memref.isWhole_whole _) ((isFirst0_iff t).mpr h0) (iblk0 V c 0 t) (iblk0 V c 1 t) (iblk0 V c 2 t) (iblk0 V c 3 t) (iblk0 V c 4 t) := by
  obtain ⟨n, hn⟩ := t
  cases n with
  | zero => rfl
  | succ n => exact absurd h0 (Nat.succ_ne_zero n)

theorem outsAt0_later (c : Dev nD) (t : Fin cfg0.N) (h0 : ¬t.val = 0) :
    outsAt0 V c t.val t.isLt = leftLater0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) tot0_0 (Memref.isWhole_whole _) tot0_1 (Memref.isWhole_whole _) (fun h => h0 ((isFirst0_iff t).mp h)) (iblk0 V c 0 t) (iblk0 V c 1 t) (iblk0 V c 2 t) (iblk0 V c 3 t) (iblk0 V c 4 t)
      (outsAt0 V c (t.val - 1) (Nat.lt_of_le_of_lt (Nat.sub_le _ _) t.isLt)).2.2.2.1 (outsAt0 V c (t.val - 1) (Nat.lt_of_le_of_lt (Nat.sub_le _ _) t.isLt)).2.2.2.2 := by
  obtain ⟨n, hn⟩ := t
  cases n with
  | zero => exact absurd rfl h0
  | succ n => rfl

/-! ## The invariant: the totals between tiles -/

/-- Before tile `n`: at `n = 0` the pass's own on-chip buffers at anything; at `n + 1` the two totals at what tile `n` left,
    the other on-chip buffers at anything; always the generator register at some state. -/
def PhiS0 (c : Dev nD) : (n : ℕ) → n ≤ cfg0.N → sProp 𝕄
  | 0, _ => Pipeline.ΦA spec0 c
  | n + 1, hn => iprop(iprop(owns (c : Thread nD τ) tot0_0 fullShare (outsAt0 V c n hn).2.2.2.1 ∗ owns (c : Thread nD τ) tot0_1 fullShare (outsAt0 V c n hn).2.2.2.2)
      ∗ Pipeline.scopedRestBut (Ix := Unit) (Name := ℕ) (U := UR sig nD τ) (Lvl := ℕ) (Val := Elt F) spec0 c [cc0_scratch0, cc0_scratch1] ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) tot0_0 fullShare (outsAt0 V c n hn).2.2.2.1 ∗ owns (c : Thread nD τ) tot0_1 fullShare (outsAt0 V c n hn).2.2.2.2)
      ∗ Pipeline.scopedRestBut (Ix := Unit) (Name := ℕ) (U := UR sig nD τ) (Lvl := ℕ) (Val := Elt F) spec0 c [cc0_scratch0, cc0_scratch1] ∗ (∃ r, prngReg c r)) := rfl

theorem PhiS0_pos (c : Dev nD) (n : ℕ) (h : n ≤ cfg0.N) (hz : ¬n = 0) :
    PhiS0 V c n h = iprop(iprop(owns (c : Thread nD τ) tot0_0 fullShare (outsAt0 V c (n - 1) (by omega)).2.2.2.1 ∗ owns (c : Thread nD τ) tot0_1 fullShare (outsAt0 V c (n - 1) (by omega)).2.2.2.2)
      ∗ Pipeline.scopedRestBut (Ix := Unit) (Name := ℕ) (U := UR sig nD τ) (Lvl := ℕ) (Val := Elt F) spec0 c [cc0_scratch0, cc0_scratch1] ∗ (∃ r, prngReg c r)) := by
  cases n with
  | zero => exact absurd rfl hz
  | succ n => rfl

/-- The entry invariant with the two totals split out as buffers owned at some contents. -/
theorem PhiA0_eq (c : Dev nD) :
    (Pipeline.ΦA spec0 c : sProp 𝕄)
      = iprop(iprop(iprop((∃ d, owns (c : Thread nD τ) tot0_0 fullShare d) ∗ (∃ d, owns (c : Thread nD τ) tot0_1 fullShare d)) ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [tot0_0, tot0_1, owns_whole]; try rfl

/-! ## The proof data and the body obligation -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t))

set_option maxHeartbeats 4800000 in
/-- The body at any tile: the inputs' buffers hold their blocks; at tile 0 the first-tile run applies with the totals at
    anything, at a later tile the later-tile run with the totals at what the tile before left; either way the totals come
    back at this tile's contents, which is the invariant before the next tile. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [after0_0, after0_1, after0_2, after0_3, after0_4, after0_5, after0_6, after0_7]
  by_cases h0 : t.val = 0
  ·
    rw [outsAt0_first V c t h0]
    unfold leftFirst0; dsimp only
    rw [PhiS0_castSucc V c t, PhiS0_zero V c _ _ h0, PhiA0_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst0 c (grid0.coords t) _ _ _ _ _ _ _ _ _ _ _ _ _ _ _ _ _ _ _ _ ((isFirst0_iff t).mpr h0) (iblk0 V c 0 t) (iblk0 V c 1 t) (iblk0 V c 2 t) (iblk0 V c 3 t) (iblk0 V c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (coverFirst0_3 c _ _ _ _ _ _ _ _ _ _ _ _ _ _ _ _ _ _ _ _ _ _ _ _ _ _ _ )
        · unfold owns; iexists _; isplitr
          swap; · iexact HS1
          ipureintro; exact View.read_writes_eq_canon _ _ _ (coverFirst0_4 c _ _ _ _ _ _ _ _ _ _ _ _ _ _ _ _ _ _ _ _ _ _ _ _ _ _ _ )
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverFirst0_0 c _ _ _ _ _ _ _ _ _ _ _ _ _ _ _ _ _ _ _ _ _ _ _ _ _ _ _ )
    isplitl [H6]
    · unfold owns; iexists _; isplitr
      swap; · iexact H6
      ipureintro; exact View.read_writes_eq_canon _ _ _ (coverFirst0_1 c _ _ _ _ _ _ _ _ _ _ _ _ _ _ _ _ _ _ _ _ _ _ _ _ _ _ _ )
    · unfold owns; iexists _; isplitr
      swap; · iexact H7
      ipureintro; exact View.read_writes_eq_canon _ _ _ (coverFirst0_2 c _ _ _ _ _ _ _ _ _ _ _ _ _ _ _ _ _ _ _ _ _ _ _ _ _ _ _ )
  ·
    rw [outsAt0_later V c t h0]
    unfold leftLater0; dsimp only
    rw [PhiS0_castSucc V c t, PhiS0_pos V c _ _ h0]
    iintro ⟨⟨⟨HS0, HS1⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater0 c (grid0.coords t) _ _ _ _ _ _ _ _ _ _ _ _ _ _ _ _ _ _ _ _ (fun h => h0 ((isFirst0_iff t).mp h)) (iblk0 V c 0 t) (iblk0 V c 1 t) (iblk0 V c 2 t) (iblk0 V c 3 t) (iblk0 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (coverLater0_3 c _ _ _ _ _ _ _ _ _ _ _ _ _ _ _ _ _ _ _ _ _ _ _ _ _ _ _ _ _ )
        · unfold owns; iexists _; isplitr
          swap; · iexact HS1
          ipureintro; exact View.read_writes_eq_canon _ _ _ (coverLater0_4 c _ _ _ _ _ _ _ _ _ _ _ _ _ _ _ _ _ _ _ _ _ _ _ _ _ _ _ _ _ )
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverLater0_0 c _ _ _ _ _ _ _ _ _ _ _ _ _ _ _ _ _ _ _ _ _ _ _ _ _ _ _ _ _ )
    isplitl [H6]
    · unfold owns; iexists _; isplitr
      swap; · iexact H6
      ipureintro; exact View.read_writes_eq_canon _ _ _ (coverLater0_1 c _ _ _ _ _ _ _ _ _ _ _ _ _ _ _ _ _ _ _ _ _ _ _ _ _ _ _ _ _ )
    · unfold owns; iexists _; isplitr
      swap; · iexact H7
      ipureintro; exact View.read_writes_eq_canon _ _ _ (coverLater0_2 c _ _ _ _ _ _ _ _ _ _ _ _ _ _ _ _ _ _ _ _ _ _ _ _ _ _ _ _ _ )

/-- The pipeline's body obligation, at every tile. -/
theorem body_obligation0 (c : Dev nD) : BodyObligation (dat0 (F := F) V c) (defs₀ (F := F)) Variants.none () Set.univ := fun t => by
  rw [bigSep_W0, bigSep_W0]
  exact sound_body0 V c t

/-- What the launch hands the pass is the invariant before tile 0. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last tile the invariant gives the entry invariant back: what the totals hold is forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 40 := N_0; omega), PhiA0_eq]
  iintro ⟨⟨HS0, HS1⟩, HR, Hg⟩
  isplitl [HS0 HS1 HR]
  · isplitl [HS0 HS1]
    · isplitl [HS0]
      · iexists _; iexact HS0
      · iexists _; iexact HS1
    iexact HR
  iexact Hg

end

end Cert.KernelIdeal.Hand

end
-- ==== Proof.KI.Norm1.lean ====
/-
  The normalising pass of layer 1: tile by tile over forty row tiles of 5000 rows, each entry of the tile times its
  column's scale plus its column's shift. The body loads the tile, the scale row and the shift row whole, and stores
  the result tile whole, so what it leaves in the result buffer is one function of the three loaded blocks. This module
  states that function, proves the body's run against it, and packs the per-tile facts as the pipeline's proof data at
  any contents `V` of the buffers at the pass's entry.
-/
import proofs.«178594_j20590073217563_1_alg».proof.Proof.Gen.KernelIdeal.Launch
import proofs.«178594_j20590073217563_1_alg».proof.Proof.Gen.KernelIdeal.Skeleton
import proofs.«178594_j20590073217563_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at tile `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current buffer holds the window's block at every tile, freshly fetched there or not (a block that
    was not re-fetched has not moved), for any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current buffer holds the window's block at every tile, freshly fetched there or not (a block that
    was not re-fetched has not moved), for any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current buffer holds the window's block at every tile, freshly fetched there or not (a block that
    was not re-fetched has not moved), for any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole tile and the whole row, as the rectangles the body's loads and its store go through. -/
abbrev tile1 : Rect S5000x128 := Rect.unit (s := S5000x128) ![0, 0] S5000x128.size inb_S5000x128_S5000x128_0_0
abbrev row1 : Rect S1x128 := Rect.unit (s := S1x128) ![0, 0] S1x128.size inb_S1x128_S1x128_0_0

/-- What the body leaves in the result buffer, from the three input blocks: its one store. -/
def out1_3 (x0 : Vec F S5000x128 .f32) (x1 : Vec F S1x128 .f32) (x2 : Vec F S1x128 .f32) : Vec F S5000x128 .f32 :=
  View.canon [⟨tile1, k1_pay1 (View.ld x0 tile1) (View.ld x1 row1) (View.ld x2 row1)⟩]

/-- That store covers the result buffer. -/
theorem cover1_3 (p0 : Vec F S5000x128 .f32) (y : S5000x128.Idx) :
    ∃ pc ∈ ([⟨tile1, p0⟩] : List (View.Piece (Elt F) S5000x128 .f32)), y ∈ pc.1.set :=
  View.cover_of_tiled [⟨tile1, p0⟩] S5000x128.size (by rfl) y

set_option maxHeartbeats 2000000 in
/-- The body on whole buffers, the inputs' at given contents and the result's at anything, runs to its end with the inputs'
    as they were and the result's at `out1_3` of them. -/
theorem sound_kernel1 (c : Dev nD) (E : Set ℕ) (i : grid1.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__normalize_kernel i arg1 harg1 arg2 harg2 arg3 harg3 arg4 harg4) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pass's proof data on core `c`: the arrays as the pass finds them; after the body at tile `t` each input's buffer
    at its block and the result's at `out1_3` of the blocks; the invariant "the pass's other on-chip buffers at
    anything, the generator register at some state"; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

set_option maxHeartbeats 1000000 in
/-- The body at any tile: the inputs' buffers hold their blocks, so the run above applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every tile. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Stats2Base.lean ====
/-
  The fused pass of layer 2 (linear map of the aggregated rows plus linear map of the rows themselves plus bias, clipped
  at zero, with the column sums of the result and of its square) is run tile by tile over forty row tiles of 5000
  rows. Its body branches once, on whether the tile is the first: there the two running column totals are cleared
  before they are added to. This module names that condition, decides over the forty tiles where it holds, and names
  the buffers the body is handed at a tile.
-/
import proofs.«178594_j20590073217563_1_alg».proof.Proof.Gen.KernelIdeal.Launch
import proofs.«178594_j20590073217563_1_alg».proof.Proof.Gen.KernelIdeal.Skeleton
import proofs.«178594_j20590073217563_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The tile is the first of the forty: the body's guard, as the printed chain of word comparisons on the tile index. -/
abbrev isFirst2 (i : grid2.Coords) : Prop :=
  (Scalar.cmpi .ne (Scalar.extui (Scalar.cmpi .eq (BitVec.ofNat 32 (i 0).val) 0#32)) 0#32) = 1#1

/-- Over the forty tiles the guard holds at tile 0 and nowhere else. -/
theorem isFirst2_iff : ∀ t : Fin cfg2.N, isFirst2 (grid2.coords t) ↔ t.val = 0 :=
  (by decide +kernel : ∀ t : Fin grid2.N, isFirst2 (grid2.coords t) ↔ t.val = 0)

/-- No window of this pass is ever idle: every tile reads all five inputs and stores all three results. -/
theorem live2 : ∀ (w : Fin cfg2.W) (t : Fin cfg2.N), cfg2.idle w (grid2.coords t) = false := by decide +kernel

/-- The buffer window 0 is on at tile `t`, and that it is a whole buffer. -/
abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
/-- The buffer window 1 is on at tile `t`, and that it is a whole buffer. -/
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
/-- The buffer window 2 is on at tile `t`, and that it is a whole buffer. -/
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
/-- The buffer window 3 is on at tile `t`, and that it is a whole buffer. -/
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
/-- The buffer window 4 is on at tile `t`, and that it is a whole buffer. -/
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
/-- The buffer window 5 is on at tile `t`, and that it is a whole buffer. -/
abbrev ms2_5 (t : Fin cfg2.N) : Memref sig .tc .vmem S5000x128 .f32 := win2_5.stage (cfg2.slots t 5)
abbrev hs2_5 (t : Fin cfg2.N) : (ms2_5 t).IsWhole := hstage2_5 ((cfg2.slots t 5).cast nbuf2_5)
/-- The buffer window 6 is on at tile `t`, and that it is a whole buffer. -/
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
/-- The buffer window 7 is on at tile `t`, and that it is a whole buffer. -/
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
/-- The two running column totals (of the clipped values, of their squares): buffers of the pass's own, kept from tile to tile. -/
abbrev tot2_0 : Memref sig .tc .vmem S1x128 .f32 := Memref.whole cc2_scratch0
abbrev tot2_1 : Memref sig .tc .vmem S1x128 .f32 := Memref.whole cc2_scratch1

end Cert.KernelIdeal.Hand

end
-- ==== Proof.KI.Stats2First.lean ====
/-
  The body of layer 2's fused pass at the first tile: run on whole buffers — the five inputs at given contents, the
  three result buffers at anything, the two running totals at anything (they are cleared before they are read) — it ends with the
  inputs untouched and each result buffer and each running total overwritten by the stores the run meets, which are
  kept as lists of (rectangle, value) pieces, last store first.
-/
import proofs.«178594_j20590073217563_1_alg».proof.Proof.KI.Stats2Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes at the first tile, per written buffer, with the proof that it runs to its end and leaves exactly them. -/
noncomputable def runFirst2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)
    (hc : isFirst2 i) (x1 : Vec F S5000x128 .f32) (x2 : Vec F S5000x128 .f32) (x3 : Vec F S128x128 .f32) (x4 : Vec F S128x128 .f32) (x5 : Vec F S1x128 .f32) :
    Σ' (L6 : List (View.Piece (Elt F) S5000x128 .f32)) (L7 : List (View.Piece (Elt F) S1x128 .f32)) (L8 : List (View.Piece (Elt F) S1x128 .f32)) (LS0 : List (View.Piece (Elt F) S1x128 .f32)),
    { LS1 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__linear_relu_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__linear_relu_stats_kernel_eq_skeleton]; unfold cc2__linear_relu_stats_kernel_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.KI.Stats2Later.lean ====
/-
  The body of layer 2's fused pass at a tile after the first: run on whole buffers — the five inputs at given contents, the
  three result buffers at anything, the two running totals at what the tile before left — it ends with the
  inputs untouched and each result buffer and each running total overwritten by the stores the run meets, which are
  kept as lists of (rectangle, value) pieces, last store first.
-/
import proofs.«178594_j20590073217563_1_alg».proof.Proof.KI.Stats2Base
import proofs.«178594_j20590073217563_1_alg».proof.Proof.KI.Stats2First

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes at a later tile, per written buffer, with the proof that it runs to its end and leaves exactly them. -/
noncomputable def runLater2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole)
    (hc : ¬isFirst2 i) (x1 : Vec F S5000x128 .f32) (x2 : Vec F S5000x128 .f32) (x3 : Vec F S128x128 .f32) (x4 : Vec F S128x128 .f32) (x5 : Vec F S1x128 .f32) (s0 : Vec F S1x128 .f32) (s1 : Vec F S1x128 .f32) :
    Σ' (L6 : List (View.Piece (Elt F) S5000x128 .f32)) (L7 : List (View.Piece (Elt F) S1x128 .f32)) (L8 : List (View.Piece (Elt F) S1x128 .f32)) (LS0 : List (View.Piece (Elt F) S1x128 .f32)),
    { LS1 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d)
            ∗ owns (c : Thread nD τ) arg9 fullShare s0 ∗ owns (c : Thread nD τ) arg10 fullShare s1
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__linear_relu_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__linear_relu_stats_kernel_eq_skeleton]; unfold cc2__linear_relu_stats_kernel_skel
    simp only [k2_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hf9; obtain rfl := harg10.eq_unread hf10
    sl_exec (disch := first | exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Hand

end
-- ==== Proof.KI.Stats2Data.lean ====
/-
  The proof data of layer 2's fused pass, at any contents `V` of the buffers at the pass's entry. After the body at tile
  `n` the pass's three result buffers and its two running totals hold five arrays, defined by recursion on `n`: at tile
  0 what the first-tile run leaves from the tile's input blocks; at tile `n + 1` what the later-tile run leaves from the
  tile's input blocks and the two totals tile `n` left. The pipeline's invariant before tile `n + 1` says exactly that the two
  total buffers hold tile `n`'s totals (before tile 0: anything, they are cleared first). From this the body obligation
  at every tile follows from the two runs, by cases on whether the tile is the first.
-/
import proofs.«178594_j20590073217563_1_alg».proof.Proof.KI.Stats2Later

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at tile `t`, read off its array as the pass finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current buffer holds the window's block at every tile, freshly fetched there or not (a block not
    re-fetched has not moved), for any proof data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end

/-! ## What one run leaves: the result tile, the two result rows, the two totals -/

/-- The five arrays the first-tile run leaves (each the contents its list of stores determines). -/
def leftFirst2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst2 i) (x1 : Vec F S5000x128 .f32) (x2 : Vec F S5000x128 .f32) (x3 : Vec F S128x128 .f32) (x4 : Vec F S128x128 .f32) (x5 : Vec F S1x128 .f32) : (Vec F S5000x128 .f32 × Vec F S1x128 .f32 × Vec F S1x128 .f32 × Vec F S1x128 .f32 × Vec F S1x128 .f32) :=
  (View.canon (runFirst2 c i arg1 harg1 arg2 harg2 arg3 harg3 arg4 harg4 arg5 harg5 arg6 harg6 arg7 harg7 arg8 harg8 arg9 harg9 arg10 harg10 hc x1 x2 x3 x4 x5).1, View.canon (runFirst2 c i arg1 harg1 arg2 harg2 arg3 harg3 arg4 harg4 arg5 harg5 arg6 harg6 arg7 harg7 arg8 harg8 arg9 harg9 arg10 harg10 hc x1 x2 x3 x4 x5).2.1, View.canon (runFirst2 c i arg1 harg1 arg2 harg2 arg3 harg3 arg4 harg4 arg5 harg5 arg6 harg6 arg7 harg7 arg8 harg8 arg9 harg9 arg10 harg10 hc x1 x2 x3 x4 x5).2.2.1, View.canon (runFirst2 c i arg1 harg1 arg2 harg2 arg3 harg3 arg4 harg4 arg5 harg5 arg6 harg6 arg7 harg7 arg8 harg8 arg9 harg9 arg10 harg10 hc x1 x2 x3 x4 x5).2.2.2.1, View.canon (runFirst2 c i arg1 harg1 arg2 harg2 arg3 harg3 arg4 harg4 arg5 harg5 arg6 harg6 arg7 harg7 arg8 harg8 arg9 harg9 arg10 harg10 hc x1 x2 x3 x4 x5).2.2.2.2.1)
/-- The first-tile run's stores into written buffer 0 cover it. -/
theorem coverFirst2_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst2 i) (x1 : Vec F S5000x128 .f32) (x2 : Vec F S5000x128 .f32) (x3 : Vec F S128x128 .f32) (x4 : Vec F S128x128 .f32) (x5 : Vec F S1x128 .f32) (y : S5000x128.Idx) :
    ∃ pc ∈ (runFirst2 c i arg1 harg1 arg2 harg2 arg3 harg3 arg4 harg4 arg5 harg5 arg6 harg6 arg7 harg7 arg8 harg8 arg9 harg9 arg10 harg10 hc x1 x2 x3 x4 x5).1, y ∈ pc.1.set :=
  View.cover_of_tiledL (runFirst2 c i arg1 harg1 arg2 harg2 arg3 harg3 arg4 harg4 arg5 harg5 arg6 harg6 arg7 harg7 arg8 harg8 arg9 harg9 arg10 harg10 hc x1 x2 x3 x4 x5).1 S5000x128.size (by sl_kernel_rfl) y
/-- The first-tile run's stores into written buffer 1 cover it. -/
theorem coverFirst2_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst2 i) (x1 : Vec F S5000x128 .f32) (x2 : Vec F S5000x128 .f32) (x3 : Vec F S128x128 .f32) (x4 : Vec F S128x128 .f32) (x5 : Vec F S1x128 .f32) (y : S1x128.Idx) :
    ∃ pc ∈ (runFirst2 c i arg1 harg1 arg2 harg2 arg3 harg3 arg4 harg4 arg5 harg5 arg6 harg6 arg7 harg7 arg8 harg8 arg9 harg9 arg10 harg10 hc x1 x2 x3 x4 x5).2.1, y ∈ pc.1.set :=
  View.cover_of_tiledL (runFirst2 c i arg1 harg1 arg2 harg2 arg3 harg3 arg4 harg4 arg5 harg5 arg6 harg6 arg7 harg7 arg8 harg8 arg9 harg9 arg10 harg10 hc x1 x2 x3 x4 x5).2.1 S1x128.size (by sl_kernel_rfl) y
/-- The first-tile run's stores into written buffer 2 cover it. -/
theorem coverFirst2_2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst2 i) (x1 : Vec F S5000x128 .f32) (x2 : Vec F S5000x128 .f32) (x3 : Vec F S128x128 .f32) (x4 : Vec F S128x128 .f32) (x5 : Vec F S1x128 .f32) (y : S1x128.Idx) :
    ∃ pc ∈ (runFirst2 c i arg1 harg1 arg2 harg2 arg3 harg3 arg4 harg4 arg5 harg5 arg6 harg6 arg7 harg7 arg8 harg8 arg9 harg9 arg10 harg10 hc x1 x2 x3 x4 x5).2.2.1, y ∈ pc.1.set :=
  View.cover_of_tiledL (runFirst2 c i arg1 harg1 arg2 harg2 arg3 harg3 arg4 harg4 arg5 harg5 arg6 harg6 arg7 harg7 arg8 harg8 arg9 harg9 arg10 harg10 hc x1 x2 x3 x4 x5).2.2.1 S1x128.size (by sl_kernel_rfl) y
/-- The first-tile run's stores into written buffer 3 cover it. -/
theorem coverFirst2_3 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst2 i) (x1 : Vec F S5000x128 .f32) (x2 : Vec F S5000x128 .f32) (x3 : Vec F S128x128 .f32) (x4 : Vec F S128x128 .f32) (x5 : Vec F S1x128 .f32) (y : S1x128.Idx) :
    ∃ pc ∈ (runFirst2 c i arg1 harg1 arg2 harg2 arg3 harg3 arg4 harg4 arg5 harg5 arg6 harg6 arg7 harg7 arg8 harg8 arg9 harg9 arg10 harg10 hc x1 x2 x3 x4 x5).2.2.2.1, y ∈ pc.1.set :=
  View.cover_of_tiledL (runFirst2 c i arg1 harg1 arg2 harg2 arg3 harg3 arg4 harg4 arg5 harg5 arg6 harg6 arg7 harg7 arg8 harg8 arg9 harg9 arg10 harg10 hc x1 x2 x3 x4 x5).2.2.2.1 S1x128.size (by sl_kernel_rfl) y
/-- The first-tile run's stores into written buffer 4 cover it. -/
theorem coverFirst2_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst2 i) (x1 : Vec F S5000x128 .f32) (x2 : Vec F S5000x128 .f32) (x3 : Vec F S128x128 .f32) (x4 : Vec F S128x128 .f32) (x5 : Vec F S1x128 .f32) (y : S1x128.Idx) :
    ∃ pc ∈ (runFirst2 c i arg1 harg1 arg2 harg2 arg3 harg3 arg4 harg4 arg5 harg5 arg6 harg6 arg7 harg7 arg8 harg8 arg9 harg9 arg10 harg10 hc x1 x2 x3 x4 x5).2.2.2.2.1, y ∈ pc.1.set :=
  View.cover_of_tiledL (runFirst2 c i arg1 harg1 arg2 harg2 arg3 harg3 arg4 harg4 arg5 harg5 arg6 harg6 arg7 harg7 arg8 harg8 arg9 harg9 arg10 harg10 hc x1 x2 x3 x4 x5).2.2.2.2.1 S1x128.size (by sl_kernel_rfl) y

/-- The five arrays a later-tile run leaves, from the totals `s0`, `s1` the tile before left. -/
def leftLater2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst2 i) (x1 : Vec F S5000x128 .f32) (x2 : Vec F S5000x128 .f32) (x3 : Vec F S128x128 .f32) (x4 : Vec F S128x128 .f32) (x5 : Vec F S1x128 .f32) (s0 : Vec F S1x128 .f32) (s1 : Vec F S1x128 .f32) : (Vec F S5000x128 .f32 × Vec F S1x128 .f32 × Vec F S1x128 .f32 × Vec F S1x128 .f32 × Vec F S1x128 .f32) :=
  (View.canon (runLater2 c i arg1 harg1 arg2 harg2 arg3 harg3 arg4 harg4 arg5 harg5 arg6 harg6 arg7 harg7 arg8 harg8 arg9 harg9 arg10 harg10 hc x1 x2 x3 x4 x5 s0 s1).1, View.canon (runLater2 c i arg1 harg1 arg2 harg2 arg3 harg3 arg4 harg4 arg5 harg5 arg6 harg6 arg7 harg7 arg8 harg8 arg9 harg9 arg10 harg10 hc x1 x2 x3 x4 x5 s0 s1).2.1, View.canon (runLater2 c i arg1 harg1 arg2 harg2 arg3 harg3 arg4 harg4 arg5 harg5 arg6 harg6 arg7 harg7 arg8 harg8 arg9 harg9 arg10 harg10 hc x1 x2 x3 x4 x5 s0 s1).2.2.1, View.canon (runLater2 c i arg1 harg1 arg2 harg2 arg3 harg3 arg4 harg4 arg5 harg5 arg6 harg6 arg7 harg7 arg8 harg8 arg9 harg9 arg10 harg10 hc x1 x2 x3 x4 x5 s0 s1).2.2.2.1, View.canon (runLater2 c i arg1 harg1 arg2 harg2 arg3 harg3 arg4 harg4 arg5 harg5 arg6 harg6 arg7 harg7 arg8 harg8 arg9 harg9 arg10 harg10 hc x1 x2 x3 x4 x5 s0 s1).2.2.2.2.1)
/-- A later-tile run's stores into written buffer 0 cover it. -/
theorem coverLater2_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst2 i) (x1 : Vec F S5000x128 .f32) (x2 : Vec F S5000x128 .f32) (x3 : Vec F S128x128 .f32) (x4 : Vec F S128x128 .f32) (x5 : Vec F S1x128 .f32) (s0 : Vec F S1x128 .f32) (s1 : Vec F S1x128 .f32) (y : S5000x128.Idx) :
    ∃ pc ∈ (runLater2 c i arg1 harg1 arg2 harg2 arg3 harg3 arg4 harg4 arg5 harg5 arg6 harg6 arg7 harg7 arg8 harg8 arg9 harg9 arg10 harg10 hc x1 x2 x3 x4 x5 s0 s1).1, y ∈ pc.1.set :=
  View.cover_of_tiledL (runLater2 c i arg1 harg1 arg2 harg2 arg3 harg3 arg4 harg4 arg5 harg5 arg6 harg6 arg7 harg7 arg8 harg8 arg9 harg9 arg10 harg10 hc x1 x2 x3 x4 x5 s0 s1).1 S5000x128.size (by sl_kernel_rfl) y
/-- A later-tile run's stores into written buffer 1 cover it. -/
theorem coverLater2_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst2 i) (x1 : Vec F S5000x128 .f32) (x2 : Vec F S5000x128 .f32) (x3 : Vec F S128x128 .f32) (x4 : Vec F S128x128 .f32) (x5 : Vec F S1x128 .f32) (s0 : Vec F S1x128 .f32) (s1 : Vec F S1x128 .f32) (y : S1x128.Idx) :
    ∃ pc ∈ (runLater2 c i arg1 harg1 arg2 harg2 arg3 harg3 arg4 harg4 arg5 harg5 arg6 harg6 arg7 harg7 arg8 harg8 arg9 harg9 arg10 harg10 hc x1 x2 x3 x4 x5 s0 s1).2.1, y ∈ pc.1.set :=
  View.cover_of_tiledL (runLater2 c i arg1 harg1 arg2 harg2 arg3 harg3 arg4 harg4 arg5 harg5 arg6 harg6 arg7 harg7 arg8 harg8 arg9 harg9 arg10 harg10 hc x1 x2 x3 x4 x5 s0 s1).2.1 S1x128.size (by sl_kernel_rfl) y
/-- A later-tile run's stores into written buffer 2 cover it. -/
theorem coverLater2_2 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst2 i) (x1 : Vec F S5000x128 .f32) (x2 : Vec F S5000x128 .f32) (x3 : Vec F S128x128 .f32) (x4 : Vec F S128x128 .f32) (x5 : Vec F S1x128 .f32) (s0 : Vec F S1x128 .f32) (s1 : Vec F S1x128 .f32) (y : S1x128.Idx) :
    ∃ pc ∈ (runLater2 c i arg1 harg1 arg2 harg2 arg3 harg3 arg4 harg4 arg5 harg5 arg6 harg6 arg7 harg7 arg8 harg8 arg9 harg9 arg10 harg10 hc x1 x2 x3 x4 x5 s0 s1).2.2.1, y ∈ pc.1.set :=
  View.cover_of_tiledL (runLater2 c i arg1 harg1 arg2 harg2 arg3 harg3 arg4 harg4 arg5 harg5 arg6 harg6 arg7 harg7 arg8 harg8 arg9 harg9 arg10 harg10 hc x1 x2 x3 x4 x5 s0 s1).2.2.1 S1x128.size (by sl_kernel_rfl) y
/-- A later-tile run's stores into written buffer 3 cover it. -/
theorem coverLater2_3 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst2 i) (x1 : Vec F S5000x128 .f32) (x2 : Vec F S5000x128 .f32) (x3 : Vec F S128x128 .f32) (x4 : Vec F S128x128 .f32) (x5 : Vec F S1x128 .f32) (s0 : Vec F S1x128 .f32) (s1 : Vec F S1x128 .f32) (y : S1x128.Idx) :
    ∃ pc ∈ (runLater2 c i arg1 harg1 arg2 harg2 arg3 harg3 arg4 harg4 arg5 harg5 arg6 harg6 arg7 harg7 arg8 harg8 arg9 harg9 arg10 harg10 hc x1 x2 x3 x4 x5 s0 s1).2.2.2.1, y ∈ pc.1.set :=
  View.cover_of_tiledL (runLater2 c i arg1 harg1 arg2 harg2 arg3 harg3 arg4 harg4 arg5 harg5 arg6 harg6 arg7 harg7 arg8 harg8 arg9 harg9 arg10 harg10 hc x1 x2 x3 x4 x5 s0 s1).2.2.2.1 S1x128.size (by sl_kernel_rfl) y
/-- A later-tile run's stores into written buffer 4 cover it. -/
theorem coverLater2_4 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst2 i) (x1 : Vec F S5000x128 .f32) (x2 : Vec F S5000x128 .f32) (x3 : Vec F S128x128 .f32) (x4 : Vec F S128x128 .f32) (x5 : Vec F S1x128 .f32) (s0 : Vec F S1x128 .f32) (s1 : Vec F S1x128 .f32) (y : S1x128.Idx) :
    ∃ pc ∈ (runLater2 c i arg1 harg1 arg2 harg2 arg3 harg3 arg4 harg4 arg5 harg5 arg6 harg6 arg7 harg7 arg8 harg8 arg9 harg9 arg10 harg10 hc x1 x2 x3 x4 x5 s0 s1).2.2.2.2.1, y ∈ pc.1.set :=
  View.cover_of_tiledL (runLater2 c i arg1 harg1 arg2 harg2 arg3 harg3 arg4 harg4 arg5 harg5 arg6 harg6 arg7 harg7 arg8 harg8 arg9 harg9 arg10 harg10 hc x1 x2 x3 x4 x5 s0 s1).2.2.2.2.1 S1x128.size (by sl_kernel_rfl) y

section
variable (V : (c : Dev nD) → (b : Ref sig .tc) → Buf (Elt F) ((c : Thread nD τ).loc b))

/-! ## Tile by tile -/

/-- What the three result buffers and the two totals hold after the body at tile `n`. -/
def outsAt2 (c : Dev nD) : (n : ℕ) → n < cfg2.N → (Vec F S5000x128 .f32 × Vec F S1x128 .f32 × Vec F S1x128 .f32 × Vec F S1x128 .f32 × Vec F S1x128 .f32)
  | 0, hn => leftFirst2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) tot2_0 (Memref.isWhole_whole _) tot2_1 (Memref.isWhole_whole _) ((isFirst2_iff ⟨0, hn⟩).mpr rfl) (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn => leftLater2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) tot2_0 (Memref.isWhole_whole _) tot2_1 (Memref.isWhole_whole _) (fun h => Nat.succ_ne_zero n ((isFirst2_iff ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩)
      (outsAt2 c n (Nat.lt_of_succ_lt hn)).2.2.2.1 (outsAt2 c n (Nat.lt_of_succ_lt hn)).2.2.2.2

theorem outsAt2_first (c : Dev nD) (t : Fin cfg2.N) (h0 : t.val = 0) :
    outsAt2 V c t.val t.isLt = leftFirst2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) tot2_0 (Memref.isWhole_whole _) tot2_1 (Memref.isWhole_whole _) ((isFirst2_iff t).mpr h0) (iblk2 V c 0 t) (iblk2 V c 1 t) (iblk2 V c 2 t) (iblk2 V c 3 t) (iblk2 V c 4 t) := by
  obtain ⟨n, hn⟩ := t
  cases n with
  | zero => rfl
  | succ n => exact absurd h0 (Nat.succ_ne_zero n)

theorem outsAt2_later (c : Dev nD) (t : Fin cfg2.N) (h0 : ¬t.val = 0) :
    outsAt2 V c t.val t.isLt = leftLater2 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) tot2_0 (Memref.isWhole_whole _) tot2_1 (Memref.isWhole_whole _) (fun h => h0 ((isFirst2_iff t).mp h)) (iblk2 V c 0 t) (iblk2 V c 1 t) (iblk2 V c 2 t) (iblk2 V c 3 t) (iblk2 V c 4 t)
      (outsAt2 V c (t.val - 1) (Nat.lt_of_le_of_lt (Nat.sub_le _ _) t.isLt)).2.2.2.1 (outsAt2 V c (t.val - 1) (Nat.lt_of_le_of_lt (Nat.sub_le _ _) t.isLt)).2.2.2.2 := by
  obtain ⟨n, hn⟩ := t
  cases n with
  | zero => exact absurd rfl h0
  | succ n => rfl

/-! ## The invariant: the totals between tiles -/

/-- Before tile `n`: at `n = 0` the pass's own on-chip buffers at anything; at `n + 1` the two totals at what tile `n` left,
    the other on-chip buffers at anything; always the generator register at some state. -/
def PhiS2 (c : Dev nD) : (n : ℕ) → n ≤ cfg2.N → sProp 𝕄
  | 0, _ => Pipeline.ΦA spec2 c
  | n + 1, hn => iprop(iprop(owns (c : Thread nD τ) tot2_0 fullShare (outsAt2 V c n hn).2.2.2.1 ∗ owns (c : Thread nD τ) tot2_1 fullShare (outsAt2 V c n hn).2.2.2.2)
      ∗ Pipeline.scopedRestBut (Ix := Unit) (Name := ℕ) (U := UR sig nD τ) (Lvl := ℕ) (Val := Elt F) spec2 c [cc2_scratch0, cc2_scratch1] ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) tot2_0 fullShare (outsAt2 V c n hn).2.2.2.1 ∗ owns (c : Thread nD τ) tot2_1 fullShare (outsAt2 V c n hn).2.2.2.2)
      ∗ Pipeline.scopedRestBut (Ix := Unit) (Name := ℕ) (U := UR sig nD τ) (Lvl := ℕ) (Val := Elt F) spec2 c [cc2_scratch0, cc2_scratch1] ∗ (∃ r, prngReg c r)) := rfl

theorem PhiS2_pos (c : Dev nD) (n : ℕ) (h : n ≤ cfg2.N) (hz : ¬n = 0) :
    PhiS2 V c n h = iprop(iprop(owns (c : Thread nD τ) tot2_0 fullShare (outsAt2 V c (n - 1) (by omega)).2.2.2.1 ∗ owns (c : Thread nD τ) tot2_1 fullShare (outsAt2 V c (n - 1) (by omega)).2.2.2.2)
      ∗ Pipeline.scopedRestBut (Ix := Unit) (Name := ℕ) (U := UR sig nD τ) (Lvl := ℕ) (Val := Elt F) spec2 c [cc2_scratch0, cc2_scratch1] ∗ (∃ r, prngReg c r)) := by
  cases n with
  | zero => exact absurd rfl hz
  | succ n => rfl

/-- The entry invariant with the two totals split out as buffers owned at some contents. -/
theorem PhiA2_eq (c : Dev nD) :
    (Pipeline.ΦA spec2 c : sProp 𝕄)
      = iprop(iprop(iprop((∃ d, owns (c : Thread nD τ) tot2_0 fullShare d) ∗ (∃ d, owns (c : Thread nD τ) tot2_1 fullShare d)) ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [tot2_0, tot2_1, owns_whole]; try rfl

/-! ## The proof data and the body obligation -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2.1
    | ⟨7, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]
theorem after2_6 (c : Dev nD) (t : Fin cfg2.N) : (dat2 V c).after 6 t = (outsAt2 V c t.val t.isLt).2.1 := by dsimp only [dat2]
theorem after2_7 (c : Dev nD) (t : Fin cfg2.N) : (dat2 V c).after 7 t = (outsAt2 V c t.val t.isLt).2.2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at tile `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t))

set_option maxHeartbeats 4800000 in
/-- The body at any tile: the inputs' buffers hold their blocks; at tile 0 the first-tile run applies with the totals at
    anything, at a later tile the later-tile run with the totals at what the tile before left; either way the totals come
    back at this tile's contents, which is the invariant before the next tile. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [after2_0, after2_1, after2_2, after2_3, after2_4, after2_5, after2_6, after2_7]
  by_cases h0 : t.val = 0
  ·
    rw [outsAt2_first V c t h0]
    unfold leftFirst2; dsimp only
    rw [PhiS2_castSucc V c t, PhiS2_zero V c _ _ h0, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst2 c (grid2.coords t) _ _ _ _ _ _ _ _ _ _ _ _ _ _ _ _ _ _ _ _ ((isFirst2_iff t).mpr h0) (iblk2 V c 0 t) (iblk2 V c 1 t) (iblk2 V c 2 t) (iblk2 V c 3 t) (iblk2 V c 4 t)).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (coverFirst2_3 c _ _ _ _ _ _ _ _ _ _ _ _ _ _ _ _ _ _ _ _ _ _ _ _ _ _ _ )
        · unfold owns; iexists _; isplitr
          swap; · iexact HS1
          ipureintro; exact View.read_writes_eq_canon _ _ _ (coverFirst2_4 c _ _ _ _ _ _ _ _ _ _ _ _ _ _ _ _ _ _ _ _ _ _ _ _ _ _ _ )
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverFirst2_0 c _ _ _ _ _ _ _ _ _ _ _ _ _ _ _ _ _ _ _ _ _ _ _ _ _ _ _ )
    isplitl [H6]
    · unfold owns; iexists _; isplitr
      swap; · iexact H6
      ipureintro; exact View.read_writes_eq_canon _ _ _ (coverFirst2_1 c _ _ _ _ _ _ _ _ _ _ _ _ _ _ _ _ _ _ _ _ _ _ _ _ _ _ _ )
    · unfold owns; iexists _; isplitr
      swap; · iexact H7
      ipureintro; exact View.read_writes_eq_canon _ _ _ (coverFirst2_2 c _ _ _ _ _ _ _ _ _ _ _ _ _ _ _ _ _ _ _ _ _ _ _ _ _ _ _ )
  ·
    rw [outsAt2_later V c t h0]
    unfold leftLater2; dsimp only
    rw [PhiS2_castSucc V c t, PhiS2_pos V c _ _ h0]
    iintro ⟨⟨⟨HS0, HS1⟩, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater2 c (grid2.coords t) _ _ _ _ _ _ _ _ _ _ _ _ _ _ _ _ _ _ _ _ (fun h => h0 ((isFirst2_iff t).mp h)) (iblk2 V c 0 t) (iblk2 V c 1 t) (iblk2 V c 2 t) (iblk2 V c 3 t) (iblk2 V c 4 t) _ _).2.2.2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, ⟨%e5, H5⟩, ⟨%e6, H6⟩, ⟨%e7, H7⟩, ⟨%es0, HS0⟩, ⟨%es1, HS1⟩⟩
    isplitl [HS0 HS1 HR Hg]
    · isplitl [HS0 HS1]
      · isplitl [HS0]
        · unfold owns; iexists _; isplitr
          swap; · iexact HS0
          ipureintro; exact View.read_writes_eq_canon _ _ _ (coverLater2_3 c _ _ _ _ _ _ _ _ _ _ _ _ _ _ _ _ _ _ _ _ _ _ _ _ _ _ _ _ _ )
        · unfold owns; iexists _; isplitr
          swap; · iexact HS1
          ipureintro; exact View.read_writes_eq_canon _ _ _ (coverLater2_4 c _ _ _ _ _ _ _ _ _ _ _ _ _ _ _ _ _ _ _ _ _ _ _ _ _ _ _ _ _ )
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverLater2_0 c _ _ _ _ _ _ _ _ _ _ _ _ _ _ _ _ _ _ _ _ _ _ _ _ _ _ _ _ _ )
    isplitl [H6]
    · unfold owns; iexists _; isplitr
      swap; · iexact H6
      ipureintro; exact View.read_writes_eq_canon _ _ _ (coverLater2_1 c _ _ _ _ _ _ _ _ _ _ _ _ _ _ _ _ _ _ _ _ _ _ _ _ _ _ _ _ _ )
    · unfold owns; iexists _; isplitr
      swap; · iexact H7
      ipureintro; exact View.read_writes_eq_canon _ _ _ (coverLater2_2 c _ _ _ _ _ _ _ _ _ _ _ _ _ _ _ _ _ _ _ _ _ _ _ _ _ _ _ _ _ )

/-- The pipeline's body obligation, at every tile. -/
theorem body_obligation2 (c : Dev nD) : BodyObligation (dat2 (F := F) V c) (defs₀ (F := F)) Variants.none () Set.univ := fun t => by
  rw [bigSep_W2, bigSep_W2]
  exact sound_body2 V c t

/-- What the launch hands the pass is the invariant before tile 0. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last tile the invariant gives the entry invariant back: what the totals hold is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 40 := N_2; omega), PhiA2_eq]
  iintro ⟨⟨HS0, HS1⟩, HR, Hg⟩
  isplitl [HS0 HS1 HR]
  · isplitl [HS0 HS1]
    · isplitl [HS0]
      · iexists _; iexact HS0
      · iexists _; iexact HS1
    iexact HR
  iexact Hg

end

end Cert.KernelIdeal.Hand

end
-- ==== Proof.KI.Norm3.lean ====
/-
  The normalising pass of layer 2: tile by tile over forty row tiles of 5000 rows, each entry of the tile times its
  column's scale plus its column's shift, clipped at zero. The body loads the tile, the scale row and the shift row whole, and stores
  the result tile whole, so what it leaves in the result buffer is one function of the three loaded blocks. This module
  states that function, proves the body's run against it, and packs the per-tile facts as the pipeline's proof data at
  any contents `V` of the buffers at the pass's entry.
-/
import proofs.«178594_j20590073217563_1_alg».proof.Proof.Gen.KernelIdeal.Launch
import proofs.«178594_j20590073217563_1_alg».proof.Proof.Gen.KernelIdeal.Skeleton
import proofs.«178594_j20590073217563_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at tile `t`, read off its array as the pass finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current buffer holds the window's block at every tile, freshly fetched there or not (a block that
    was not re-fetched has not moved), for any proof data whose array is the entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current buffer holds the window's block at every tile, freshly fetched there or not (a block that
    was not re-fetched has not moved), for any proof data whose array is the entry contents and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current buffer holds the window's block at every tile, freshly fetched there or not (a block that
    was not re-fetched has not moved), for any proof data whose array is the entry contents and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole tile and the whole row, as the rectangles the body's loads and its store go through. -/
abbrev tile3 : Rect S5000x128 := Rect.unit (s := S5000x128) ![0, 0] S5000x128.size inb_S5000x128_S5000x128_0_0
abbrev row3 : Rect S1x128 := Rect.unit (s := S1x128) ![0, 0] S1x128.size inb_S1x128_S1x128_0_0

/-- What the body leaves in the result buffer, from the three input blocks: its one store. -/
def out3_3 (x0 : Vec F S5000x128 .f32) (x1 : Vec F S1x128 .f32) (x2 : Vec F S1x128 .f32) : Vec F S5000x128 .f32 :=
  View.canon [⟨tile3, k3_pay1 (View.ld x0 tile3) (View.ld x1 row3) (View.ld x2 row3)⟩]

/-- That store covers the result buffer. -/
theorem cover3_3 (p0 : Vec F S5000x128 .f32) (y : S5000x128.Idx) :
    ∃ pc ∈ ([⟨tile3, p0⟩] : List (View.Piece (Elt F) S5000x128 .f32)), y ∈ pc.1.set :=
  View.cover_of_tiled [⟨tile3, p0⟩] S5000x128.size (by rfl) y

set_option maxHeartbeats 2000000 in
/-- The body on whole buffers, the inputs' at given contents and the result's at anything, runs to its end with the inputs'
    as they were and the result's at `out3_3` of them. -/
theorem sound_kernel3 (c : Dev nD) (E : Set ℕ) (i : grid3.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S1x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__normalize_kernel i arg1 harg1 arg2 harg2 arg3 harg3 arg4 harg4) K := by
  simp only [cc3__normalize_kernel_eq_skeleton]; unfold cc3__normalize_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The pass's proof data on core `c`: the arrays as the pass finds them; after the body at tile `t` each input's buffer
    at its block and the result's at `out3_3` of the blocks; the invariant "the pass's other on-chip buffers at
    anything, the generator register at some state"; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at tile `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

set_option maxHeartbeats 1000000 in
/-- The body at any tile: the inputs' buffers hold their blocks, so the run above applies; the invariant and what the core
    owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every tile. -/
theorem body_obligation3 (c : Dev nD) : BodyObligation (dat3 (F := F) V c) (defs₀ (F := F)) Variants.none () Set.univ := fun t => by
  rw [bigSep_W3, bigSep_W3]
  exact sound_body3 V c t

end

end Cert.KernelIdeal.Hand

end
-- ==== Proof.KI.Run.lean ====
/-
  The whole program as a run: four stretches of host operations alternating with the four passes (fused pass of layer 1,
  its normalising pass, fused pass of layer 2, its normalising pass). The contents of every unscoped buffer at each of the
  nine boundaries are a fold from the launch memory: a host stretch applies its operations, a pass replaces its arrays by what
  its write-backs leave and keeps every other buffer. Every weakly fair execution terminates without a fault in a state
  whose unscoped buffers hold the last fold; no stretch writes an argument and no pass writes an input array, so every
  argument ends as launched.
-/
import proofs.«178594_j20590073217563_1_alg».proof.Proof.KI.Stats0Data
import proofs.«178594_j20590073217563_1_alg».proof.Proof.KI.Norm1
import proofs.«178594_j20590073217563_1_alg».proof.Proof.KI.Stats2Data
import proofs.«178594_j20590073217563_1_alg».proof.Proof.KI.Norm3
import proofs.«178594_j20590073217563_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at each boundary -/

/-- Core `c`'s buffers at launch. -/
abbrev B0 : Dev nD → Valuation τ sig (Elt F) := fun c b => (s₀ m ρ).mem ((c : Dev nD), b)
/-- Core `c`'s buffers after host stretch 0. -/
abbrev B1 : Dev nD → Valuation τ sig (Elt F) := fun c => StableHlo.after hostOps0 (B0 m ρ c)
/-- The same read at the TensorCore's references: what pass 0 is entered from. -/
abbrev E1 : (c : Dev nD) → (b : Ref sig .tc) → Buf (Elt F) ((c : Thread nD τ).loc b) := fun c b => B1 m ρ c b
theorem B1_of (c : Dev nD) (r : Ref sig .tc) (h : r ∉ hostOps0_W) : B1 m ρ c r = B0 m ρ c r :=
  StableHlo.after_of_writes_sub hostOps0 _ hostOps0_writes h
/-- After pass 0: its arrays at what its write-backs leave, every other buffer as it was entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of m ρ c b fun w e => hb (Finset.mem_image.mpr ⟨w, Finset.mem_univ _, e⟩)
/-- An input window's array is not changed by the pass. -/
theorem B2_in (c : Dev nD) (w : Fin cfg0.W) (hw : (cfg0.win w).isOut = false) :
    B2 m ρ c (Proc.devRef .tc (Pipeline.arrRef spec0 w)) = B1 m ρ c (Proc.devRef .tc (Pipeline.arrRef spec0 w)) :=
  (B2_arr m ρ c w).trans (((dat0 (E1 m ρ) c).arrAt_in w hw _).trans (A_eq0 (E1 m ρ) c w))
/-- Core `c`'s buffers after host stretch 1. -/
abbrev B3 : Dev nD → Valuation τ sig (Elt F) := fun c => StableHlo.after hostOps1 (B2 m ρ c)
/-- The same read at the TensorCore's references: what pass 1 is entered from. -/
abbrev E3 : (c : Dev nD) → (b : Ref sig .tc) → Buf (Elt F) ((c : Thread nD τ).loc b) := fun c b => B3 m ρ c b
theorem B3_of (c : Dev nD) (r : Ref sig .tc) (h : r ∉ hostOps1_W) : B3 m ρ c r = B2 m ρ c r :=
  StableHlo.after_of_writes_sub hostOps1 _ hostOps1_writes h
/-- After pass 1: its arrays at what its write-backs leave, every other buffer as it was entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of m ρ c b fun w e => hb (Finset.mem_image.mpr ⟨w, Finset.mem_univ _, e⟩)
/-- An input window's array is not changed by the pass. -/
theorem B4_in (c : Dev nD) (w : Fin cfg1.W) (hw : (cfg1.win w).isOut = false) :
    B4 m ρ c (Proc.devRef .tc (Pipeline.arrRef spec1 w)) = B3 m ρ c (Proc.devRef .tc (Pipeline.arrRef spec1 w)) :=
  (B4_arr m ρ c w).trans (((dat1 (E3 m ρ) c).arrAt_in w hw _).trans (A_eq1 (E3 m ρ) c w))
/-- Core `c`'s buffers after host stretch 2. -/
abbrev B5 : Dev nD → Valuation τ sig (Elt F) := fun c => StableHlo.after hostOps2 (B4 m ρ c)
/-- The same read at the TensorCore's references: what pass 2 is entered from. -/
abbrev E5 : (c : Dev nD) → (b : Ref sig .tc) → Buf (Elt F) ((c : Thread nD τ).loc b) := fun c b => B5 m ρ c b
theorem B5_of (c : Dev nD) (r : Ref sig .tc) (h : r ∉ hostOps2_W) : B5 m ρ c r = B4 m ρ c r :=
  StableHlo.after_of_writes_sub hostOps2 _ hostOps2_writes h
/-- After pass 2: its arrays at what its write-backs leave, every other buffer as it was entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of m ρ c b fun w e => hb (Finset.mem_image.mpr ⟨w, Finset.mem_univ _, e⟩)
/-- An input window's array is not changed by the pass. -/
theorem B6_in (c : Dev nD) (w : Fin cfg2.W) (hw : (cfg2.win w).isOut = false) :
    B6 m ρ c (Proc.devRef .tc (Pipeline.arrRef spec2 w)) = B5 m ρ c (Proc.devRef .tc (Pipeline.arrRef spec2 w)) :=
  (B6_arr m ρ c w).trans (((dat2 (E5 m ρ) c).arrAt_in w hw _).trans (A_eq2 (E5 m ρ) c w))
/-- Core `c`'s buffers after host stretch 3. -/
abbrev B7 : Dev nD → Valuation τ sig (Elt F) := fun c => StableHlo.after hostOps3 (B6 m ρ c)
/-- The same read at the TensorCore's references: what pass 3 is entered from. -/
abbrev E7 : (c : Dev nD) → (b : Ref sig .tc) → Buf (Elt F) ((c : Thread nD τ).loc b) := fun c b => B7 m ρ c b
theorem B7_of (c : Dev nD) (r : Ref sig .tc) (h : r ∉ hostOps3_W) : B7 m ρ c r = B6 m ρ c r :=
  StableHlo.after_of_writes_sub hostOps3 _ hostOps3_writes h
/-- After pass 3: its arrays at what its write-backs leave, every other buffer as it was entered. -/
def B8 (c : Dev nD) : Valuation τ sig (Elt F) :=
  Pipeline.withArrays spec3 c (B7 m ρ c) fun w => (dat3 (E7 m ρ) c).arrAt w cfg3.N
theorem B8_arr (c : Dev nD) (w : Fin cfg3.W) :
    B8 m ρ c (Proc.devRef .tc (Pipeline.arrRef spec3 w)) = (dat3 (E7 m ρ) c).arrAt w cfg3.N := by
  unfold B8; exact Pipeline.withArrays_arr spec3 launch3.win.arr_inj c _ _ w
theorem B8_of (c : Dev nD) (b : Ref sig .tc) (hb : ∀ w, Pipeline.arrRef spec3 w ≠ b) :
    B8 m ρ c (Proc.devRef .tc b) = B7 m ρ c (Proc.devRef .tc b) := by
  unfold B8; exact Pipeline.withArrays_of_ne spec3 c _ _ b hb
abbrev E8 : (c : Dev nD) → (b : Ref sig .tc) → Buf (Elt F) ((c : Thread nD τ).loc b) := fun c b => B8 m ρ c b
theorem hF3 (c : Dev nD) (w : Fin cfg3.W) : (dat3 (E7 m ρ) c).arrAt w cfg3.N = E8 m ρ c (Pipeline.arrRef spec3 w) :=
  (B8_arr m ρ c w).symm
theorem hrest3 (c : Dev nD) : ∀ b, b ∉ Finset.univ.image (Pipeline.arrRef spec3) → E8 m ρ c b = E7 m ρ c b :=
  fun b hb => B8_of m ρ c b fun w e => hb (Finset.mem_image.mpr ⟨w, Finset.mem_univ _, e⟩)
/-- An input window's array is not changed by the pass. -/
theorem B8_in (c : Dev nD) (w : Fin cfg3.W) (hw : (cfg3.win w).isOut = false) :
    B8 m ρ c (Proc.devRef .tc (Pipeline.arrRef spec3 w)) = B7 m ρ c (Proc.devRef .tc (Pipeline.arrRef spec3 w)) :=
  (B8_arr m ρ c w).trans (((dat3 (E7 m ρ) c).arrAt_in w hw _).trans (A_eq3 (E7 m ρ) c w))

/-! ## Every argument ends as launched -/

theorem B8_main_arg0 (c : Dev nD) : B8 m ρ c (Proc.devRef .tc main_arg0) = m ((c : Thread nD τ).loc main_arg0) :=
  (B8_of m ρ c main_arg0 (by decide)).trans <| (B7_of m ρ c main_arg0 (by decide)).trans <| (B6_of m ρ c main_arg0 (by decide)).trans <| (B5_of m ρ c main_arg0 (by decide)).trans <| (B4_of m ρ c main_arg0 (by decide)).trans <| (B3_of m ρ c main_arg0 (by decide)).trans <| (B2_in m ρ c 1 rfl).trans <| (B1_of m ρ c main_arg0 (by decide)).trans <| rfl
theorem B8_main_arg1 (c : Dev nD) : B8 m ρ c (Proc.devRef .tc main_arg1) = m ((c : Thread nD τ).loc main_arg1) :=
  (B8_of m ρ c main_arg1 (by decide)).trans <| (B7_of m ρ c main_arg1 (by decide)).trans <| (B6_of m ρ c main_arg1 (by decide)).trans <| (B5_of m ρ c main_arg1 (by decide)).trans <| (B4_of m ρ c main_arg1 (by decide)).trans <| (B3_of m ρ c main_arg1 (by decide)).trans <| (B2_of m ρ c main_arg1 (by decide)).trans <| (B1_of m ρ c main_arg1 (by decide)).trans <| rfl
theorem B8_main_arg2 (c : Dev nD) : B8 m ρ c (Proc.devRef .tc main_arg2) = m ((c : Thread nD τ).loc main_arg2) :=
  (B8_of m ρ c main_arg2 (by decide)).trans <| (B7_of m ρ c main_arg2 (by decide)).trans <| (B6_of m ρ c main_arg2 (by decide)).trans <| (B5_of m ρ c main_arg2 (by decide)).trans <| (B4_of m ρ c main_arg2 (by decide)).trans <| (B3_of m ρ c main_arg2 (by decide)).trans <| (B2_in m ρ c 2 rfl).trans <| (B1_of m ρ c main_arg2 (by decide)).trans <| rfl
theorem B8_main_arg3 (c : Dev nD) : B8 m ρ c (Proc.devRef .tc main_arg3) = m ((c : Thread nD τ).loc main_arg3) :=
  (B8_of m ρ c main_arg3 (by decide)).trans <| (B7_of m ρ c main_arg3 (by decide)).trans <| (B6_of m ρ c main_arg3 (by decide)).trans <| (B5_of m ρ c main_arg3 (by decide)).trans <| (B4_of m ρ c main_arg3 (by decide)).trans <| (B3_of m ρ c main_arg3 (by decide)).trans <| (B2_of m ρ c main_arg3 (by decide)).trans <| (B1_of m ρ c main_arg3 (by decide)).trans <| rfl
theorem B8_main_arg4 (c : Dev nD) : B8 m ρ c (Proc.devRef .tc main_arg4) = m ((c : Thread nD τ).loc main_arg4) :=
  (B8_of m ρ c main_arg4 (by decide)).trans <| (B7_of m ρ c main_arg4 (by decide)).trans <| (B6_of m ρ c main_arg4 (by decide)).trans <| (B5_of m ρ c main_arg4 (by decide)).trans <| (B4_of m ρ c main_arg4 (by decide)).trans <| (B3_of m ρ c main_arg4 (by decide)).trans <| (B2_in m ρ c 3 rfl).trans <| (B1_of m ρ c main_arg4 (by decide)).trans <| rfl
theorem B8_main_arg5 (c : Dev nD) : B8 m ρ c (Proc.devRef .tc main_arg5) = m ((c : Thread nD τ).loc main_arg5) :=
  (B8_of m ρ c main_arg5 (by decide)).trans <| (B7_of m ρ c main_arg5 (by decide)).trans <| (B6_of m ρ c main_arg5 (by decide)).trans <| (B5_of m ρ c main_arg5 (by decide)).trans <| (B4_of m ρ c main_arg5 (by decide)).trans <| (B3_of m ρ c main_arg5 (by decide)).trans <| (B2_of m ρ c main_arg5 (by decide)).trans <| (B1_of m ρ c main_arg5 (by decide)).trans <| rfl
theorem B8_main_arg6 (c : Dev nD) : B8 m ρ c (Proc.devRef .tc main_arg6) = m ((c : Thread nD τ).loc main_arg6) :=
  (B8_of m ρ c main_arg6 (by decide)).trans <| (B7_of m ρ c main_arg6 (by decide)).trans <| (B6_of m ρ c main_arg6 (by decide)).trans <| (B5_of m ρ c main_arg6 (by decide)).trans <| (B4_of m ρ c main_arg6 (by decide)).trans <| (B3_of m ρ c main_arg6 (by decide)).trans <| (B2_of m ρ c main_arg6 (by decide)).trans <| (B1_of m ρ c main_arg6 (by decide)).trans <| rfl
theorem B8_main_arg7 (c : Dev nD) : B8 m ρ c (Proc.devRef .tc main_arg7) = m ((c : Thread nD τ).loc main_arg7) :=
  (B8_of m ρ c main_arg7 (by decide)).trans <| (B7_of m ρ c main_arg7 (by decide)).trans <| (B6_in m ρ c 2 rfl).trans <| (B5_of m ρ c main_arg7 (by decide)).trans <| (B4_of m ρ c main_arg7 (by decide)).trans <| (B3_of m ρ c main_arg7 (by decide)).trans <| (B2_of m ρ c main_arg7 (by decide)).trans <| (B1_of m ρ c main_arg7 (by decide)).trans <| rfl
theorem B8_main_arg8 (c : Dev nD) : B8 m ρ c (Proc.devRef .tc main_arg8) = m ((c : Thread nD τ).loc main_arg8) :=
  (B8_of m ρ c main_arg8 (by decide)).trans <| (B7_of m ρ c main_arg8 (by decide)).trans <| (B6_of m ρ c main_arg8 (by decide)).trans <| (B5_of m ρ c main_arg8 (by decide)).trans <| (B4_of m ρ c main_arg8 (by decide)).trans <| (B3_of m ρ c main_arg8 (by decide)).trans <| (B2_of m ρ c main_arg8 (by decide)).trans <| (B1_of m ρ c main_arg8 (by decide)).trans <| rfl
theorem B8_main_arg9 (c : Dev nD) : B8 m ρ c (Proc.devRef .tc main_arg9) = m ((c : Thread nD τ).loc main_arg9) :=
  (B8_of m ρ c main_arg9 (by decide)).trans <| (B7_of m ρ c main_arg9 (by decide)).trans <| (B6_in m ρ c 3 rfl).trans <| (B5_of m ρ c main_arg9 (by decide)).trans <| (B4_of m ρ c main_arg9 (by decide)).trans <| (B3_of m ρ c main_arg9 (by decide)).trans <| (B2_of m ρ c main_arg9 (by decide)).trans <| (B1_of m ρ c main_arg9 (by decide)).trans <| rfl
theorem B8_main_arg10 (c : Dev nD) : B8 m ρ c (Proc.devRef .tc main_arg10) = m ((c : Thread nD τ).loc main_arg10) :=
  (B8_of m ρ c main_arg10 (by decide)).trans <| (B7_of m ρ c main_arg10 (by decide)).trans <| (B6_of m ρ c main_arg10 (by decide)).trans <| (B5_of m ρ c main_arg10 (by decide)).trans <| (B4_of m ρ c main_arg10 (by decide)).trans <| (B3_of m ρ c main_arg10 (by decide)).trans <| (B2_of m ρ c main_arg10 (by decide)).trans <| (B1_of m ρ c main_arg10 (by decide)).trans <| rfl
theorem B8_main_arg11 (c : Dev nD) : B8 m ρ c (Proc.devRef .tc main_arg11) = m ((c : Thread nD τ).loc main_arg11) :=
  (B8_of m ρ c main_arg11 (by decide)).trans <| (B7_of m ρ c main_arg11 (by decide)).trans <| (B6_of m ρ c main_arg11 (by decide)).trans <| (B5_of m ρ c main_arg11 (by decide)).trans <| (B4_of m ρ c main_arg11 (by decide)).trans <| (B3_of m ρ c main_arg11 (by decide)).trans <| (B2_of m ρ c main_arg11 (by decide)).trans <| (B1_of m ρ c main_arg11 (by decide)).trans <| rfl

/-! ## The proof data family and the thread state -/

abbrev admH : (p : Fin 4) → (pcfgs (F := F) p).Adm := fun p => (cfgs p).toPCfg_adm
/-- Every pass's proof data, each at its own entry contents. -/
def pdats : (p : Fin 4) → (c : Dev nD) → Dat τ (Elt F) Unit ℕ (UR sig nD τ) ℕ (Pipeline.pin (pcfgs (F := F)) admH p) c
  | ⟨0, _⟩ => fun c => dat0 (E1 m ρ) c
  | ⟨1, _⟩ => fun c => dat1 (E3 m ρ) c
  | ⟨2, _⟩ => fun c => dat2 (E5 m ρ) c
  | ⟨3, _⟩ => fun c => dat3 (E7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last fold, the generator register at some state. -/
abbrev Tₙ (c : Dev nD) : sProp 𝕄 := iprop(StableHlo.held (c : Thread nD τ) (Pipeline.ucRefs τ sig) (B8 m ρ c) ∗ ∃ r, prngReg c r)

/-! ## The passes as segments -/

set_option backward.isDefEq.respectTransparency.types false in
/-- Pass 0 as a segment: entered with every unscoped buffer at `B1`, left with them at `B2`. Its arrays are split out of the
    unscoped buffers and put back at the exit contents; the generator register goes into the pass's invariant and comes back;
    nothing is owed; the pass has no semaphore of its own. -/
def reg0 : Pipeline.RegionSeg (pcfgs (F := F)) admH (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E1 m ρ) c); unfold Pipeline.ΦA
    iintro ⟨Hp, -, Hr⟩
    isplitl [Hr]; · iexact Hr
    iexact Hp
  hout c := by
    rw [Pipeline.ownSems0_none]
    refine BIBase.Entails.trans (hout0 (E1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 as a segment: entered with every unscoped buffer at `B3`, left with them at `B4`. Its arrays are split out of the
    unscoped buffers and put back at the exit contents; the generator register goes into the pass's invariant and comes back;
    nothing is owed; the pass has no semaphore of its own. -/
def reg1 : Pipeline.RegionSeg (pcfgs (F := F)) admH (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) admH (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 as a segment: entered with every unscoped buffer at `B5`, left with them at `B6`. Its arrays are split out of the
    unscoped buffers and put back at the exit contents; the generator register goes into the pass's invariant and comes back;
    nothing is owed; the pass has no semaphore of its own. -/
def reg2 : Pipeline.RegionSeg (pcfgs (F := F)) admH (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) admH (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (E5 m ρ) c); unfold Pipeline.ΦA
    iintro ⟨Hp, -, Hr⟩
    isplitl [Hr]; · iexact Hr
    iexact Hp
  hout c := by
    rw [Pipeline.ownSems0_none]
    refine BIBase.Entails.trans (hout2 (E5 m ρ) c) ?_; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 3 as a segment: entered with every unscoped buffer at `B7`, left with them at `B8`. Its arrays are split out of the
    unscoped buffers and put back at the exit contents; the generator register goes into the pass's invariant and comes back;
    nothing is owed; the pass has no semaphore of its own. -/
def reg3 : Pipeline.RegionSeg (pcfgs (F := F)) admH (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E7 m ρ) c).loose
  hwaits := Pipeline.hwaits_of_owed_zero _ _ _ _ L lv 3 fun _ _ => rfl
  pre c := iprop(StableHlo.held (c : Thread nD τ) (Pipeline.ucRefs τ sig) (B7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (E7 m ρ c)
  hentry c := by
    rw [Pipeline.ownSems0_none]
    have hsplit := Pipeline.arrays_of_unscopedBufs (p := 3) (pcfgs (F := F)) admH (pdats m ρ) launch3.win launch3.arr_whole c
      ((pdats m ρ 3 c).share_full fun _ => rfl) (E7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    rw [show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m ρ) ((pdats m ρ 3 c).share_full fun _ => rfl)
      (E7 m ρ c) (E8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segsH : List (Pipeline.Seg (pcfgs (F := F)) admH (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)),
    .region (reg3 m ρ) ]

theorem main_run (c : Dev nD) : main (F := F) c = Pipeline.Seg.run (segsH m ρ) := by
  rw [main_chain c, Pipeline.Seg.run_eq_chain]; rfl

set_option backward.isDefEq.respectTransparency.types false in
/-- The run: from any memory with zero counters every weakly fair execution terminates, nothing faulting, and in every
    final state each unscoped buffer of each core holds the last fold `B8`. -/
theorem run : θ_run defs (onTc (τ := τ) (main (F := F))) ⟨m, fun _ => 0, ρ⟩ (fun r => ∀ c : Dev nD,
      ∀ b ∈ Pipeline.ucRefs τ sig, r.2.mem (((c : Thread nD τ)).1, b) = B8 m ρ c b) :=
  Pipeline.θ_run_regions_kit (pcfgs (F := F)) admH (pdats m ρ) () cellOf_inj emb₁ defs₀ 𝒱₀ L lv m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B8 m ρ c b)
    (hfin := fun c s' => by
      iintro ⟨⟨Hh, -⟩, HSI⟩
      unfold StableHlo.held
      imodintro
      iapply (pointsTo_read_all (Pipeline.ucRefs τ sig) (fun b => (((c : Thread nD τ)).1, b)) (B8 m ρ c) s')
      isplitl [Hh] <;> iassumption)
    (hQ := fun s h c => h c)

/-- The frame: every argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c _ (mem_uc main_arg0 (by decide))).trans (B8_main_arg0 m ρ c),
    (h c _ (mem_uc main_arg1 (by decide))).trans (B8_main_arg1 m ρ c),
    (h c _ (mem_uc main_arg2 (by decide))).trans (B8_main_arg2 m ρ c),
    (h c _ (mem_uc main_arg3 (by decide))).trans (B8_main_arg3 m ρ c),
    (h c _ (mem_uc main_arg4 (by decide))).trans (B8_main_arg4 m ρ c),
    (h c _ (mem_uc main_arg5 (by decide))).trans (B8_main_arg5 m ρ c),
    (h c _ (mem_uc main_arg6 (by decide))).trans (B8_main_arg6 m ρ c),
    (h c _ (mem_uc main_arg7 (by decide))).trans (B8_main_arg7 m ρ c),
    (h c _ (mem_uc main_arg8 (by decide))).trans (B8_main_arg8 m ρ c),
    (h c _ (mem_uc main_arg9 (by decide))).trans (B8_main_arg9 m ρ c),
    (h c _ (mem_uc main_arg10 (by decide))).trans (B8_main_arg10 m ρ c),
    (h c _ (mem_uc main_arg11 (by decide))).trans (B8_main_arg11 m ρ c)⟩) (run m ρ)

end Cert.KernelIdeal.Hand

end
-- ==== Proof.LibAsRow.lean ====
/-
  A vector as one row.

  A vector of `n` entries laid out as a `[1, n]` array reads, at `(u, k)`, the vector's entry `k`. Two layout operations
  produce that array: a reshape `[n] → [1, n]`, and a broadcast of `[n]` into `[1, n]` that sends the vector's axis to
  the array's second axis. Both are the same function of the vector.
-/
import Idealize.ShloMosaic.Lib.ValueIdx
import Idealize.ShloMosaic.Lib.Pipeline.Value
import Idealize.ShloMosaic.Lib.ValueLayout

noncomputable section

namespace Cert.Lib

open Idealize.ShloMosaic Idealize.ShloMosaic.ValueIdx

variable {α : Type} {n : ℕ}

/-- The `[1, n]` array whose one row is the vector `v`. -/
def asRow (v : (⟨1, ![n]⟩ : Shape).Idx → α) : (⟨2, ![1, n]⟩ : Shape).Idx → α := fun i => v (ix1 (i 1))

theorem asRow_apply (v : (⟨1, ![n]⟩ : Shape).Idx → α) (u : Fin 1) (k : Fin n) : asRow v (ix2 u k) = v (ix1 k) := rfl

/-- A vector reshaped to `[1, n]` is the vector as one row. -/
theorem shapeCast_eq_asRow (v : (⟨1, ![n]⟩ : Shape).Idx → α) (h : (⟨1, ![n]⟩ : Shape).ShapeCasts ⟨2, ![1, n]⟩) :
    shapeCast ⟨2, ![1, n]⟩ v h = asRow v :=
  funext fun i => (congrArg (shapeCast ⟨2, ![1, n]⟩ v h) (eq_ix2 i)).trans (shapeCast_a_1a_apply v h (i 0) (i 1))

/-- A vector broadcast into `[1, n]` along the second axis is the vector as one row. -/
theorem broadcastInDim_eq_asRow (v : (⟨1, ![n]⟩ : Shape).Idx → α)
    (h : (⟨1, ![n]⟩ : Shape).BroadcastsInDim ⟨2, ![1, n]⟩ (![1] : Fin 1 → Fin 2)) :
    broadcastInDim ⟨2, ![1, n]⟩ ![1] h v = asRow v :=
  funext fun i => broadcastInDim_apply _ h v i (ix1 (i 1)) (fun a => match a with
    | ⟨0, _⟩ => by
      show (i 1).val = if n = 1 then 0 else (i 1).val
      have h1 : (i 1).val < n := (i 1).isLt
      split
      · omega
      · rfl)

end Cert.Lib

end
-- ==== Proof.KI.HostRead.lean ====
/-
  What the host operations between the passes compute, on the extended reals. Before each fused pass: the rows summed into their
  destinations (a lookup of rows by source index followed by an accumulation by destination index) and the bias laid out as a row.
  Before each normalising pass, from the two rows of column totals `s`, `sq` the fused pass left: the mean `s / n`, the variance
  `sq / n − mean · mean`, the scale row `γ · rsqrt (variance + ε)` and the shift row `β − mean · scale`, with `n` the row count
  200000 and `ε` the printed small constant. Each buffer at a boundary is stated as one of these functions of the buffers at the
  boundary before.
-/
import proofs.«178594_j20590073217563_1_alg».proof.Proof.KI.Run
import proofs.«178594_j20590073217563_1_alg».proof.Proof.LibAsRow
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The row count and the small constant, as the printed words denote them. -/
abbrev nRows : EReal := Ideal.ofBits .f32 0x48435000#32
abbrev epsV : EReal := Ideal.ofBits .f32 0x3727C5AC#32

/-- The scale row from the two rows of totals and `γ`. -/
def scaleRow (s sq : (⟨S1x128, .f32⟩ : BufTy).Contents (Elt Ideal)) (γ : (⟨S128, .f32⟩ : BufTy).Contents (Elt Ideal)) :
    (⟨S1x128, .f32⟩ : BufTy).Contents (Elt Ideal) :=
  mulf (shapeCast S1x128 γ shapeCasts_S128_S1x128)
    (Host.rsqrt (addf (subf (Host.divf sq (broadcastInDim S1x128 ![] bcast_S_S1x128 (constant (F := Ideal) S_ .f32 0x48435000#32))) (mulf (Host.divf s (broadcastInDim S1x128 ![] bcast_S_S1x128 (constant (F := Ideal) S_ .f32 0x48435000#32))) (Host.divf s (broadcastInDim S1x128 ![] bcast_S_S1x128 (constant (F := Ideal) S_ .f32 0x48435000#32))))) (broadcastInDim S1x128 ![] bcast_S_S1x128 (constant (F := Ideal) S_ .f32 0x3727C5AC#32))))

/-- The shift row from the totals, `γ` and `β`. -/
def shiftRow (s sq : (⟨S1x128, .f32⟩ : BufTy).Contents (Elt Ideal)) (γ β : (⟨S128, .f32⟩ : BufTy).Contents (Elt Ideal)) :
    (⟨S1x128, .f32⟩ : BufTy).Contents (Elt Ideal) :=
  subf (shapeCast S1x128 β shapeCasts_S128_S1x128) (mulf (Host.divf s (broadcastInDim S1x128 ![] bcast_S_S1x128 (constant (F := Ideal) S_ .f32 0x48435000#32))) (scaleRow s sq γ))

theorem scaleRow_apply (s sq : (⟨S1x128, .f32⟩ : BufTy).Contents (Elt Ideal)) (γ : (⟨S128, .f32⟩ : BufTy).Contents (Elt Ideal)) (u : Fin 1) (q : Fin 128) :
    scaleRow s sq γ (ix2 u q)
      = γ (ix1 q) * Ideal.rsqrt (Ideal.div (sq (ix2 u q)) nRows - Ideal.div (s (ix2 u q)) nRows * Ideal.div (s (ix2 u q)) nRows + epsV) := by
  unfold scaleRow
  rw [mulf_apply, Cert.Lib.shapeCast_eq_asRow, Cert.Lib.asRow_apply]
  rfl

theorem shiftRow_apply (s sq : (⟨S1x128, .f32⟩ : BufTy).Contents (Elt Ideal)) (γ β : (⟨S128, .f32⟩ : BufTy).Contents (Elt Ideal)) (u : Fin 1) (q : Fin 128) :
    shiftRow s sq γ β (ix2 u q) = β (ix1 q) - Ideal.div (s (ix2 u q)) nRows * scaleRow s sq γ (ix2 u q) := by
  unfold shiftRow
  rw [subf_apply, mulf_apply, Cert.Lib.shapeCast_eq_asRow, Cert.Lib.asRow_apply]
  rfl

/-- A vector laid out as a one-row array. -/
theorem rowOfVec_apply (v : (⟨S128, .f32⟩ : BufTy).Contents (Elt Ideal)) (u : Fin 1) (q : Fin 128) :
    shapeCast S1x128 v shapeCasts_S128_S1x128 (ix2 u q) = v (ix1 q) := by
  rw [Cert.Lib.shapeCast_eq_asRow, Cert.Lib.asRow_apply]

/-- The sources and the destinations: the two rows of the index pair array, each as a vector. -/
def srcOf (e : (⟨S2x1200000, .i32⟩ : BufTy).Contents (Elt Ideal)) : (⟨S1200000, .i32⟩ : BufTy).Contents (Elt Ideal) :=
  shapeCast S1200000 (extractStridedSlice S1x1200000 ![0, 0] e slices_S2x1200000_S1x1200000_0_0) shapeCasts_S1x1200000_S1200000
def dstOf (e : (⟨S2x1200000, .i32⟩ : BufTy).Contents (Elt Ideal)) : (⟨S1200000, .i32⟩ : BufTy).Contents (Elt Ideal) :=
  shapeCast S1200000 (extractStridedSlice S1x1200000 ![1, 0] e slices_S2x1200000_S1x1200000_1_0) shapeCasts_S1x1200000_S1200000

/-- Rows summed into their destinations: row `e` of the looked-up rows `x[src e]` (a negative source wrapped once by the row count, as the
    printed lookup spells it) is added into row `dst e` of a zero array. -/
def seg64 (x : (⟨S200000x64, .f32⟩ : BufTy).Contents (Elt Ideal)) (src dst : (⟨S1200000, .i32⟩ : BufTy).Contents (Elt Ideal)) :
    (⟨S200000x64, .f32⟩ : BufTy).Contents (Elt Ideal) :=
  Host.scatterAdd scatter_S200000x64_S1200000x1_S1200000x64_1_0_0_1
    (broadcastInDim S200000x64 ![] bcast_S_S200000x64 (constant (F := Ideal) S_ .f32 0x00000000#32))
    (broadcastInDim S1200000x1 ![0] bcast_S1200000_S1200000x1_0 dst)
    (Host.gather gather_S200000x64_S1200000x1_S1200000x64_1_0_n_n_0_1_164 x
      (broadcastInDim S1200000x1 ![0] bcast_S1200000_S1200000x1_0
        (select (cmpi .slt src (broadcastInDim S1200000 ![] bcast_S_S1200000 (constantI S_ 32 0#32)))
          (addi src (broadcastInDim S1200000 ![] bcast_S_S1200000 (constantI S_ 32 200000#32))) src)))

/-- Rows summed into their destinations: row `e` of the looked-up rows `x[src e]` (a negative source wrapped once by the row count, as the
    printed lookup spells it) is added into row `dst e` of a zero array. -/
def seg128 (x : (⟨S200000x128, .f32⟩ : BufTy).Contents (Elt Ideal)) (src dst : (⟨S1200000, .i32⟩ : BufTy).Contents (Elt Ideal)) :
    (⟨S200000x128, .f32⟩ : BufTy).Contents (Elt Ideal) :=
  Host.scatterAdd scatter_S200000x128_S1200000x1_S1200000x128_1_0_0_1
    (broadcastInDim S200000x128 ![] bcast_S_S200000x128 (constant (F := Ideal) S_ .f32 0x00000000#32))
    (broadcastInDim S1200000x1 ![0] bcast_S1200000_S1200000x1_0 dst)
    (Host.gather gather_S200000x128_S1200000x1_S1200000x128_1_0_n_n_0_1_1128 x
      (broadcastInDim S1200000x1 ![0] bcast_S1200000_S1200000x1_0
        (select (cmpi .slt src (broadcastInDim S1200000 ![] bcast_S_S1200000 (constantI S_ 32 0#32)))
          (addi src (broadcastInDim S1200000 ![] bcast_S_S1200000 (constantI S_ 32 200000#32))) src)))

section
variable (m : (ℓ : Loc nD τ sig) → Buf (Elt Ideal) ℓ) (ρ : Dev nD → PrngReg)

/-! ## Before the fused pass of layer 1 -/

set_option maxHeartbeats 4000000 in
theorem B1_src (c : Dev nD) : (B1 m ρ c main_v1 : S1200000.Idx → BitVec 32) = srcOf (B0 m ρ c main_arg1) := by
  dsimp only [B1, hostOps0]; after_results; rfl
set_option maxHeartbeats 4000000 in
theorem B1_dst (c : Dev nD) : (B1 m ρ c main_v3 : S1200000.Idx → BitVec 32) = dstOf (B0 m ρ c main_arg1) := by
  dsimp only [B1, hostOps0]; after_results; rfl
set_option maxHeartbeats 4000000 in
theorem B1_agg (c : Dev nD) : (B1 m ρ c main_v13 : S200000x64.Idx → EReal) = seg64 (B0 m ρ c main_arg0) (srcOf (B0 m ρ c main_arg1)) (dstOf (B0 m ρ c main_arg1)) := by
  dsimp only [B1, hostOps0]; after_results; rfl
set_option maxHeartbeats 4000000 in
theorem B1_bias (c : Dev nD) : (B1 m ρ c main_v14 : S1x128.Idx → EReal) = shapeCast S1x128 (B0 m ρ c main_arg3) shapeCasts_S128_S1x128 := by
  dsimp only [B1, hostOps0]; after_results; rfl

/-! ## Before the normalising pass of layer 1 -/

set_option maxHeartbeats 4000000 in
theorem B3_scale (c : Dev nD) : (B3 m ρ c main_v26 : S1x128.Idx → EReal) = scaleRow (B2 m ρ c main_v15_1) (B2 m ρ c main_v15_2) (B2 m ρ c main_arg5) := by
  dsimp only [B3, hostOps1]; after_results; rfl
set_option maxHeartbeats 4000000 in
theorem B3_shift (c : Dev nD) : (B3 m ρ c main_v29 : S1x128.Idx → EReal) = shiftRow (B2 m ρ c main_v15_1) (B2 m ρ c main_v15_2) (B2 m ρ c main_arg5) (B2 m ρ c main_arg6) := by
  dsimp only [B3, hostOps1]; after_results; rfl

/-! ## Before the fused pass of layer 2 -/

set_option maxHeartbeats 4000000 in
theorem B5_agg (c : Dev nD) : (B5 m ρ c main_v40 : S200000x128.Idx → EReal) = seg128 (B4 m ρ c main_v30) (B4 m ρ c main_v1) (B4 m ρ c main_v3) := by
  dsimp only [B5, hostOps2]; after_results; rfl
set_option maxHeartbeats 4000000 in
theorem B5_bias (c : Dev nD) : (B5 m ρ c main_v41 : S1x128.Idx → EReal) = shapeCast S1x128 (B4 m ρ c main_arg8) shapeCasts_S128_S1x128 := by
  dsimp only [B5, hostOps2]; after_results; rfl

/-! ## Before the normalising pass of layer 2 -/

set_option maxHeartbeats 4000000 in
theorem B7_scale (c : Dev nD) : (B7 m ρ c main_v53 : S1x128.Idx → EReal) = scaleRow (B6 m ρ c main_v42_1) (B6 m ρ c main_v42_2) (B6 m ρ c main_arg10) := by
  dsimp only [B7, hostOps3]; after_results; rfl
set_option maxHeartbeats 4000000 in
theorem B7_shift (c : Dev nD) : (B7 m ρ c main_v56 : S1x128.Idx → EReal) = shiftRow (B6 m ρ c main_v42_1) (B6 m ρ c main_v42_2) (B6 m ρ c main_arg10) (B6 m ρ c main_arg11) := by
  dsimp only [B7, hostOps3]; after_results; rfl

end

end Cert.KernelIdeal.Hand

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColSum.lean ====
/-
  A column's sum read at an index.

  A `vector.multi_reduction <add>` of a `[K, R]` array over its FIRST axis, read on the extended reals at column `p`, is
  the sum of the `K` entries `src (k, p)` of that column: the reduced index `(p)` with the coordinate `k` put back on the
  reduced axis is `(k, p)`. The companion of the sum over the last axis of an `[R, K]` array.
-/
import Idealize.ShloMosaic.PureOps.Ideal.Laws
import Idealize.ShloMosaic.Lib.ValueIdx

noncomputable section

namespace Cert.Lib

open Idealize.ShloMosaic Idealize.ShloMosaic.ValueIdx
open scoped BigOperators

variable {K R : ℕ}

/-- The reduced index `(p)` with coordinate `k` inserted on axis 0 is `(k, p)`. -/
theorem lift_firstAxis2 (h : (⟨2, ![K, R]⟩ : Shape).Reduces [0] (⟨1, ![R]⟩ : Shape)) (p : Fin R)
    (k : Fin ((⟨2, ![K, R]⟩ : Shape).size 0)) : h.lift (ix1 p) k = ix2 (⟨k.val, k.isLt⟩ : Fin K) p := by
  funext c; apply Fin.ext
  fin_cases c <;> rfl

/-- A float sum over the first axis of a `[K, R]` array, at column `p`: the sum over that column. -/
theorem multiReduction_add_cols {φ : FTy} (src : FVec Ideal ⟨2, ![K, R]⟩ φ) (acc : BitVec φ.bits)
    (h : (⟨2, ![K, R]⟩ : Shape).Reduces [0] (⟨1, ![R]⟩ : Shape)) (hφ : FKind.Formats φ)
    (hacc : acc = FKind.add.neutral φ hφ) (p : Fin R) :
    multiReduction .add [0] (⟨1, ![R]⟩ : Shape) src acc h hφ hacc (ix1 p) = ∑ k : Fin K, src (ix2 k p) := by
  refine (Ideal.multiReduction_add_single src acc h hφ hacc (ix1 p)).trans ?_
  exact Finset.sum_congr rfl fun k _ => congrArg src (lift_firstAxis2 h p k)

end Cert.Lib

end
-- ==== Proof.KI.Stats0Value.lean ====
/-
  What the fused pass of layer 1 computes at a tile, as values. The stores a run leaves are the pass's payload terms of the
  tile's input blocks: the clipped linear map `h` (the result tile), and the two column totals, each the total so far plus
  the tile's column sum of `h`, respectively of `h·h` (kept in the two running-total buffers and copied to the two result
  rows). At the first tile "the total so far" is the zero row the body has just stored. Read at an index on the extended
  reals, `h (p, q)` is the larger of `0` and `∑ₖ agg (p, k) · Wl (k, q) + ∑ₖ x (p, k) · Wr (k, q) + b (0, q)`, and a column
  sum at `q` is `0 + ∑ₚ` of the column.
-/
import proofs.«178594_j20590073217563_1_alg».proof.Proof.KI.Stats0Data
import proofs.«178594_j20590073217563_1_alg».proof.Proof.LibMatDot
import proofs.«178594_j20590073217563_1_alg».proof.Proof.LibColSum
import proofs.«178594_j20590073217563_1_alg».proof.Proof.LibAsRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem zeroOff0 : (![0, 0] : Fin 2 → Nat) = fun _ => 0 := funext fun a => by fin_cases a <;> rfl

/-- What a later-tile run leaves: the tile of `h`, and both totals advanced by the tile (twice: in the result rows and in
    the running-total buffers). -/
theorem leftLater0_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst0 i) (x1 : Vec F S5000x64 .f32) (x2 : Vec F S5000x64 .f32) (x3 : Vec F S64x128 .f32) (x4 : Vec F S64x128 .f32) (x5 : Vec F S1x128 .f32) (s0 s1 : Vec F S1x128 .f32) :
    leftLater0 c i arg1 harg1 arg2 harg2 arg3 harg3 arg4 harg4 arg5 harg5 arg6 harg6 arg7 harg7 arg8 harg8 arg9 harg9 arg10 harg10 hc x1 x2 x3 x4 x5 s0 s1
      = (k0_pay4 x1 x3 x2 x4 x5, k0_pay5 x1 x3 x2 x4 x5 s0, k0_pay1 (k0_pay6 x1 x3 x2 x4 x5 s1),
          k0_pay5 x1 x3 x2 x4 x5 s0, k0_pay1 (k0_pay6 x1 x3 x2 x4 x5 s1)) := by
  unfold leftLater0; dsimp only
  unfold runLater0; dsimp only
  sl_unfold_words
  simp only [View.canon_cons_unit_zero (S := S5000x128) zeroOff0, View.canon_cons_unit_zero (S := S1x128) zeroOff0, View.readCov_cons_toLoadRect, View.readAt_eq_ld, harg1.read_unread, harg2.read_unread, harg3.read_unread, harg4.read_unread, harg5.read_unread, harg9.read_unread, harg10.read_unread, View.ld_unit_zero (S := S5000x64) zeroOff0, View.ld_unit_zero (S := S64x128) zeroOff0, View.ld_unit_zero (S := S1x128) zeroOff0, View.ld_unit_zero (S := S5000x128) zeroOff0]

/-- What the first-tile run leaves: the same with the totals started from the zero rows. -/
theorem leftFirst0_eq (c : Dev nD) (i : grid0.Coords) (arg1 : Memref sig .tc .vmem S5000x64 .f32) (harg1 : arg1.IsWhole) (arg2 : Memref sig .tc .vmem S5000x64 .f32) (harg2 : arg2.IsWhole) (arg3 : Memref sig .tc .vmem S64x128 .f32) (harg3 : arg3.IsWhole) (arg4 : Memref sig .tc .vmem S64x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst0 i) (x1 : Vec F S5000x64 .f32) (x2 : Vec F S5000x64 .f32) (x3 : Vec F S64x128 .f32) (x4 : Vec F S64x128 .f32) (x5 : Vec F S1x128 .f32) :
    leftFirst0 c i arg1 harg1 arg2 harg2 arg3 harg3 arg4 harg4 arg5 harg5 arg6 harg6 arg7 harg7 arg8 harg8 arg9 harg9 arg10 harg10 hc x1 x2 x3 x4 x5
      = (k0_pay4 x1 x3 x2 x4 x5, k0_pay5 x1 x3 x2 x4 x5 k0_pay2, k0_pay1 (k0_pay6 x1 x3 x2 x4 x5 k0_pay3),
          k0_pay5 x1 x3 x2 x4 x5 k0_pay2, k0_pay1 (k0_pay6 x1 x3 x2 x4 x5 k0_pay3)) := by
  unfold leftFirst0; dsimp only
  unfold runFirst0; dsimp only
  sl_unfold_words
  simp only [View.canon_cons_unit_zero (S := S5000x128) zeroOff0, View.canon_cons_unit_zero (S := S1x128) zeroOff0, View.readCov_cons_toLoadRect, View.readAt_eq_ld, harg1.read_unread, harg2.read_unread, harg3.read_unread, harg4.read_unread, harg5.read_unread, harg9.read_unread, harg10.read_unread, View.ld_unit_zero (S := S5000x64) zeroOff0, View.ld_unit_zero (S := S64x128) zeroOff0, View.ld_unit_zero (S := S1x128) zeroOff0, View.ld_unit_zero (S := S5000x128) zeroOff0]

/-! ## The payloads at an index, on the extended reals -/

section AtIdeal

/-- The clipped linear map at `(p, q)`. -/
def hAt0 (a x : Vec Ideal S5000x64 .f32) (wl wr : Vec Ideal S64x128 .f32) (b : Vec Ideal S1x128 .f32) (p : Fin 5000) (q : Fin 128) : EReal :=
  max (((∑ k : Fin 64, a (ix2 p k) * wl (ix2 k q)) + ∑ k : Fin 64, x (ix2 p k) * wr (ix2 k q)) + b (ix2 0 q)) 0

theorem pay4_0_apply (a : Vec Ideal S5000x64 .f32) (wl : Vec Ideal S64x128 .f32) (x : Vec Ideal S5000x64 .f32) (wr : Vec Ideal S64x128 .f32) (b : Vec Ideal S1x128 .f32)
    (p : Fin 5000) (q : Fin 128) : k0_pay4 (F := Ideal) a wl x wr b (ix2 p q) = hAt0 a x wl wr b p q := by
  unfold k0_pay4 hAt0
  simp only [shapeCast_self]
  have e1 := Cert.Lib.matmul_plain_zero_apply (φ₁ := .f32) (φ₂ := .f32) (a := 5000) (K := 64) (b := 128) dot_S5000x64_S64x128_S5000x128_1_0_0_1_n_n.wf none a wl p q
  have e2 := Cert.Lib.matmul_plain_zero_apply (φ₁ := .f32) (φ₂ := .f32) (a := 5000) (K := 64) (b := 128) dot_S5000x64_S64x128_S5000x128_1_0_0_1_n_n.wf none x wr p q
  have e3 : broadcastTo S5000x128 b broadcasts_S1x128_S5000x128 (ix2 p q) = b (ix2 0 q) :=
    broadcastTo_apply _ _ _ (ix2 0 q) (by intro a; fin_cases a <;> rfl)
  exact congrArg₂ max (congrArg₂ (· + ·) (congrArg₂ (· + ·) e1 e2) e3) Ideal.ofBits_zero_f32

/-- A running total advanced by a tile, at column `q`: what it was plus the tile's column sum of `h`. -/
theorem pay5_0_apply (a : Vec Ideal S5000x64 .f32) (wl : Vec Ideal S64x128 .f32) (x : Vec Ideal S5000x64 .f32) (wr : Vec Ideal S64x128 .f32) (b s : Vec Ideal S1x128 .f32)
    (u : Fin 1) (q : Fin 128) :
    k0_pay5 (F := Ideal) a wl x wr b s (ix2 u q) = s (ix2 u q) + ∑ r : Fin 5000, k0_pay4 (F := Ideal) a wl x wr b (ix2 r q) := by
  unfold k0_pay5
  try dsimp only
  simp only [shapeCast_self]
  rw [addf_apply, Cert.Lib.shapeCast_eq_asRow, Cert.Lib.asRow_apply]
  exact congrArg (s (ix2 u q) + ·) (Cert.Lib.multiReduction_add_cols (K := 5000) (R := 128) (k0_pay4 (F := Ideal) a wl x wr b) 0x00000000#32 reduces_S5000x128_S128 (.inl rfl) rfl q)

/-- The same for the squares. -/
theorem pay6_0_apply (a : Vec Ideal S5000x64 .f32) (wl : Vec Ideal S64x128 .f32) (x : Vec Ideal S5000x64 .f32) (wr : Vec Ideal S64x128 .f32) (b s : Vec Ideal S1x128 .f32)
    (u : Fin 1) (q : Fin 128) :
    k0_pay6 (F := Ideal) a wl x wr b s (ix2 u q)
      = s (ix2 u q) + ∑ r : Fin 5000, k0_pay4 (F := Ideal) a wl x wr b (ix2 r q) * k0_pay4 (F := Ideal) a wl x wr b (ix2 r q) := by
  unfold k0_pay6
  try dsimp only
  rw [addf_apply, Cert.Lib.shapeCast_eq_asRow, Cert.Lib.asRow_apply]
  exact congrArg (s (ix2 u q) + ·) (Cert.Lib.multiReduction_add_cols (K := 5000) (R := 128) (mulf (k0_pay4 (F := Ideal) a wl x wr b) (k0_pay4 (F := Ideal) a wl x wr b)) 0x00000000#32 reduces_S5000x128_S128 (.inl rfl) rfl q)

/-- The copy into the result row changes nothing. -/
theorem pay1_0_eq (v : FVec Ideal S1x128 .f32) : k0_pay1 (F := Ideal) v = v := by
  unfold k0_pay1; exact shapeCast_self _ _

/-- The cleared totals are zero. -/
theorem pay2_0_apply (j : S1x128.Idx) : k0_pay2 (F := Ideal) j = 0 := by
  unfold k0_pay2; (try dsimp only); rw [shapeCast_self, broadcast_apply]; exact Ideal.ofBits_zero_f32
theorem pay3_0_apply (j : S1x128.Idx) : k0_pay3 (F := Ideal) j = 0 := by
  unfold k0_pay3; (try dsimp only); rw [shapeCast_self, broadcast_apply]; exact Ideal.ofBits_zero_f32

end AtIdeal

end Cert.KernelIdeal.Hand

end
-- ==== Proof.KI.Stats0FinalA.lean ====
/-
  The fused pass of layer 1, its first result as one whole-array function: after the pass the array `h` holds at row `p` and
  column `q` the larger of `0` and `∑ₖ agg (p, k) · Wl (k, q) + ∑ₖ x (p, k) · Wr (k, q) + b (0, q)`, of the arrays as the pass finds
  them. Tile `t` writes back rows `5000·t … 5000·t + 4999` of it, and the forty tiles cover the 200000 rows.
-/
import proofs.«178594_j20590073217563_1_alg».proof.Proof.KI.Stats0Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The clipped linear map as a whole array. -/
def linG0 (agg x : S200000x64.Idx → EReal) (wl wr : S64x128.Idx → EReal) (b : S1x128.Idx → EReal) : S200000x128.Idx → EReal :=
  fun i => max (((∑ k : Fin 64, agg (ix2 (i 0) k) * wl (ix2 k (i 1))) + ∑ k : Fin 64, x (ix2 (i 0) k) * wr (ix2 k (i 1))) + b (ix2 0 (i 1))) 0

/-- Where the eight windows' blocks sit, decided over the forty tiles: the tile index down the rows for the two row-tiled inputs
    and the result tile, block (0, 0) for the two weight matrices, the bias row and the two result rows. -/
theorem idxS0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

section
variable (V : (c : Dev nD) → (b : Ref sig .tc) → Buf (Elt Ideal) ((c : Thread nD τ).loc b))

/-- At every tile, first or later, the result tile is the clipped linear map of the tile's input blocks. -/
theorem tile0 (c : Dev nD) (t : Fin cfg0.N) :
    (outsAt0 V c t.val t.isLt).1 = k0_pay4 (iblk0 V c 0 t) (iblk0 V c 2 t) (iblk0 V c 1 t) (iblk0 V c 3 t) (iblk0 V c 4 t) := by
  by_cases h0 : t.val = 0
  · rw [outsAt0_first V c t h0, leftFirst0_eq]
  · rw [outsAt0_later V c t h0, leftLater0_eq]

/-- An entry of a tile's clipped linear map is the whole-array map's entry at the tile's row. -/
theorem tileAt0 (c : Dev nD) (t : Fin cfg0.N) (r : Fin 5000) (q : Fin 128) :
    k0_pay4 (F := Ideal) (iblk0 V c 0 t) (iblk0 V c 2 t) (iblk0 V c 1 t) (iblk0 V c 3 t) (iblk0 V c 4 t) (ix2 r q)
      = (linG0 (V c main_v13) (V c main_arg0) (V c main_arg2) (V c main_arg4) (V c main_v14)) (((cfg0.win 5).blk t).view.emb (ix2 r q)) := by
  obtain ⟨e00, e01, e10, e11, e20, e21, e30, e31, e40, e41, e50, e51, e60, e61, e70, e71⟩ := idxS0 t
  refine (pay4_0_apply _ _ _ _ _ r q).trans ?_
  unfold hAt0
  have hw0 : ∀ k : Fin 64, iblk0 V c 0 t (ix2 r k) = V c main_v13 (ix2 ((((cfg0.win 5).blk t).view.emb (ix2 r q)) 0) k) := by
    intro k
    show V c main_v13 (((cfg0.win 0).blk t).view.emb (ix2 r k)) = _
    refine congrArg (V c main_v13) ?_
    funext a; apply Fin.ext
    match a with
    | ⟨0, _⟩ => show win0_0.index t (0 : Fin 2) * 5000 + 1 * r.val = win0_5.index t (0 : Fin 2) * 5000 + 1 * r.val; omega
    | ⟨1, _⟩ => show win0_0.index t (1 : Fin 2) * 64 + 1 * k.val = k.val; omega
  have hw1 : ∀ k : Fin 64, iblk0 V c 1 t (ix2 r k) = V c main_arg0 (ix2 ((((cfg0.win 5).blk t).view.emb (ix2 r q)) 0) k) := by
    intro k
    show V c main_arg0 (((cfg0.win 1).blk t).view.emb (ix2 r k)) = _
    refine congrArg (V c main_arg0) ?_
    funext a; apply Fin.ext
    match a with
    | ⟨0, _⟩ => show win0_1.index t (0 : Fin 2) * 5000 + 1 * r.val = win0_5.index t (0 : Fin 2) * 5000 + 1 * r.val; omega
    | ⟨1, _⟩ => show win0_1.index t (1 : Fin 2) * 64 + 1 * k.val = k.val; omega
  have hw2 : ∀ k : Fin 64, iblk0 V c 2 t (ix2 k q) = V c main_arg2 (ix2 k ((((cfg0.win 5).blk t).view.emb (ix2 r q)) 1)) := by
    intro k
    show V c main_arg2 (((cfg0.win 2).blk t).view.emb (ix2 k q)) = _
    refine congrArg (V c main_arg2) ?_
    funext a; apply Fin.ext
    match a with
    | ⟨0, _⟩ => show win0_2.index t (0 : Fin 2) * 64 + 1 * k.val = k.val; omega
    | ⟨1, _⟩ => show win0_2.index t (1 : Fin 2) * 128 + 1 * q.val = win0_5.index t (1 : Fin 2) * 128 + 1 * q.val; omega
  have hw3 : ∀ k : Fin 64, iblk0 V c 3 t (ix2 k q) = V c main_arg4 (ix2 k ((((cfg0.win 5).blk t).view.emb (ix2 r q)) 1)) := by
    intro k
    show V c main_arg4 (((cfg0.win 3).blk t).view.emb (ix2 k q)) = _
    refine congrArg (V c main_arg4) ?_
    funext a; apply Fin.ext
    match a with
    | ⟨0, _⟩ => show win0_3.index t (0 : Fin 2) * 64 + 1 * k.val = k.val; omega
    | ⟨1, _⟩ => show win0_3.index t (1 : Fin 2) * 128 + 1 * q.val = win0_5.index t (1 : Fin 2) * 128 + 1 * q.val; omega
  have hw4 : iblk0 V c 4 t (ix2 0 q) = V c main_v14 (ix2 0 ((((cfg0.win 5).blk t).view.emb (ix2 r q)) 1)) := by
    show V c main_v14 (((cfg0.win 4).blk t).view.emb (ix2 0 q)) = _
    refine congrArg (V c main_v14) ?_
    funext a; apply Fin.ext
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega
  simp only [hw0, hw1, hw2, hw3, hw4]
  rfl

/-- What tile `t` writes back into `h` is tile `t` of the whole-array map. -/
theorem flushedS0_5 (c : Dev nD) (t : Fin cfg0.N) :
    (dat0 V c).flushed 5 t = ((cfg0.win 5).blk t).view.read (Elt Ideal) (linG0 (V c main_v13) (V c main_arg0) (V c main_arg2) (V c main_arg4) (V c main_v14)) := by
  show (cfg0.win 5).cut (grid0.coords t) ((dat0 V c).after 5 t) = _
  rw [after0_5, tile0]
  funext j
  obtain ⟨r, q, rfl⟩ : ∃ (r : Fin 5000) (q : Fin 128), j = ix2 r q := ⟨j 0, j 1, eq_ix2 j⟩
  exact tileAt0 V c t r q

theorem mem_blkS0_5 (t : Fin cfg0.N) (i : S200000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v15_0).slice (win0_5.rect t)).set ↔ _
  rw [View.set_slice_whole, Rect.mem_set_unit]
  exact Iff.rfl

/-- Every row is in some tile: row `p` in tile `p / 5000`. -/
theorem coverS0_5 (i : S200000x128.Idx) : ∃ t : Fin cfg0.N, (cfg0.win 5).flush t = true ∧ i ∈ ((cfg0.win 5).blk t).view.set := by
  have hi0 : (i 0).val < 200000 := (i 0).isLt
  have hi1 : (i 1).val < 128 := (i 1).isLt
  have hN : cfg0.N = 40 := N_0
  let t : Fin cfg0.N := ⟨(i 0).val / 5000, by omega⟩
  obtain ⟨e00, e01, e10, e11, e20, e21, e30, e31, e40, e41, e50, e51, e60, e61, e70, e71⟩ := idxS0 t
  have ht : t.val = (i 0).val / 5000 := rfl
  refine ⟨t, flush0_5 t, ?_⟩
  rw [mem_blkS0_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The array `h` after the pass. -/
theorem finalS0_5 (c : Dev nD) : (dat0 V c).arrAt 5 cfg0.N = (linG0 (V c main_v13) (V c main_arg0) (V c main_arg2) (V c main_arg4) (V c main_v14)) :=
  (dat0 V c).arrAt_eq_of_cover 5 (linG0 (V c main_v13) (V c main_arg0) (V c main_arg2) (V c main_arg4) (V c main_v14)) (fun t _ => flushedS0_5 V c t) (coverS0_5)

end

end Cert.KernelIdeal.Hand

end
-- ==== Proof.LibBlockSum.lean ====
/-
  A sum over an index range of m·n terms, regrouped as m consecutive blocks of n terms each.

  For a function f on Fin (m·n) with values in a commutative additive monoid,
  the sum of f k over all k equals the sum over blocks d < m of the sum over j < n of f (j + n·d).
  Only commutativity and associativity of + are used, so the law holds on the extended reals
  (where + is total, with ⊤ + ⊥ = ⊥) without any finiteness hypothesis.
-/
import Mathlib.Algebra.BigOperators.Fin
import Mathlib.Logic.Equiv.Fin.Basic

namespace Cert.Lib

open Finset

/-- The sum over `Fin (m * n)` is the sum over the `m` blocks of the sums over each block's `n` entries;
    entry `j` of block `d` is index `j + n * d` (`finProdFinEquiv`). -/
theorem sum_blocks {M : Type*} [AddCommMonoid M] (m n : ℕ) (f : Fin (m * n) → M) :
    ∑ k, f k = ∑ d : Fin m, ∑ j : Fin n, f (finProdFinEquiv (d, j)) := by
  rw [← Equiv.sum_comp finProdFinEquiv f, Fintype.sum_prod_type]

/-- The value of entry `j` of block `d`: `j + n * d`. -/
theorem blockIdx_val (m n : ℕ) (d : Fin m) (j : Fin n) :
    (finProdFinEquiv (d, j) : Fin (m * n)).val = j.val + n * d.val := rfl

end Cert.Lib
-- ==== Proof.KI.Stats0FinalB.lean ====
/-
  The fused pass of layer 1, its two result rows: after the pass the first holds at column `q` the sum over all 200000 rows `p` of
  `h (p, q)`, the second the sum of `h (p, q) · h (p, q)`. Each is accumulated tile by tile — cleared at the first tile, advanced by
  every tile's column sum, in the order of the tiles — and addition of extended reals is associative and commutative, so the total after the
  last tile is the one sum; the forty blocks of 5000 rows are the 200000 rows. The rows are written back once, at the last tile.
-/
import proofs.«178594_j20590073217563_1_alg».proof.Proof.KI.Stats0FinalA
import proofs.«178594_j20590073217563_1_alg».proof.Proof.LibBlockSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt Ideal) ((c : Thread nD τ).loc b))

/-- The array `h` the pass leaves, of the arrays as the pass finds them. -/
abbrev hArr0 (c : Dev nD) : S200000x128.Idx → EReal :=
  linG0 (V c main_v13) (V c main_arg0) (V c main_arg2) (V c main_arg4) (V c main_v14)

/-- The row of column sums of `h`, and of `h·h`. -/
def colSumRow0 (c : Dev nD) : S1x128.Idx → EReal := fun i => ∑ p : Fin 200000, hArr0 V c (ix2 p (i 1))
def colSqRow0 (c : Dev nD) : S1x128.Idx → EReal := fun i => ∑ p : Fin 200000, hArr0 V c (ix2 p (i 1)) * hArr0 V c (ix2 p (i 1))

/-- Row `r` of tile `t` is row `r + 5000·t` of the array. -/
theorem rowOf0 (c : Dev nD) (t : Fin cfg0.N) (t' : Fin 40) (ht : t.val = t'.val) (r : Fin 5000) (q : Fin 128) :
    hArr0 V c (((cfg0.win 5).blk t).view.emb (ix2 r q)) = hArr0 V c (ix2 (finProdFinEquiv (t', r) : Fin (40 * 5000)) q) := by
  obtain ⟨e00, e01, e10, e11, e20, e21, e30, e31, e40, e41, e50, e51, e60, e61, e70, e71⟩ := idxS0 t
  refine congrArg (hArr0 V c) ?_
  funext a; apply Fin.ext
  match a with
  | ⟨0, _⟩ => show win0_5.index t (0 : Fin 2) * 5000 + 1 * r.val = r.val + 5000 * t'.val; omega
  | ⟨1, _⟩ => show win0_5.index t (1 : Fin 2) * 128 + 1 * q.val = q.val; omega

/-- Tile `n`'s column sum of `h` at column `q` (zero past the last tile). -/
def tileSum0 (c : Dev nD) (q : Fin 128) (n : ℕ) : EReal :=
  if hn : n < cfg0.N then ∑ r : Fin 5000, k0_pay4 (F := Ideal) (iblk0 V c 0 ⟨n, hn⟩) (iblk0 V c 2 ⟨n, hn⟩) (iblk0 V c 1 ⟨n, hn⟩) (iblk0 V c 3 ⟨n, hn⟩) (iblk0 V c 4 ⟨n, hn⟩) (ix2 r q) else 0

/-- The running total of values after tile `n`, at column `q`: the tiles' column sums so far. -/
theorem totSum0_at (c : Dev nD) (q : Fin 128) (u : Fin 1) :
    ∀ (n : ℕ) (hn : n < cfg0.N), (outsAt0 V c n hn).2.2.2.1 (ix2 u q) = ∑ t ∈ Finset.range (n + 1), tileSum0 V c q t
  | 0, hn => by
    have e : (outsAt0 V c 0 hn).2.2.2.1 = k0_pay5 (F := Ideal) (iblk0 V c 0 ⟨0, hn⟩) (iblk0 V c 2 ⟨0, hn⟩) (iblk0 V c 1 ⟨0, hn⟩) (iblk0 V c 3 ⟨0, hn⟩) (iblk0 V c 4 ⟨0, hn⟩) (k0_pay2 (F := Ideal)) := by
      have h := outsAt0_first V c ⟨0, hn⟩ rfl
      rw [leftFirst0_eq] at h
      exact congrArg (fun z => z.2.2.2.1) h
    rw [e, pay5_0_apply, pay2_0_apply, zero_add, Finset.sum_range_one]
    unfold tileSum0; rw [dif_pos hn]
  | n + 1, hn => by
    have e : (outsAt0 V c (n + 1) hn).2.2.2.1 = k0_pay5 (F := Ideal) (iblk0 V c 0 ⟨n + 1, hn⟩) (iblk0 V c 2 ⟨n + 1, hn⟩) (iblk0 V c 1 ⟨n + 1, hn⟩) (iblk0 V c 3 ⟨n + 1, hn⟩) (iblk0 V c 4 ⟨n + 1, hn⟩) ((outsAt0 V c n (Nat.lt_of_succ_lt hn)).2.2.2.1) := by
      have h := outsAt0_later V c ⟨n + 1, hn⟩ (Nat.succ_ne_zero n)
      rw [leftLater0_eq] at h
      exact congrArg (fun z => z.2.2.2.1) h
    rw [e, pay5_0_apply, totSum0_at c q u n (Nat.lt_of_succ_lt hn), Finset.sum_range_succ (n := n + 1)]
    congr 1
    unfold tileSum0; rw [dif_pos hn]

/-- A tile's column sum in terms of the whole array `h`. -/
theorem tileSum0_eq (c : Dev nD) (q : Fin 128) (t : Fin 40) :
    tileSum0 V c q t.val = ∑ r : Fin 5000, hArr0 V c (ix2 (finProdFinEquiv (t, r) : Fin (40 * 5000)) q) := by
  have hN : cfg0.N = 40 := N_0
  have ht : t.val < cfg0.N := by have := t.isLt; omega
  unfold tileSum0; rw [dif_pos ht]
  refine Finset.sum_congr rfl fun r _ => ?_
  exact (tileAt0 V c ⟨t.val, ht⟩ r q).trans (rowOf0 V c ⟨t.val, ht⟩ t rfl r q)

/-- The forty tile sums are one sum over all the rows. -/
theorem colSum0 (c : Dev nD) (q : Fin 128) :
    ∑ t ∈ Finset.range 40, tileSum0 V c q t = ∑ p : Fin 200000, hArr0 V c (ix2 p q) := by
  rw [Finset.sum_range]
  rw [show (∑ p : Fin 200000, hArr0 V c (ix2 p q)) = ∑ p : Fin (40 * 5000), hArr0 V c (ix2 p q) from rfl,
    Cert.Lib.sum_blocks 40 5000]
  exact Finset.sum_congr rfl fun t _ => tileSum0_eq V c q t

/-- Tile `n`'s column sum of `h·h` at column `q` (zero past the last tile). -/
def tileSq0 (c : Dev nD) (q : Fin 128) (n : ℕ) : EReal :=
  if hn : n < cfg0.N then ∑ r : Fin 5000, k0_pay4 (F := Ideal) (iblk0 V c 0 ⟨n, hn⟩) (iblk0 V c 2 ⟨n, hn⟩) (iblk0 V c 1 ⟨n, hn⟩) (iblk0 V c 3 ⟨n, hn⟩) (iblk0 V c 4 ⟨n, hn⟩) (ix2 r q) * k0_pay4 (F := Ideal) (iblk0 V c 0 ⟨n, hn⟩) (iblk0 V c 2 ⟨n, hn⟩) (iblk0 V c 1 ⟨n, hn⟩) (iblk0 V c 3 ⟨n, hn⟩) (iblk0 V c 4 ⟨n, hn⟩) (ix2 r q) else 0

/-- The running total of squares after tile `n`, at column `q`: the tiles' column sums so far. -/
theorem totSq0_at (c : Dev nD) (q : Fin 128) (u : Fin 1) :
    ∀ (n : ℕ) (hn : n < cfg0.N), (outsAt0 V c n hn).2.2.2.2 (ix2 u q) = ∑ t ∈ Finset.range (n + 1), tileSq0 V c q t
  | 0, hn => by
    have e : (outsAt0 V c 0 hn).2.2.2.2 = k0_pay1 (F := Ideal) (k0_pay6 (F := Ideal) (iblk0 V c 0 ⟨0, hn⟩) (iblk0 V c 2 ⟨0, hn⟩) (iblk0 V c 1 ⟨0, hn⟩) (iblk0 V c 3 ⟨0, hn⟩) (iblk0 V c 4 ⟨0, hn⟩) (k0_pay3 (F := Ideal))) := by
      have h := outsAt0_first V c ⟨0, hn⟩ rfl
      rw [leftFirst0_eq] at h
      exact congrArg (fun z => z.2.2.2.2) h
    rw [e, pay1_0_eq, pay6_0_apply, pay3_0_apply, zero_add, Finset.sum_range_one]
    unfold tileSq0; rw [dif_pos hn]
  | n + 1, hn => by
    have e : (outsAt0 V c (n + 1) hn).2.2.2.2 = k0_pay1 (F := Ideal) (k0_pay6 (F := Ideal) (iblk0 V c 0 ⟨n + 1, hn⟩) (iblk0 V c 2 ⟨n + 1, hn⟩) (iblk0 V c 1 ⟨n + 1, hn⟩) (iblk0 V c 3 ⟨n + 1, hn⟩) (iblk0 V c 4 ⟨n + 1, hn⟩) ((outsAt0 V c n (Nat.lt_of_succ_lt hn)).2.2.2.2)) := by
      have h := outsAt0_later V c ⟨n + 1, hn⟩ (Nat.succ_ne_zero n)
      rw [leftLater0_eq] at h
      exact congrArg (fun z => z.2.2.2.2) h
    rw [e, pay1_0_eq, pay6_0_apply, totSq0_at c q u n (Nat.lt_of_succ_lt hn), Finset.sum_range_succ (n := n + 1)]
    congr 1
    unfold tileSq0; rw [dif_pos hn]

/-- A tile's column sum in terms of the whole array `h`. -/
theorem tileSq0_eq (c : Dev nD) (q : Fin 128) (t : Fin 40) :
    tileSq0 V c q t.val = ∑ r : Fin 5000, hArr0 V c (ix2 (finProdFinEquiv (t, r) : Fin (40 * 5000)) q) * hArr0 V c (ix2 (finProdFinEquiv (t, r) : Fin (40 * 5000)) q) := by
  have hN : cfg0.N = 40 := N_0
  have ht : t.val < cfg0.N := by have := t.isLt; omega
  unfold tileSq0; rw [dif_pos ht]
  refine Finset.sum_congr rfl fun r _ => ?_
  exact congrArg₂ (· * ·) ((tileAt0 V c ⟨t.val, ht⟩ r q).trans (rowOf0 V c ⟨t.val, ht⟩ t rfl r q)) ((tileAt0 V c ⟨t.val, ht⟩ r q).trans (rowOf0 V c ⟨t.val, ht⟩ t rfl r q))

/-- The forty tile sums are one sum over all the rows. -/
theorem colSq0 (c : Dev nD) (q : Fin 128) :
    ∑ t ∈ Finset.range 40, tileSq0 V c q t = ∑ p : Fin 200000, hArr0 V c (ix2 p q) * hArr0 V c (ix2 p q) := by
  rw [Finset.sum_range]
  rw [show (∑ p : Fin 200000, hArr0 V c (ix2 p q) * hArr0 V c (ix2 p q)) = ∑ p : Fin (40 * 5000), hArr0 V c (ix2 p q) * hArr0 V c (ix2 p q) from rfl,
    Cert.Lib.sum_blocks 40 5000]
  exact Finset.sum_congr rfl fun t _ => tileSq0_eq V c q t

/-- Result row 6 holds, after every tile, what the running total holds. -/
theorem row6_0_eq (c : Dev nD) : ∀ (n : ℕ) (hn : n < cfg0.N), (outsAt0 V c n hn).2.1 = (outsAt0 V c n hn).2.2.2.1
  | 0, hn => by
    have h := outsAt0_first V c ⟨0, hn⟩ rfl
    rw [leftFirst0_eq] at h
    exact (congrArg (fun z => z.2.1) h).trans (congrArg (fun z => z.2.2.2.1) h).symm
  | n + 1, hn => by
    have h := outsAt0_later V c ⟨n + 1, hn⟩ (Nat.succ_ne_zero n)
    rw [leftLater0_eq] at h
    exact (congrArg (fun z => z.2.1) h).trans (congrArg (fun z => z.2.2.2.1) h).symm

/-- Result row 7 holds, after every tile, what the running total holds. -/
theorem row7_0_eq (c : Dev nD) : ∀ (n : ℕ) (hn : n < cfg0.N), (outsAt0 V c n hn).2.2.1 = (outsAt0 V c n hn).2.2.2.2
  | 0, hn => by
    have h := outsAt0_first V c ⟨0, hn⟩ rfl
    rw [leftFirst0_eq] at h
    exact (congrArg (fun z => z.2.2.1) h).trans (congrArg (fun z => z.2.2.2.2) h).symm
  | n + 1, hn => by
    have h := outsAt0_later V c ⟨n + 1, hn⟩ (Nat.succ_ne_zero n)
    rw [leftLater0_eq] at h
    exact (congrArg (fun z => z.2.2.1) h).trans (congrArg (fun z => z.2.2.2.2) h).symm

theorem mem_blkS0_6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v15_1).slice (win0_6.rect t)).set ↔ _
  rw [View.set_slice_whole, Rect.mem_set_unit]
  exact Iff.rfl

set_option maxRecDepth 100000 in
/-- The row of column sums after the pass: written back once, at the last tile, when the total is complete. -/
theorem finalS0_6 (c : Dev nD) : (dat0 V c).arrAt 6 cfg0.N = (colSumRow0 V c) := by
  have hN : cfg0.N = 40 := N_0
  refine (dat0 V c).arrAt_eq_of_cover 6 (colSumRow0 V c) (fun t hf => ?_) (fun i => ?_)
  · have h39 : t.val = 39 := by have := (flush0_6 t).mp hf; have := t.isLt; omega
    obtain ⟨e00, e01, e10, e11, e20, e21, e30, e31, e40, e41, e50, e51, e60, e61, e70, e71⟩ := idxS0 t
    show (cfg0.win 6).cut (grid0.coords t) ((dat0 V c).after 6 t) = _
    rw [after0_6, row6_0_eq V c t.val t.isLt]
    funext j
    obtain ⟨u, q, rfl⟩ : ∃ (u : Fin 1) (q : Fin 128), j = ix2 u q := ⟨j 0, j 1, eq_ix2 j⟩
    refine (totSum0_at V c q u t.val t.isLt).trans ?_
    rw [h39, colSum0 V c q]
    have hemb : ((cfg0.win 6).blk t).view.emb (ix2 u q) = ix2 u q := by
      funext a; apply Fin.ext
      match a with
      | ⟨0, _⟩ => show win0_6.index t (0 : Fin 2) * 1 + 1 * u.val = u.val; omega
      | ⟨1, _⟩ => show win0_6.index t (1 : Fin 2) * 128 + 1 * q.val = q.val; omega
    have hread : ∀ f : S1x128.Idx → EReal, ((cfg0.win 6).blk t).view.read (Elt Ideal) f (ix2 u q) = f (((cfg0.win 6).blk t).view.emb (ix2 u q)) := fun f => rfl
    rw [hread (colSumRow0 V c), hemb]
    rfl
  · have hi0 : (i 0).val < 1 := (i 0).isLt
    have hi1 : (i 1).val < 128 := (i 1).isLt
    let t : Fin cfg0.N := ⟨39, by omega⟩
    obtain ⟨e00, e01, e10, e11, e20, e21, e30, e31, e40, e41, e50, e51, e60, e61, e70, e71⟩ := idxS0 t
    refine ⟨t, (flush0_6 t).mpr rfl, ?_⟩
    rw [mem_blkS0_6]
    intro a
    match a with
    | ⟨0, _⟩ => show win0_6.index t (0 : Fin 2) * 1 ≤ (i 0).val ∧ (i 0).val < win0_6.index t (0 : Fin 2) * 1 + 1; omega
    | ⟨1, _⟩ => show win0_6.index t (1 : Fin 2) * 128 ≤ (i 1).val ∧ (i 1).val < win0_6.index t (1 : Fin 2) * 128 + 128; omega

theorem mem_blkS0_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v15_2).slice (win0_7.rect t)).set ↔ _
  rw [View.set_slice_whole, Rect.mem_set_unit]
  exact Iff.rfl

set_option maxRecDepth 100000 in
/-- The row of column sums of squares after the pass: written back once, at the last tile, when the total is complete. -/
theorem finalS0_7 (c : Dev nD) : (dat0 V c).arrAt 7 cfg0.N = (colSqRow0 V c) := by
  have hN : cfg0.N = 40 := N_0
  refine (dat0 V c).arrAt_eq_of_cover 7 (colSqRow0 V c) (fun t hf => ?_) (fun i => ?_)
  · have h39 : t.val = 39 := by have := (flush0_7 t).mp hf; have := t.isLt; omega
    obtain ⟨e00, e01, e10, e11, e20, e21, e30, e31, e40, e41, e50, e51, e60, e61, e70, e71⟩ := idxS0 t
    show (cfg0.win 7).cut (grid0.coords t) ((dat0 V c).after 7 t) = _
    rw [after0_7, row7_0_eq V c t.val t.isLt]
    funext j
    obtain ⟨u, q, rfl⟩ : ∃ (u : Fin 1) (q : Fin 128), j = ix2 u q := ⟨j 0, j 1, eq_ix2 j⟩
    refine (totSq0_at V c q u t.val t.isLt).trans ?_
    rw [h39, colSq0 V c q]
    have hemb : ((cfg0.win 7).blk t).view.emb (ix2 u q) = ix2 u q := by
      funext a; apply Fin.ext
      match a with
      | ⟨0, _⟩ => show win0_7.index t (0 : Fin 2) * 1 + 1 * u.val = u.val; omega
      | ⟨1, _⟩ => show win0_7.index t (1 : Fin 2) * 128 + 1 * q.val = q.val; omega
    have hread : ∀ f : S1x128.Idx → EReal, ((cfg0.win 7).blk t).view.read (Elt Ideal) f (ix2 u q) = f (((cfg0.win 7).blk t).view.emb (ix2 u q)) := fun f => rfl
    rw [hread (colSqRow0 V c), hemb]
    rfl
  · have hi0 : (i 0).val < 1 := (i 0).isLt
    have hi1 : (i 1).val < 128 := (i 1).isLt
    let t : Fin cfg0.N := ⟨39, by omega⟩
    obtain ⟨e00, e01, e10, e11, e20, e21, e30, e31, e40, e41, e50, e51, e60, e61, e70, e71⟩ := idxS0 t
    refine ⟨t, (flush0_7 t).mpr rfl, ?_⟩
    rw [mem_blkS0_7]
    intro a
    match a with
    | ⟨0, _⟩ => show win0_7.index t (0 : Fin 2) * 1 ≤ (i 0).val ∧ (i 0).val < win0_7.index t (0 : Fin 2) * 1 + 1; omega
    | ⟨1, _⟩ => show win0_7.index t (1 : Fin 2) * 128 ≤ (i 1).val ∧ (i 1).val < win0_7.index t (1 : Fin 2) * 128 + 128; omega

end

end Cert.KernelIdeal.Hand

end
-- ==== Proof.KI.Stats2Value.lean ====
/-
  What the fused pass of layer 2 computes at a tile, as values. The stores a run leaves are the pass's payload terms of the
  tile's input blocks: the clipped linear map `h` (the result tile), and the two column totals, each the total so far plus
  the tile's column sum of `h`, respectively of `h·h` (kept in the two running-total buffers and copied to the two result
  rows). At the first tile "the total so far" is the zero row the body has just stored. Read at an index on the extended
  reals, `h (p, q)` is the larger of `0` and `∑ₖ agg (p, k) · Wl (k, q) + ∑ₖ x (p, k) · Wr (k, q) + b (0, q)`, and a column
  sum at `q` is `0 + ∑ₚ` of the column.
-/
import proofs.«178594_j20590073217563_1_alg».proof.Proof.KI.Stats2Data
import proofs.«178594_j20590073217563_1_alg».proof.Proof.LibMatDot
import proofs.«178594_j20590073217563_1_alg».proof.Proof.LibColSum
import proofs.«178594_j20590073217563_1_alg».proof.Proof.LibAsRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem zeroOff2 : (![0, 0] : Fin 2 → Nat) = fun _ => 0 := funext fun a => by fin_cases a <;> rfl

/-- What a later-tile run leaves: the tile of `h`, and both totals advanced by the tile (twice: in the result rows and in
    the running-total buffers). -/
theorem leftLater2_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : ¬isFirst2 i) (x1 : Vec F S5000x128 .f32) (x2 : Vec F S5000x128 .f32) (x3 : Vec F S128x128 .f32) (x4 : Vec F S128x128 .f32) (x5 : Vec F S1x128 .f32) (s0 s1 : Vec F S1x128 .f32) :
    leftLater2 c i arg1 harg1 arg2 harg2 arg3 harg3 arg4 harg4 arg5 harg5 arg6 harg6 arg7 harg7 arg8 harg8 arg9 harg9 arg10 harg10 hc x1 x2 x3 x4 x5 s0 s1
      = (k2_pay4 x1 x3 x2 x4 x5, k2_pay5 x1 x3 x2 x4 x5 s0, k2_pay1 (k2_pay6 x1 x3 x2 x4 x5 s1),
          k2_pay5 x1 x3 x2 x4 x5 s0, k2_pay1 (k2_pay6 x1 x3 x2 x4 x5 s1)) := by
  unfold leftLater2; dsimp only
  unfold runLater2; dsimp only
  sl_unfold_words
  simp only [View.canon_cons_unit_zero (S := S5000x128) zeroOff2, View.canon_cons_unit_zero (S := S1x128) zeroOff2, View.readCov_cons_toLoadRect, View.readAt_eq_ld, harg1.read_unread, harg2.read_unread, harg3.read_unread, harg4.read_unread, harg5.read_unread, harg9.read_unread, harg10.read_unread, View.ld_unit_zero (S := S5000x128) zeroOff2, View.ld_unit_zero (S := S128x128) zeroOff2, View.ld_unit_zero (S := S1x128) zeroOff2, View.ld_unit_zero (S := S5000x128) zeroOff2]

/-- What the first-tile run leaves: the same with the totals started from the zero rows. -/
theorem leftFirst2_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc : isFirst2 i) (x1 : Vec F S5000x128 .f32) (x2 : Vec F S5000x128 .f32) (x3 : Vec F S128x128 .f32) (x4 : Vec F S128x128 .f32) (x5 : Vec F S1x128 .f32) :
    leftFirst2 c i arg1 harg1 arg2 harg2 arg3 harg3 arg4 harg4 arg5 harg5 arg6 harg6 arg7 harg7 arg8 harg8 arg9 harg9 arg10 harg10 hc x1 x2 x3 x4 x5
      = (k2_pay4 x1 x3 x2 x4 x5, k2_pay5 x1 x3 x2 x4 x5 k2_pay2, k2_pay1 (k2_pay6 x1 x3 x2 x4 x5 k2_pay3),
          k2_pay5 x1 x3 x2 x4 x5 k2_pay2, k2_pay1 (k2_pay6 x1 x3 x2 x4 x5 k2_pay3)) := by
  unfold leftFirst2; dsimp only
  unfold runFirst2; dsimp only
  sl_unfold_words
  simp only [View.canon_cons_unit_zero (S := S5000x128) zeroOff2, View.canon_cons_unit_zero (S := S1x128) zeroOff2, View.readCov_cons_toLoadRect, View.readAt_eq_ld, harg1.read_unread, harg2.read_unread, harg3.read_unread, harg4.read_unread, harg5.read_unread, harg9.read_unread, harg10.read_unread, View.ld_unit_zero (S := S5000x128) zeroOff2, View.ld_unit_zero (S := S128x128) zeroOff2, View.ld_unit_zero (S := S1x128) zeroOff2, View.ld_unit_zero (S := S5000x128) zeroOff2]

/-! ## The payloads at an index, on the extended reals -/

section AtIdeal

/-- The clipped linear map at `(p, q)`. -/
def hAt2 (a x : Vec Ideal S5000x128 .f32) (wl wr : Vec Ideal S128x128 .f32) (b : Vec Ideal S1x128 .f32) (p : Fin 5000) (q : Fin 128) : EReal :=
  max (((∑ k : Fin 128, a (ix2 p k) * wl (ix2 k q)) + ∑ k : Fin 128, x (ix2 p k) * wr (ix2 k q)) + b (ix2 0 q)) 0

theorem pay4_2_apply (a : Vec Ideal S5000x128 .f32) (wl : Vec Ideal S128x128 .f32) (x : Vec Ideal S5000x128 .f32) (wr : Vec Ideal S128x128 .f32) (b : Vec Ideal S1x128 .f32)
    (p : Fin 5000) (q : Fin 128) : k2_pay4 (F := Ideal) a wl x wr b (ix2 p q) = hAt2 a x wl wr b p q := by
  unfold k2_pay4 hAt2
  simp only [shapeCast_self]
  have e1 := Cert.Lib.matmul_plain_zero_apply (φ₁ := .f32) (φ₂ := .f32) (a := 5000) (K := 128) (b := 128) dot_S5000x128_S128x128_S5000x128_1_0_0_1_n_n.wf none a wl p q
  have e2 := Cert.Lib.matmul_plain_zero_apply (φ₁ := .f32) (φ₂ := .f32) (a := 5000) (K := 128) (b := 128) dot_S5000x128_S128x128_S5000x128_1_0_0_1_n_n.wf none x wr p q
  have e3 : broadcastTo S5000x128 b broadcasts_S1x128_S5000x128 (ix2 p q) = b (ix2 0 q) :=
    broadcastTo_apply _ _ _ (ix2 0 q) (by intro a; fin_cases a <;> rfl)
  exact congrArg₂ max (congrArg₂ (· + ·) (congrArg₂ (· + ·) e1 e2) e3) Ideal.ofBits_zero_f32

/-- A running total advanced by a tile, at column `q`: what it was plus the tile's column sum of `h`. -/
theorem pay5_2_apply (a : Vec Ideal S5000x128 .f32) (wl : Vec Ideal S128x128 .f32) (x : Vec Ideal S5000x128 .f32) (wr : Vec Ideal S128x128 .f32) (b s : Vec Ideal S1x128 .f32)
    (u : Fin 1) (q : Fin 128) :
    k2_pay5 (F := Ideal) a wl x wr b s (ix2 u q) = s (ix2 u q) + ∑ r : Fin 5000, k2_pay4 (F := Ideal) a wl x wr b (ix2 r q) := by
  unfold k2_pay5
  try dsimp only
  simp only [shapeCast_self]
  rw [addf_apply, Cert.Lib.shapeCast_eq_asRow, Cert.Lib.asRow_apply]
  exact congrArg (s (ix2 u q) + ·) (Cert.Lib.multiReduction_add_cols (K := 5000) (R := 128) (k2_pay4 (F := Ideal) a wl x wr b) 0x00000000#32 reduces_S5000x128_S128 (.inl rfl) rfl q)

/-- The same for the squares. -/
theorem pay6_2_apply (a : Vec Ideal S5000x128 .f32) (wl : Vec Ideal S128x128 .f32) (x : Vec Ideal S5000x128 .f32) (wr : Vec Ideal S128x128 .f32) (b s : Vec Ideal S1x128 .f32)
    (u : Fin 1) (q : Fin 128) :
    k2_pay6 (F := Ideal) a wl x wr b s (ix2 u q)
      = s (ix2 u q) + ∑ r : Fin 5000, k2_pay4 (F := Ideal) a wl x wr b (ix2 r q) * k2_pay4 (F := Ideal) a wl x wr b (ix2 r q) := by
  unfold k2_pay6
  try dsimp only
  rw [addf_apply, Cert.Lib.shapeCast_eq_asRow, Cert.Lib.asRow_apply]
  exact congrArg (s (ix2 u q) + ·) (Cert.Lib.multiReduction_add_cols (K := 5000) (R := 128) (mulf (k2_pay4 (F := Ideal) a wl x wr b) (k2_pay4 (F := Ideal) a wl x wr b)) 0x00000000#32 reduces_S5000x128_S128 (.inl rfl) rfl q)

/-- The copy into the result row changes nothing. -/
theorem pay1_2_eq (v : FVec Ideal S1x128 .f32) : k2_pay1 (F := Ideal) v = v := by
  unfold k2_pay1; exact shapeCast_self _ _

/-- The cleared totals are zero. -/
theorem pay2_2_apply (j : S1x128.Idx) : k2_pay2 (F := Ideal) j = 0 := by
  unfold k2_pay2; (try dsimp only); rw [shapeCast_self, broadcast_apply]; exact Ideal.ofBits_zero_f32
theorem pay3_2_apply (j : S1x128.Idx) : k2_pay3 (F := Ideal) j = 0 := by
  unfold k2_pay3; (try dsimp only); rw [shapeCast_self, broadcast_apply]; exact Ideal.ofBits_zero_f32

end AtIdeal

end Cert.KernelIdeal.Hand

end
-- ==== Proof.KI.Stats2FinalA.lean ====
/-
  The fused pass of layer 2, its first result as one whole-array function: after the pass the array `h` holds at row `p` and
  column `q` the larger of `0` and `∑ₖ agg (p, k) · Wl (k, q) + ∑ₖ x (p, k) · Wr (k, q) + b (0, q)`, of the arrays as the pass finds
  them. Tile `t` writes back rows `5000·t … 5000·t + 4999` of it, and the forty tiles cover the 200000 rows.
-/
import proofs.«178594_j20590073217563_1_alg».proof.Proof.KI.Stats2Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The clipped linear map as a whole array. -/
def linG2 (agg x : S200000x128.Idx → EReal) (wl wr : S128x128.Idx → EReal) (b : S1x128.Idx → EReal) : S200000x128.Idx → EReal :=
  fun i => max (((∑ k : Fin 128, agg (ix2 (i 0) k) * wl (ix2 k (i 1))) + ∑ k : Fin 128, x (ix2 (i 0) k) * wr (ix2 k (i 1))) + b (ix2 0 (i 1))) 0

/-- Where the eight windows' blocks sit, decided over the forty tiles: the tile index down the rows for the two row-tiled inputs
    and the result tile, block (0, 0) for the two weight matrices, the bias row and the two result rows. -/
theorem idxS2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

section
variable (V : (c : Dev nD) → (b : Ref sig .tc) → Buf (Elt Ideal) ((c : Thread nD τ).loc b))

/-- At every tile, first or later, the result tile is the clipped linear map of the tile's input blocks. -/
theorem tile2 (c : Dev nD) (t : Fin cfg2.N) :
    (outsAt2 V c t.val t.isLt).1 = k2_pay4 (iblk2 V c 0 t) (iblk2 V c 2 t) (iblk2 V c 1 t) (iblk2 V c 3 t) (iblk2 V c 4 t) := by
  by_cases h0 : t.val = 0
  · rw [outsAt2_first V c t h0, leftFirst2_eq]
  · rw [outsAt2_later V c t h0, leftLater2_eq]

/-- An entry of a tile's clipped linear map is the whole-array map's entry at the tile's row. -/
theorem tileAt2 (c : Dev nD) (t : Fin cfg2.N) (r : Fin 5000) (q : Fin 128) :
    k2_pay4 (F := Ideal) (iblk2 V c 0 t) (iblk2 V c 2 t) (iblk2 V c 1 t) (iblk2 V c 3 t) (iblk2 V c 4 t) (ix2 r q)
      = (linG2 (V c main_v40) (V c main_v30) (V c main_arg7) (V c main_arg9) (V c main_v41)) (((cfg2.win 5).blk t).view.emb (ix2 r q)) := by
  obtain ⟨e00, e01, e10, e11, e20, e21, e30, e31, e40, e41, e50, e51, e60, e61, e70, e71⟩ := idxS2 t
  refine (pay4_2_apply _ _ _ _ _ r q).trans ?_
  unfold hAt2
  have hw0 : ∀ k : Fin 128, iblk2 V c 0 t (ix2 r k) = V c main_v40 (ix2 ((((cfg2.win 5).blk t).view.emb (ix2 r q)) 0) k) := by
    intro k
    show V c main_v40 (((cfg2.win 0).blk t).view.emb (ix2 r k)) = _
    refine congrArg (V c main_v40) ?_
    funext a; apply Fin.ext
    match a with
    | ⟨0, _⟩ => show win2_0.index t (0 : Fin 2) * 5000 + 1 * r.val = win2_5.index t (0 : Fin 2) * 5000 + 1 * r.val; omega
    | ⟨1, _⟩ => show win2_0.index t (1 : Fin 2) * 128 + 1 * k.val = k.val; omega
  have hw1 : ∀ k : Fin 128, iblk2 V c 1 t (ix2 r k) = V c main_v30 (ix2 ((((cfg2.win 5).blk t).view.emb (ix2 r q)) 0) k) := by
    intro k
    show V c main_v30 (((cfg2.win 1).blk t).view.emb (ix2 r k)) = _
    refine congrArg (V c main_v30) ?_
    funext a; apply Fin.ext
    match a with
    | ⟨0, _⟩ => show win2_1.index t (0 : Fin 2) * 5000 + 1 * r.val = win2_5.index t (0 : Fin 2) * 5000 + 1 * r.val; omega
    | ⟨1, _⟩ => show win2_1.index t (1 : Fin 2) * 128 + 1 * k.val = k.val; omega
  have hw2 : ∀ k : Fin 128, iblk2 V c 2 t (ix2 k q) = V c main_arg7 (ix2 k ((((cfg2.win 5).blk t).view.emb (ix2 r q)) 1)) := by
    intro k
    show V c main_arg7 (((cfg2.win 2).blk t).view.emb (ix2 k q)) = _
    refine congrArg (V c main_arg7) ?_
    funext a; apply Fin.ext
    match a with
    | ⟨0, _⟩ => show win2_2.index t (0 : Fin 2) * 128 + 1 * k.val = k.val; omega
    | ⟨1, _⟩ => show win2_2.index t (1 : Fin 2) * 128 + 1 * q.val = win2_5.index t (1 : Fin 2) * 128 + 1 * q.val; omega
  have hw3 : ∀ k : Fin 128, iblk2 V c 3 t (ix2 k q) = V c main_arg9 (ix2 k ((((cfg2.win 5).blk t).view.emb (ix2 r q)) 1)) := by
    intro k
    show V c main_arg9 (((cfg2.win 3).blk t).view.emb (ix2 k q)) = _
    refine congrArg (V c main_arg9) ?_
    funext a; apply Fin.ext
    match a with
    | ⟨0, _⟩ => show win2_3.index t (0 : Fin 2) * 128 + 1 * k.val = k.val; omega
    | ⟨1, _⟩ => show win2_3.index t (1 : Fin 2) * 128 + 1 * q.val = win2_5.index t (1 : Fin 2) * 128 + 1 * q.val; omega
  have hw4 : iblk2 V c 4 t (ix2 0 q) = V c main_v41 (ix2 0 ((((cfg2.win 5).blk t).view.emb (ix2 r q)) 1)) := by
    show V c main_v41 (((cfg2.win 4).blk t).view.emb (ix2 0 q)) = _
    refine congrArg (V c main_v41) ?_
    funext a; apply Fin.ext
    match a with
    | ⟨0, _⟩ => show win2_4.index t (0 : Fin 2) * 1 + 1 * 0 = 0; omega
    | ⟨1, _⟩ => show win2_4.index t (1 : Fin 2) * 128 + 1 * q.val = win2_5.index t (1 : Fin 2) * 128 + 1 * q.val; omega
  simp only [hw0, hw1, hw2, hw3, hw4]
  rfl

/-- What tile `t` writes back into `h` is tile `t` of the whole-array map. -/
theorem flushedS2_5 (c : Dev nD) (t : Fin cfg2.N) :
    (dat2 V c).flushed 5 t = ((cfg2.win 5).blk t).view.read (Elt Ideal) (linG2 (V c main_v40) (V c main_v30) (V c main_arg7) (V c main_arg9) (V c main_v41)) := by
  show (cfg2.win 5).cut (grid2.coords t) ((dat2 V c).after 5 t) = _
  rw [after2_5, tile2]
  funext j
  obtain ⟨r, q, rfl⟩ : ∃ (r : Fin 5000) (q : Fin 128), j = ix2 r q := ⟨j 0, j 1, eq_ix2 j⟩
  exact tileAt2 V c t r q

theorem mem_blkS2_5 (t : Fin cfg2.N) (i : S200000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v42_0).slice (win2_5.rect t)).set ↔ _
  rw [View.set_slice_whole, Rect.mem_set_unit]
  exact Iff.rfl

/-- Every row is in some tile: row `p` in tile `p / 5000`. -/
theorem coverS2_5 (i : S200000x128.Idx) : ∃ t : Fin cfg2.N, (cfg2.win 5).flush t = true ∧ i ∈ ((cfg2.win 5).blk t).view.set := by
  have hi0 : (i 0).val < 200000 := (i 0).isLt
  have hi1 : (i 1).val < 128 := (i 1).isLt
  have hN : cfg2.N = 40 := N_2
  let t : Fin cfg2.N := ⟨(i 0).val / 5000, by omega⟩
  obtain ⟨e00, e01, e10, e11, e20, e21, e30, e31, e40, e41, e50, e51, e60, e61, e70, e71⟩ := idxS2 t
  have ht : t.val = (i 0).val / 5000 := rfl
  refine ⟨t, flush2_5 t, ?_⟩
  rw [mem_blkS2_5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The array `h` after the pass. -/
theorem finalS2_5 (c : Dev nD) : (dat2 V c).arrAt 5 cfg2.N = (linG2 (V c main_v40) (V c main_v30) (V c main_arg7) (V c main_arg9) (V c main_v41)) :=
  (dat2 V c).arrAt_eq_of_cover 5 (linG2 (V c main_v40) (V c main_v30) (V c main_arg7) (V c main_arg9) (V c main_v41)) (fun t _ => flushedS2_5 V c t) (coverS2_5)

end

end Cert.KernelIdeal.Hand

end
-- ==== Proof.KI.Stats2FinalB.lean ====
/-
  The fused pass of layer 2, its two result rows: after the pass the first holds at column `q` the sum over all 200000 rows `p` of
  `h (p, q)`, the second the sum of `h (p, q) · h (p, q)`. Each is accumulated tile by tile — cleared at the first tile, advanced by
  every tile's column sum, in the order of the tiles — and addition of extended reals is associative and commutative, so the total after the
  last tile is the one sum; the forty blocks of 5000 rows are the 200000 rows. The rows are written back once, at the last tile.
-/
import proofs.«178594_j20590073217563_1_alg».proof.Proof.KI.Stats2FinalA
import proofs.«178594_j20590073217563_1_alg».proof.Proof.LibBlockSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

section
variable (V : (c : Dev nD) → (b : Ref sig .tc) → Buf (Elt Ideal) ((c : Thread nD τ).loc b))

/-- The array `h` the pass leaves, of the arrays as the pass finds them. -/
abbrev hArr2 (c : Dev nD) : S200000x128.Idx → EReal :=
  linG2 (V c main_v40) (V c main_v30) (V c main_arg7) (V c main_arg9) (V c main_v41)

/-- The row of column sums of `h`, and of `h·h`. -/
def colSumRow2 (c : Dev nD) : S1x128.Idx → EReal := fun i => ∑ p : Fin 200000, hArr2 V c (ix2 p (i 1))
def colSqRow2 (c : Dev nD) : S1x128.Idx → EReal := fun i => ∑ p : Fin 200000, hArr2 V c (ix2 p (i 1)) * hArr2 V c (ix2 p (i 1))

/-- Row `r` of tile `t` is row `r + 5000·t` of the array. -/
theorem rowOf2 (c : Dev nD) (t : Fin cfg2.N) (t' : Fin 40) (ht : t.val = t'.val) (r : Fin 5000) (q : Fin 128) :
    hArr2 V c (((cfg2.win 5).blk t).view.emb (ix2 r q)) = hArr2 V c (ix2 (finProdFinEquiv (t', r) : Fin (40 * 5000)) q) := by
  obtain ⟨e00, e01, e10, e11, e20, e21, e30, e31, e40, e41, e50, e51, e60, e61, e70, e71⟩ := idxS2 t
  refine congrArg (hArr2 V c) ?_
  funext a; apply Fin.ext
  match a with
  | ⟨0, _⟩ => show win2_5.index t (0 : Fin 2) * 5000 + 1 * r.val = r.val + 5000 * t'.val; omega
  | ⟨1, _⟩ => show win2_5.index t (1 : Fin 2) * 128 + 1 * q.val = q.val; omega

/-- Tile `n`'s column sum of `h` at column `q` (zero past the last tile). -/
def tileSum2 (c : Dev nD) (q : Fin 128) (n : ℕ) : EReal :=
  if hn : n < cfg2.N then ∑ r : Fin 5000, k2_pay4 (F := Ideal) (iblk2 V c 0 ⟨n, hn⟩) (iblk2 V c 2 ⟨n, hn⟩) (iblk2 V c 1 ⟨n, hn⟩) (iblk2 V c 3 ⟨n, hn⟩) (iblk2 V c 4 ⟨n, hn⟩) (ix2 r q) else 0

/-- The running total of values after tile `n`, at column `q`: the tiles' column sums so far. -/
theorem totSum2_at (c : Dev nD) (q : Fin 128) (u : Fin 1) :
    ∀ (n : ℕ) (hn : n < cfg2.N), (outsAt2 V c n hn).2.2.2.1 (ix2 u q) = ∑ t ∈ Finset.range (n + 1), tileSum2 V c q t
  | 0, hn => by
    have e : (outsAt2 V c 0 hn).2.2.2.1 = k2_pay5 (F := Ideal) (iblk2 V c 0 ⟨0, hn⟩) (iblk2 V c 2 ⟨0, hn⟩) (iblk2 V c 1 ⟨0, hn⟩) (iblk2 V c 3 ⟨0, hn⟩) (iblk2 V c 4 ⟨0, hn⟩) (k2_pay2 (F := Ideal)) := by
      have h := outsAt2_first V c ⟨0, hn⟩ rfl
      rw [leftFirst2_eq] at h
      exact congrArg (fun z => z.2.2.2.1) h
    rw [e, pay5_2_apply, pay2_2_apply, zero_add, Finset.sum_range_one]
    unfold tileSum2; rw [dif_pos hn]
  | n + 1, hn => by
    have e : (outsAt2 V c (n + 1) hn).2.2.2.1 = k2_pay5 (F := Ideal) (iblk2 V c 0 ⟨n + 1, hn⟩) (iblk2 V c 2 ⟨n + 1, hn⟩) (iblk2 V c 1 ⟨n + 1, hn⟩) (iblk2 V c 3 ⟨n + 1, hn⟩) (iblk2 V c 4 ⟨n + 1, hn⟩) ((outsAt2 V c n (Nat.lt_of_succ_lt hn)).2.2.2.1) := by
      have h := outsAt2_later V c ⟨n + 1, hn⟩ (Nat.succ_ne_zero n)
      rw [leftLater2_eq] at h
      exact congrArg (fun z => z.2.2.2.1) h
    rw [e, pay5_2_apply, totSum2_at c q u n (Nat.lt_of_succ_lt hn), Finset.sum_range_succ (n := n + 1)]
    congr 1
    unfold tileSum2; rw [dif_pos hn]

/-- A tile's column sum in terms of the whole array `h`. -/
theorem tileSum2_eq (c : Dev nD) (q : Fin 128) (t : Fin 40) :
    tileSum2 V c q t.val = ∑ r : Fin 5000, hArr2 V c (ix2 (finProdFinEquiv (t, r) : Fin (40 * 5000)) q) := by
  have hN : cfg2.N = 40 := N_2
  have ht : t.val < cfg2.N := by have := t.isLt; omega
  unfold tileSum2; rw [dif_pos ht]
  refine Finset.sum_congr rfl fun r _ => ?_
  exact (tileAt2 V c ⟨t.val, ht⟩ r q).trans (rowOf2 V c ⟨t.val, ht⟩ t rfl r q)

/-- The forty tile sums are one sum over all the rows. -/
theorem colSum2 (c : Dev nD) (q : Fin 128) :
    ∑ t ∈ Finset.range 40, tileSum2 V c q t = ∑ p : Fin 200000, hArr2 V c (ix2 p q) := by
  rw [Finset.sum_range]
  rw [show (∑ p : Fin 200000, hArr2 V c (ix2 p q)) = ∑ p : Fin (40 * 5000), hArr2 V c (ix2 p q) from rfl,
    Cert.Lib.sum_blocks 40 5000]
  exact Finset.sum_congr rfl fun t _ => tileSum2_eq V c q t

/-- Tile `n`'s column sum of `h·h` at column `q` (zero past the last tile). -/
def tileSq2 (c : Dev nD) (q : Fin 128) (n : ℕ) : EReal :=
  if hn : n < cfg2.N then ∑ r : Fin 5000, k2_pay4 (F := Ideal) (iblk2 V c 0 ⟨n, hn⟩) (iblk2 V c 2 ⟨n, hn⟩) (iblk2 V c 1 ⟨n, hn⟩) (iblk2 V c 3 ⟨n, hn⟩) (iblk2 V c 4 ⟨n, hn⟩) (ix2 r q) * k2_pay4 (F := Ideal) (iblk2 V c 0 ⟨n, hn⟩) (iblk2 V c 2 ⟨n, hn⟩) (iblk2 V c 1 ⟨n, hn⟩) (iblk2 V c 3 ⟨n, hn⟩) (iblk2 V c 4 ⟨n, hn⟩) (ix2 r q) else 0

/-- The running total of squares after tile `n`, at column `q`: the tiles' column sums so far. -/
theorem totSq2_at (c : Dev nD) (q : Fin 128) (u : Fin 1) :
    ∀ (n : ℕ) (hn : n < cfg2.N), (outsAt2 V c n hn).2.2.2.2 (ix2 u q) = ∑ t ∈ Finset.range (n + 1), tileSq2 V c q t
  | 0, hn => by
    have e : (outsAt2 V c 0 hn).2.2.2.2 = k2_pay1 (F := Ideal) (k2_pay6 (F := Ideal) (iblk2 V c 0 ⟨0, hn⟩) (iblk2 V c 2 ⟨0, hn⟩) (iblk2 V c 1 ⟨0, hn⟩) (iblk2 V c 3 ⟨0, hn⟩) (iblk2 V c 4 ⟨0, hn⟩) (k2_pay3 (F := Ideal))) := by
      have h := outsAt2_first V c ⟨0, hn⟩ rfl
      rw [leftFirst2_eq] at h
      exact congrArg (fun z => z.2.2.2.2) h
    rw [e, pay1_2_eq, pay6_2_apply, pay3_2_apply, zero_add, Finset.sum_range_one]
    unfold tileSq2; rw [dif_pos hn]
  | n + 1, hn => by
    have e : (outsAt2 V c (n + 1) hn).2.2.2.2 = k2_pay1 (F := Ideal) (k2_pay6 (F := Ideal) (iblk2 V c 0 ⟨n + 1, hn⟩) (iblk2 V c 2 ⟨n + 1, hn⟩) (iblk2 V c 1 ⟨n + 1, hn⟩) (iblk2 V c 3 ⟨n + 1, hn⟩) (iblk2 V c 4 ⟨n + 1, hn⟩) ((outsAt2 V c n (Nat.lt_of_succ_lt hn)).2.2.2.2)) := by
      have h := outsAt2_later V c ⟨n + 1, hn⟩ (Nat.succ_ne_zero n)
      rw [leftLater2_eq] at h
      exact congrArg (fun z => z.2.2.2.2) h
    rw [e, pay1_2_eq, pay6_2_apply, totSq2_at c q u n (Nat.lt_of_succ_lt hn), Finset.sum_range_succ (n := n + 1)]
    congr 1
    unfold tileSq2; rw [dif_pos hn]

/-- A tile's column sum in terms of the whole array `h`. -/
theorem tileSq2_eq (c : Dev nD) (q : Fin 128) (t : Fin 40) :
    tileSq2 V c q t.val = ∑ r : Fin 5000, hArr2 V c (ix2 (finProdFinEquiv (t, r) : Fin (40 * 5000)) q) * hArr2 V c (ix2 (finProdFinEquiv (t, r) : Fin (40 * 5000)) q) := by
  have hN : cfg2.N = 40 := N_2
  have ht : t.val < cfg2.N := by have := t.isLt; omega
  unfold tileSq2; rw [dif_pos ht]
  refine Finset.sum_congr rfl fun r _ => ?_
  exact congrArg₂ (· * ·) ((tileAt2 V c ⟨t.val, ht⟩ r q).trans (rowOf2 V c ⟨t.val, ht⟩ t rfl r q)) ((tileAt2 V c ⟨t.val, ht⟩ r q).trans (rowOf2 V c ⟨t.val, ht⟩ t rfl r q))

/-- The forty tile sums are one sum over all the rows. -/
theorem colSq2 (c : Dev nD) (q : Fin 128) :
    ∑ t ∈ Finset.range 40, tileSq2 V c q t = ∑ p : Fin 200000, hArr2 V c (ix2 p q) * hArr2 V c (ix2 p q) := by
  rw [Finset.sum_range]
  rw [show (∑ p : Fin 200000, hArr2 V c (ix2 p q) * hArr2 V c (ix2 p q)) = ∑ p : Fin (40 * 5000), hArr2 V c (ix2 p q) * hArr2 V c (ix2 p q) from rfl,
    Cert.Lib.sum_blocks 40 5000]
  exact Finset.sum_congr rfl fun t _ => tileSq2_eq V c q t

/-- Result row 6 holds, after every tile, what the running total holds. -/
theorem row6_2_eq (c : Dev nD) : ∀ (n : ℕ) (hn : n < cfg2.N), (outsAt2 V c n hn).2.1 = (outsAt2 V c n hn).2.2.2.1
  | 0, hn => by
    have h := outsAt2_first V c ⟨0, hn⟩ rfl
    rw [leftFirst2_eq] at h
    exact (congrArg (fun z => z.2.1) h).trans (congrArg (fun z => z.2.2.2.1) h).symm
  | n + 1, hn => by
    have h := outsAt2_later V c ⟨n + 1, hn⟩ (Nat.succ_ne_zero n)
    rw [leftLater2_eq] at h
    exact (congrArg (fun z => z.2.1) h).trans (congrArg (fun z => z.2.2.2.1) h).symm

/-- Result row 7 holds, after every tile, what the running total holds. -/
theorem row7_2_eq (c : Dev nD) : ∀ (n : ℕ) (hn : n < cfg2.N), (outsAt2 V c n hn).2.2.1 = (outsAt2 V c n hn).2.2.2.2
  | 0, hn => by
    have h := outsAt2_first V c ⟨0, hn⟩ rfl
    rw [leftFirst2_eq] at h
    exact (congrArg (fun z => z.2.2.1) h).trans (congrArg (fun z => z.2.2.2.2) h).symm
  | n + 1, hn => by
    have h := outsAt2_later V c ⟨n + 1, hn⟩ (Nat.succ_ne_zero n)
    rw [leftLater2_eq] at h
    exact (congrArg (fun z => z.2.2.1) h).trans (congrArg (fun z => z.2.2.2.2) h).symm

theorem mem_blkS2_6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v42_1).slice (win2_6.rect t)).set ↔ _
  rw [View.set_slice_whole, Rect.mem_set_unit]
  exact Iff.rfl

set_option maxRecDepth 100000 in
/-- The row of column sums after the pass: written back once, at the last tile, when the total is complete. -/
theorem finalS2_6 (c : Dev nD) : (dat2 V c).arrAt 6 cfg2.N = (colSumRow2 V c) := by
  have hN : cfg2.N = 40 := N_2
  refine (dat2 V c).arrAt_eq_of_cover 6 (colSumRow2 V c) (fun t hf => ?_) (fun i => ?_)
  · have h39 : t.val = 39 := by have := (flush2_6 t).mp hf; have := t.isLt; omega
    obtain ⟨e00, e01, e10, e11, e20, e21, e30, e31, e40, e41, e50, e51, e60, e61, e70, e71⟩ := idxS2 t
    show (cfg2.win 6).cut (grid2.coords t) ((dat2 V c).after 6 t) = _
    rw [after2_6, row6_2_eq V c t.val t.isLt]
    funext j
    obtain ⟨u, q, rfl⟩ : ∃ (u : Fin 1) (q : Fin 128), j = ix2 u q := ⟨j 0, j 1, eq_ix2 j⟩
    refine (totSum2_at V c q u t.val t.isLt).trans ?_
    rw [h39, colSum2 V c q]
    have hemb : ((cfg2.win 6).blk t).view.emb (ix2 u q) = ix2 u q := by
      funext a; apply Fin.ext
      match a with
      | ⟨0, _⟩ => show win2_6.index t (0 : Fin 2) * 1 + 1 * u.val = u.val; omega
      | ⟨1, _⟩ => show win2_6.index t (1 : Fin 2) * 128 + 1 * q.val = q.val; omega
    have hread : ∀ f : S1x128.Idx → EReal, ((cfg2.win 6).blk t).view.read (Elt Ideal) f (ix2 u q) = f (((cfg2.win 6).blk t).view.emb (ix2 u q)) := fun f => rfl
    rw [hread (colSumRow2 V c), hemb]
    rfl
  · have hi0 : (i 0).val < 1 := (i 0).isLt
    have hi1 : (i 1).val < 128 := (i 1).isLt
    let t : Fin cfg2.N := ⟨39, by omega⟩
    obtain ⟨e00, e01, e10, e11, e20, e21, e30, e31, e40, e41, e50, e51, e60, e61, e70, e71⟩ := idxS2 t
    refine ⟨t, (flush2_6 t).mpr rfl, ?_⟩
    rw [mem_blkS2_6]
    intro a
    match a with
    | ⟨0, _⟩ => show win2_6.index t (0 : Fin 2) * 1 ≤ (i 0).val ∧ (i 0).val < win2_6.index t (0 : Fin 2) * 1 + 1; omega
    | ⟨1, _⟩ => show win2_6.index t (1 : Fin 2) * 128 ≤ (i 1).val ∧ (i 1).val < win2_6.index t (1 : Fin 2) * 128 + 128; omega

theorem mem_blkS2_7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v42_2).slice (win2_7.rect t)).set ↔ _
  rw [View.set_slice_whole, Rect.mem_set_unit]
  exact Iff.rfl

set_option maxRecDepth 100000 in
/-- The row of column sums of squares after the pass: written back once, at the last tile, when the total is complete. -/
theorem finalS2_7 (c : Dev nD) : (dat2 V c).arrAt 7 cfg2.N = (colSqRow2 V c) := by
  have hN : cfg2.N = 40 := N_2
  refine (dat2 V c).arrAt_eq_of_cover 7 (colSqRow2 V c) (fun t hf => ?_) (fun i => ?_)
  · have h39 : t.val = 39 := by have := (flush2_7 t).mp hf; have := t.isLt; omega
    obtain ⟨e00, e01, e10, e11, e20, e21, e30, e31, e40, e41, e50, e51, e60, e61, e70, e71⟩ := idxS2 t
    show (cfg2.win 7).cut (grid2.coords t) ((dat2 V c).after 7 t) = _
    rw [after2_7, row7_2_eq V c t.val t.isLt]
    funext j
    obtain ⟨u, q, rfl⟩ : ∃ (u : Fin 1) (q : Fin 128), j = ix2 u q := ⟨j 0, j 1, eq_ix2 j⟩
    refine (totSq2_at V c q u t.val t.isLt).trans ?_
    rw [h39, colSq2 V c q]
    have hemb : ((cfg2.win 7).blk t).view.emb (ix2 u q) = ix2 u q := by
      funext a; apply Fin.ext
      match a with
      | ⟨0, _⟩ => show win2_7.index t (0 : Fin 2) * 1 + 1 * u.val = u.val; omega
      | ⟨1, _⟩ => show win2_7.index t (1 : Fin 2) * 128 + 1 * q.val = q.val; omega
    have hread : ∀ f : S1x128.Idx → EReal, ((cfg2.win 7).blk t).view.read (Elt Ideal) f (ix2 u q) = f (((cfg2.win 7).blk t).view.emb (ix2 u q)) := fun f => rfl
    rw [hread (colSqRow2 V c), hemb]
    rfl
  · have hi0 : (i 0).val < 1 := (i 0).isLt
    have hi1 : (i 1).val < 128 := (i 1).isLt
    let t : Fin cfg2.N := ⟨39, by omega⟩
    obtain ⟨e00, e01, e10, e11, e20, e21, e30, e31, e40, e41, e50, e51, e60, e61, e70, e71⟩ := idxS2 t
    refine ⟨t, (flush2_7 t).mpr rfl, ?_⟩
    rw [mem_blkS2_7]
    intro a
    match a with
    | ⟨0, _⟩ => show win2_7.index t (0 : Fin 2) * 1 ≤ (i 0).val ∧ (i 0).val < win2_7.index t (0 : Fin 2) * 1 + 1; omega
    | ⟨1, _⟩ => show win2_7.index t (1 : Fin 2) * 128 ≤ (i 1).val ∧ (i 1).val < win2_7.index t (1 : Fin 2) * 128 + 128; omega

end

end Cert.KernelIdeal.Hand

end
-- ==== Proof.KI.Norm1Value.lean ====
/-
  The normalising pass of layer 1 as one whole-array function: after the pass its result array holds, at row `p` and column
  `q`, the entry `h (p, q)` of the array it normalises times the scale row's entry `q` plus the shift row's entry `q`.
  Tile `t` of the forty writes back rows `5000·t … 5000·t + 4999`, which is that function read through the tile, and the forty
  tiles cover all 200000 rows.
-/
import proofs.«178594_j20590073217563_1_alg».proof.Proof.KI.Norm1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem zeroOffN1 : (![0, 0] : Fin 2 → Nat) = fun _ => 0 := funext fun a => by fin_cases a <;> rfl

/-- The pass's function of the array it normalises and the two rows. -/
def normG1 (h : S200000x128.Idx → EReal) (sc sh : S1x128.Idx → EReal) : S200000x128.Idx → EReal :=
  fun i => h i * sc (ix2 0 (i 1)) + sh (ix2 0 (i 1))

/-- The body's value at `(r, q)` of a tile. -/
theorem payN1_apply (x0 : Vec Ideal S5000x128 .f32) (x1 x2 : Vec Ideal S1x128 .f32) (r : Fin 5000) (q : Fin 128) :
    k1_pay1 (F := Ideal) x0 x1 x2 (ix2 r q) = x0 (ix2 r q) * x1 (ix2 0 q) + x2 (ix2 0 q) := by
  unfold k1_pay1
  simp only [shapeCast_self]
  rw [addf_apply, mulf_apply, broadcastTo_apply _ _ _ (ix2 0 q) (by intro a; fin_cases a <;> rfl),
    broadcastTo_apply _ _ _ (ix2 0 q) (by intro a; fin_cases a <;> rfl)]

theorem payN1_at (x0 : Vec Ideal S5000x128 .f32) (x1 x2 : Vec Ideal S1x128 .f32) (j : S5000x128.Idx) :
    k1_pay1 (F := Ideal) x0 x1 x2 j = x0 j * x1 (ix2 0 (j 1)) + x2 (ix2 0 (j 1)) := by
  obtain ⟨r, q, rfl⟩ : ∃ (r : Fin 5000) (q : Fin 128), j = ix2 r q := ⟨j 0, j 1, eq_ix2 j⟩
  exact payN1_apply x0 x1 x2 r q

/-- Where the windows' blocks sit, decided over the forty tiles: the tile index down the rows for the normalised array and the
    result, block (0, 0) for the two rows. -/
theorem idxN1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b))

/-- What tile `t` writes back is tile `t` of the pass's function of the arrays as the pass finds them. -/
theorem flushedN1_eq (c : Dev nD) (t : Fin cfg1.N) :
    (dat1 V c).flushed 3 t = ((cfg1.win 3).blk t).view.read (Elt Ideal) (normG1 (V c main_v15_0) (V c main_v26) (V c main_v29)) := by
  show (cfg1.win 3).cut (grid1.coords t) ((dat1 V c).after 3 t) = _
  rw [after1_3]
  unfold out1_3
  rw [View.canon_unit_zero zeroOffN1]
  simp only [View.ld_unit_zero (S := S5000x128) zeroOffN1, View.ld_unit_zero (S := S1x128) zeroOffN1]
  obtain ⟨e0, e1, e2, e3, e4, e5, e6, e7⟩ := idxN1 t
  funext j
  refine (payN1_at _ _ _ j).trans ?_
  have h0 : iblk1 V c 0 t j = V c main_v15_0 (((cfg1.win 3).blk t).view.emb j) := by
    show V c main_v15_0 (((cfg1.win 0).blk t).view.emb j) = _
    refine congrArg (V c main_v15_0) ?_
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : iblk1 V c 1 t (ix2 0 (j 1)) = V c main_v26 (ix2 0 ((((cfg1.win 3).blk t).view.emb j) 1)) := by
    show V c main_v26 (((cfg1.win 1).blk t).view.emb (ix2 0 (j 1))) = _
    refine congrArg (V c main_v26) ?_
    funext a; apply Fin.ext
    match a with
    | ⟨0, _⟩ => show win1_1.index t (0 : Fin 2) * 1 + 1 * 0 = 0; omega
    | ⟨1, _⟩ => show win1_1.index t (1 : Fin 2) * 128 + 1 * (j 1).val = win1_3.index t (1 : Fin 2) * 128 + 1 * (j 1).val; omega
  have h2 : iblk1 V c 2 t (ix2 0 (j 1)) = V c main_v29 (ix2 0 ((((cfg1.win 3).blk t).view.emb j) 1)) := by
    show V c main_v29 (((cfg1.win 2).blk t).view.emb (ix2 0 (j 1))) = _
    refine congrArg (V c main_v29) ?_
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  rw [h0, h1, h2]
  rfl

/-- An index of the result array is in tile `t`'s block iff each coordinate is in the block's range on its axis. -/
theorem mem_blkN1 (t : Fin cfg1.N) (i : S200000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v30).slice (win1_3.rect t)).set ↔ _
  rw [View.set_slice_whole, Rect.mem_set_unit]
  exact Iff.rfl

/-- Every row is in some tile: row `p` in tile `p / 5000`. -/
theorem coverN1 (i : S200000x128.Idx) : ∃ t : Fin cfg1.N, (cfg1.win 3).flush t = true ∧ i ∈ ((cfg1.win 3).blk t).view.set := by
  have hi0 : (i 0).val < 200000 := (i 0).isLt
  have hi1 : (i 1).val < 128 := (i 1).isLt
  have hN : cfg1.N = 40 := N_1
  let t : Fin cfg1.N := ⟨(i 0).val / 5000, by omega⟩
  obtain ⟨e0, e1, e2, e3, e4, e5, e6, e7⟩ := idxN1 t
  have ht : t.val = (i 0).val / 5000 := rfl
  refine ⟨t, flush1_3 t, ?_⟩
  rw [mem_blkN1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the pass. -/
theorem finalN1 (c : Dev nD) : (dat1 V c).arrAt 3 cfg1.N = normG1 (V c main_v15_0) (V c main_v26) (V c main_v29) :=
  (dat1 V c).arrAt_eq_of_cover 3 (normG1 (V c main_v15_0) (V c main_v26) (V c main_v29)) (fun t _ => flushedN1_eq V c t) (coverN1)

end

end Cert.KernelIdeal.Hand

end
-- ==== Proof.KI.Norm3Value.lean ====
/-
  The normalising pass of layer 2 as one whole-array function: after the pass its result array holds, at row `p` and column
  `q`, the entry `h (p, q)` of the array it normalises times the scale row's entry `q` plus the shift row's entry `q`, clipped at zero.
  Tile `t` of the forty writes back rows `5000·t … 5000·t + 4999`, which is that function read through the tile, and the forty
  tiles cover all 200000 rows.
-/
import proofs.«178594_j20590073217563_1_alg».proof.Proof.KI.Norm3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem zeroOffN3 : (![0, 0] : Fin 2 → Nat) = fun _ => 0 := funext fun a => by fin_cases a <;> rfl

/-- The pass's function of the array it normalises and the two rows. -/
def normG3 (h : S200000x128.Idx → EReal) (sc sh : S1x128.Idx → EReal) : S200000x128.Idx → EReal :=
  fun i => max (h i * sc (ix2 0 (i 1)) + sh (ix2 0 (i 1))) 0

/-- The body's value at `(r, q)` of a tile. -/
theorem payN3_apply (x0 : Vec Ideal S5000x128 .f32) (x1 x2 : Vec Ideal S1x128 .f32) (r : Fin 5000) (q : Fin 128) :
    k3_pay1 (F := Ideal) x0 x1 x2 (ix2 r q) = max (x0 (ix2 r q) * x1 (ix2 0 q) + x2 (ix2 0 q)) 0 := by
  unfold k3_pay1
  simp only [shapeCast_self]
  rw [maximumf_apply, broadcast_apply, addf_apply, mulf_apply, broadcastTo_apply _ _ _ (ix2 0 q) (by intro a; fin_cases a <;> rfl),
    broadcastTo_apply _ _ _ (ix2 0 q) (by intro a; fin_cases a <;> rfl)]
  rw [show (Scalar.ofBits (F := Ideal) .f32 0x00000000#32 : EReal) = 0 from Ideal.ofBits_zero_f32]

theorem payN3_at (x0 : Vec Ideal S5000x128 .f32) (x1 x2 : Vec Ideal S1x128 .f32) (j : S5000x128.Idx) :
    k3_pay1 (F := Ideal) x0 x1 x2 j = max (x0 j * x1 (ix2 0 (j 1)) + x2 (ix2 0 (j 1))) 0 := by
  obtain ⟨r, q, rfl⟩ : ∃ (r : Fin 5000) (q : Fin 128), j = ix2 r q := ⟨j 0, j 1, eq_ix2 j⟩
  exact payN3_apply x0 x1 x2 r q

/-- Where the windows' blocks sit, decided over the forty tiles: the tile index down the rows for the normalised array and the
    result, block (0, 0) for the two rows. -/
theorem idxN3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section
variable (V : (c : Dev nD) → (b : Ref sig .tc) → Buf (Elt Ideal) ((c : Thread nD τ).loc b))

/-- What tile `t` writes back is tile `t` of the pass's function of the arrays as the pass finds them. -/
theorem flushedN3_eq (c : Dev nD) (t : Fin cfg3.N) :
    (dat3 V c).flushed 3 t = ((cfg3.win 3).blk t).view.read (Elt Ideal) (normG3 (V c main_v42_0) (V c main_v53) (V c main_v56)) := by
  show (cfg3.win 3).cut (grid3.coords t) ((dat3 V c).after 3 t) = _
  rw [after3_3]
  unfold out3_3
  rw [View.canon_unit_zero zeroOffN3]
  simp only [View.ld_unit_zero (S := S5000x128) zeroOffN3, View.ld_unit_zero (S := S1x128) zeroOffN3]
  obtain ⟨e0, e1, e2, e3, e4, e5, e6, e7⟩ := idxN3 t
  funext j
  refine (payN3_at _ _ _ j).trans ?_
  have h0 : iblk3 V c 0 t j = V c main_v42_0 (((cfg3.win 3).blk t).view.emb j) := by
    show V c main_v42_0 (((cfg3.win 0).blk t).view.emb j) = _
    refine congrArg (V c main_v42_0) ?_
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  have h1 : iblk3 V c 1 t (ix2 0 (j 1)) = V c main_v53 (ix2 0 ((((cfg3.win 3).blk t).view.emb j) 1)) := by
    show V c main_v53 (((cfg3.win 1).blk t).view.emb (ix2 0 (j 1))) = _
    refine congrArg (V c main_v53) ?_
    funext a; apply Fin.ext
    match a with
    | ⟨0, _⟩ => show win3_1.index t (0 : Fin 2) * 1 + 1 * 0 = 0; omega
    | ⟨1, _⟩ => show win3_1.index t (1 : Fin 2) * 128 + 1 * (j 1).val = win3_3.index t (1 : Fin 2) * 128 + 1 * (j 1).val; omega
  have h2 : iblk3 V c 2 t (ix2 0 (j 1)) = V c main_v56 (ix2 0 ((((cfg3.win 3).blk t).view.emb j) 1)) := by
    show V c main_v56 (((cfg3.win 2).blk t).view.emb (ix2 0 (j 1))) = _
    refine congrArg (V c main_v56) ?_
    funext a; apply Fin.ext
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega
  rw [h0, h1, h2]
  rfl

/-- An index of the result array is in tile `t`'s block iff each coordinate is in the block's range on its axis. -/
theorem mem_blkN3 (t : Fin cfg3.N) (i : S200000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v57).slice (win3_3.rect t)).set ↔ _
  rw [View.set_slice_whole, Rect.mem_set_unit]
  exact Iff.rfl

/-- Every row is in some tile: row `p` in tile `p / 5000`. -/
theorem coverN3 (i : S200000x128.Idx) : ∃ t : Fin cfg3.N, (cfg3.win 3).flush t = true ∧ i ∈ ((cfg3.win 3).blk t).view.set := by
  have hi0 : (i 0).val < 200000 := (i 0).isLt
  have hi1 : (i 1).val < 128 := (i 1).isLt
  have hN : cfg3.N = 40 := N_3
  let t : Fin cfg3.N := ⟨(i 0).val / 5000, by omega⟩
  obtain ⟨e0, e1, e2, e3, e4, e5, e6, e7⟩ := idxN3 t
  have ht : t.val = (i 0).val / 5000 := rfl
  refine ⟨t, flush3_3 t, ?_⟩
  rw [mem_blkN3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The result array after the pass. -/
theorem finalN3 (c : Dev nD) : (dat3 V c).arrAt 3 cfg3.N = normG3 (V c main_v42_0) (V c main_v53) (V c main_v56) :=
  (dat3 V c).arrAt_eq_of_cover 3 (normG3 (V c main_v42_0) (V c main_v53) (V c main_v56)) (fun t _ => flushedN3_eq V c t) (coverN3)

end

end Cert.KernelIdeal.Hand

end
-- ==== Proof.KI.KernelValue.lean ====
/-
  The idealized kernel's result as one function of its twelve arguments. Layer by layer: the rows summed into their
  destinations, the clipped linear map `h` of them and of the rows themselves, the column sums of `h` and of `h·h` over all
  rows, the scale and shift rows from those, and `h` scaled and shifted column by column (clipped at zero after the second
  layer); the second layer takes the first layer's result in the place of the input rows.
-/
import proofs.«178594_j20590073217563_1_alg».proof.Proof.KI.HostRead
import proofs.«178594_j20590073217563_1_alg».proof.Proof.KI.Stats0FinalB
import proofs.«178594_j20590073217563_1_alg».proof.Proof.KI.Stats2FinalB
import proofs.«178594_j20590073217563_1_alg».proof.Proof.KI.Norm1Value
import proofs.«178594_j20590073217563_1_alg».proof.Proof.KI.Norm3Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Column sums over all rows, as a row. -/
def colSumOf (h : S200000x128.Idx → EReal) : S1x128.Idx → EReal := fun i => ∑ p : Fin 200000, h (ix2 p (i 1))
def colSqOf (h : S200000x128.Idx → EReal) : S1x128.Idx → EReal := fun i => ∑ p : Fin 200000, h (ix2 p (i 1)) * h (ix2 p (i 1))

/-- Layer 1 as the kernel computes it, from the summed rows and the layer's parameters. -/
def layer1K (agg x : S200000x64.Idx → EReal) (wl wr : S64x128.Idx → EReal) (b g be : S128.Idx → EReal) : S200000x128.Idx → EReal :=
  normG1 (linG0 agg x wl wr (shapeCast S1x128 b shapeCasts_S128_S1x128))
    (scaleRow (colSumOf (linG0 agg x wl wr (shapeCast S1x128 b shapeCasts_S128_S1x128))) (colSqOf (linG0 agg x wl wr (shapeCast S1x128 b shapeCasts_S128_S1x128))) g)
    (shiftRow (colSumOf (linG0 agg x wl wr (shapeCast S1x128 b shapeCasts_S128_S1x128))) (colSqOf (linG0 agg x wl wr (shapeCast S1x128 b shapeCasts_S128_S1x128))) g be)

/-- Layer 2 as the kernel computes it. -/
def layer2K (agg x : S200000x128.Idx → EReal) (wl wr : S128x128.Idx → EReal) (b g be : S128.Idx → EReal) : S200000x128.Idx → EReal :=
  normG3 (linG2 agg x wl wr (shapeCast S1x128 b shapeCasts_S128_S1x128))
    (scaleRow (colSumOf (linG2 agg x wl wr (shapeCast S1x128 b shapeCasts_S128_S1x128))) (colSqOf (linG2 agg x wl wr (shapeCast S1x128 b shapeCasts_S128_S1x128))) g)
    (shiftRow (colSumOf (linG2 agg x wl wr (shapeCast S1x128 b shapeCasts_S128_S1x128))) (colSqOf (linG2 agg x wl wr (shapeCast S1x128 b shapeCasts_S128_S1x128))) g be)

/-- The whole kernel. -/
def kernelOut (x : S200000x64.Idx → EReal) (e : S2x1200000.Idx → BitVec 32) (w1l : S64x128.Idx → EReal) (b1 : S128.Idx → EReal) (w1r : S64x128.Idx → EReal)
    (g1 be1 : S128.Idx → EReal) (w2l : S128x128.Idx → EReal) (b2 : S128.Idx → EReal) (w2r : S128x128.Idx → EReal) (g2 be2 : S128.Idx → EReal) :
    S200000x128.Idx → EReal :=
  layer2K (seg128 (layer1K (seg64 x (srcOf e) (dstOf e)) x w1l w1r b1 g1 be1) (srcOf e) (dstOf e))
    (layer1K (seg64 x (srcOf e) (dstOf e)) x w1l w1r b1 g1 be1) w2l w2r b2 g2 be2

section
variable (m : (ℓ : Loc nD τ sig) → Buf (Elt Ideal) ℓ) (ρ : Dev nD → PrngReg)

/-- After layer 1's fused pass. -/
theorem B2_h (c : Dev nD) : (B2 m ρ c main_v15_0 : S200000x128.Idx → EReal)
    = linG0 (seg64 (m ((c : Thread nD τ).loc main_arg0)) (srcOf (m ((c : Thread nD τ).loc main_arg1))) (dstOf (m ((c : Thread nD τ).loc main_arg1))))
        (m ((c : Thread nD τ).loc main_arg0)) (m ((c : Thread nD τ).loc main_arg2)) (m ((c : Thread nD τ).loc main_arg4))
        (shapeCast S1x128 (m ((c : Thread nD τ).loc main_arg3)) shapeCasts_S128_S1x128) := by
  refine (B2_arr m ρ c 5).trans ((finalS0_5 (E1 m ρ) c).trans ?_)
  show linG0 (B1 m ρ c main_v13) (B1 m ρ c main_arg0) (B1 m ρ c main_arg2) (B1 m ρ c main_arg4) (B1 m ρ c main_v14) = _
  rw [B1_agg, B1_bias, B1_of m ρ c main_arg0 (by decide), B1_of m ρ c main_arg2 (by decide), B1_of m ρ c main_arg4 (by decide)]

theorem B2_s (c : Dev nD) : (B2 m ρ c main_v15_1 : S1x128.Idx → EReal) = colSumOf (B2 m ρ c main_v15_0) := by
  refine (B2_arr m ρ c 6).trans ((finalS0_6 (E1 m ρ) c).trans ?_)
  rw [B2_arr m ρ c 5, finalS0_5 (E1 m ρ) c]
  rfl

theorem B2_sq (c : Dev nD) : (B2 m ρ c main_v15_2 : S1x128.Idx → EReal) = colSqOf (B2 m ρ c main_v15_0) := by
  refine (B2_arr m ρ c 7).trans ((finalS0_7 (E1 m ρ) c).trans ?_)
  rw [B2_arr m ρ c 5, finalS0_5 (E1 m ρ) c]
  rfl

/-! ## The arguments as the later boundaries find them -/

theorem B2_arg5 (c : Dev nD) : B2 m ρ c (Proc.devRef .tc main_arg5) = m ((c : Thread nD τ).loc main_arg5) :=
  (B2_of m ρ c main_arg5 (by decide)).trans <| (B1_of m ρ c main_arg5 (by decide)).trans <| rfl
theorem B2_arg6 (c : Dev nD) : B2 m ρ c (Proc.devRef .tc main_arg6) = m ((c : Thread nD τ).loc main_arg6) :=
  (B2_of m ρ c main_arg6 (by decide)).trans <| (B1_of m ρ c main_arg6 (by decide)).trans <| rfl
theorem B4_arg8 (c : Dev nD) : B4 m ρ c (Proc.devRef .tc main_arg8) = m ((c : Thread nD τ).loc main_arg8) :=
  (B4_of m ρ c main_arg8 (by decide)).trans <| (B3_of m ρ c main_arg8 (by decide)).trans <| (B2_of m ρ c main_arg8 (by decide)).trans <| (B1_of m ρ c main_arg8 (by decide)).trans <| rfl
theorem B5_arg7 (c : Dev nD) : B5 m ρ c (Proc.devRef .tc main_arg7) = m ((c : Thread nD τ).loc main_arg7) :=
  (B5_of m ρ c main_arg7 (by decide)).trans <| (B4_of m ρ c main_arg7 (by decide)).trans <| (B3_of m ρ c main_arg7 (by decide)).trans <| (B2_of m ρ c main_arg7 (by decide)).trans <| (B1_of m ρ c main_arg7 (by decide)).trans <| rfl
theorem B5_arg9 (c : Dev nD) : B5 m ρ c (Proc.devRef .tc main_arg9) = m ((c : Thread nD τ).loc main_arg9) :=
  (B5_of m ρ c main_arg9 (by decide)).trans <| (B4_of m ρ c main_arg9 (by decide)).trans <| (B3_of m ρ c main_arg9 (by decide)).trans <| (B2_of m ρ c main_arg9 (by decide)).trans <| (B1_of m ρ c main_arg9 (by decide)).trans <| rfl
theorem B6_arg10 (c : Dev nD) : B6 m ρ c (Proc.devRef .tc main_arg10) = m ((c : Thread nD τ).loc main_arg10) :=
  (B6_of m ρ c main_arg10 (by decide)).trans <| (B5_of m ρ c main_arg10 (by decide)).trans <| (B4_of m ρ c main_arg10 (by decide)).trans <| (B3_of m ρ c main_arg10 (by decide)).trans <| (B2_of m ρ c main_arg10 (by decide)).trans <| (B1_of m ρ c main_arg10 (by decide)).trans <| rfl
theorem B6_arg11 (c : Dev nD) : B6 m ρ c (Proc.devRef .tc main_arg11) = m ((c : Thread nD τ).loc main_arg11) :=
  (B6_of m ρ c main_arg11 (by decide)).trans <| (B5_of m ρ c main_arg11 (by decide)).trans <| (B4_of m ρ c main_arg11 (by decide)).trans <| (B3_of m ρ c main_arg11 (by decide)).trans <| (B2_of m ρ c main_arg11 (by decide)).trans <| (B1_of m ρ c main_arg11 (by decide)).trans <| rfl

/-- After layer 1's normalising pass: the first layer's result. -/
theorem B4_out (c : Dev nD) : (B4 m ρ c main_v30 : S200000x128.Idx → EReal) = (layer1K (seg64 (m ((c : Thread nD τ).loc main_arg0)) (srcOf (m ((c : Thread nD τ).loc main_arg1))) (dstOf (m ((c : Thread nD τ).loc main_arg1)))) (m ((c : Thread nD τ).loc main_arg0)) (m ((c : Thread nD τ).loc main_arg2)) (m ((c : Thread nD τ).loc main_arg4)) (m ((c : Thread nD τ).loc main_arg3)) (m ((c : Thread nD τ).loc main_arg5)) (m ((c : Thread nD τ).loc main_arg6))) := by
  refine (B4_arr m ρ c 3).trans ((finalN1 (E3 m ρ) c).trans ?_)
  show normG1 (B3 m ρ c main_v15_0) (B3 m ρ c main_v26) (B3 m ρ c main_v29) = _
  rw [B3_scale, B3_shift, B3_of m ρ c main_v15_0 (by decide), B2_s, B2_sq, B2_h, B2_arg5, B2_arg6]
  rfl

/-- The index vectors are as the first stretch left them. -/
theorem B4_src (c : Dev nD) : (B4 m ρ c main_v1 : S1200000.Idx → BitVec 32) = srcOf (m ((c : Thread nD τ).loc main_arg1)) := by
  rw [B4_of m ρ c main_v1 (by decide), B3_of m ρ c main_v1 (by decide), B2_of m ρ c main_v1 (by decide), B1_src]
theorem B4_dst (c : Dev nD) : (B4 m ρ c main_v3 : S1200000.Idx → BitVec 32) = dstOf (m ((c : Thread nD τ).loc main_arg1)) := by
  rw [B4_of m ρ c main_v3 (by decide), B3_of m ρ c main_v3 (by decide), B2_of m ρ c main_v3 (by decide), B1_dst]

/-- After layer 2's fused pass. -/
theorem B6_h (c : Dev nD) : (B6 m ρ c main_v42_0 : S200000x128.Idx → EReal)
    = linG2 (seg128 (layer1K (seg64 (m ((c : Thread nD τ).loc main_arg0)) (srcOf (m ((c : Thread nD τ).loc main_arg1))) (dstOf (m ((c : Thread nD τ).loc main_arg1)))) (m ((c : Thread nD τ).loc main_arg0)) (m ((c : Thread nD τ).loc main_arg2)) (m ((c : Thread nD τ).loc main_arg4)) (m ((c : Thread nD τ).loc main_arg3)) (m ((c : Thread nD τ).loc main_arg5)) (m ((c : Thread nD τ).loc main_arg6))) (srcOf (m ((c : Thread nD τ).loc main_arg1))) (dstOf (m ((c : Thread nD τ).loc main_arg1)))) (layer1K (seg64 (m ((c : Thread nD τ).loc main_arg0)) (srcOf (m ((c : Thread nD τ).loc main_arg1))) (dstOf (m ((c : Thread nD τ).loc main_arg1)))) (m ((c : Thread nD τ).loc main_arg0)) (m ((c : Thread nD τ).loc main_arg2)) (m ((c : Thread nD τ).loc main_arg4)) (m ((c : Thread nD τ).loc main_arg3)) (m ((c : Thread nD τ).loc main_arg5)) (m ((c : Thread nD τ).loc main_arg6))) (m ((c : Thread nD τ).loc main_arg7)) (m ((c : Thread nD τ).loc main_arg9)) (shapeCast S1x128 (m ((c : Thread nD τ).loc main_arg8)) shapeCasts_S128_S1x128) := by
  refine (B6_arr m ρ c 5).trans ((finalS2_5 (E5 m ρ) c).trans ?_)
  show linG2 (B5 m ρ c main_v40) (B5 m ρ c main_v30) (B5 m ρ c main_arg7) (B5 m ρ c main_arg9) (B5 m ρ c main_v41) = _
  rw [B5_agg, B5_bias, B5_of m ρ c main_v30 (by decide), B4_out, B4_src, B4_dst, B5_arg7, B5_arg9, B4_arg8]

theorem B6_s (c : Dev nD) : (B6 m ρ c main_v42_1 : S1x128.Idx → EReal) = colSumOf (B6 m ρ c main_v42_0) := by
  refine (B6_arr m ρ c 6).trans ((finalS2_6 (E5 m ρ) c).trans ?_)
  rw [B6_arr m ρ c 5, finalS2_5 (E5 m ρ) c]
  rfl

theorem B6_sq (c : Dev nD) : (B6 m ρ c main_v42_2 : S1x128.Idx → EReal) = colSqOf (B6 m ρ c main_v42_0) := by
  refine (B6_arr m ρ c 7).trans ((finalS2_7 (E5 m ρ) c).trans ?_)
  rw [B6_arr m ρ c 5, finalS2_5 (E5 m ρ) c]
  rfl

/-- The result: after the last pass the result buffer holds the kernel's function of the twelve arguments. -/
theorem B8_out (c : Dev nD) : (B8 m ρ c main_v57 : S200000x128.Idx → EReal)
    = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (B8_arr m ρ c 3).trans ((finalN3 (E7 m ρ) c).trans ?_)
  show normG3 (B7 m ρ c main_v42_0) (B7 m ρ c main_v53) (B7 m ρ c main_v56) = _
  rw [B7_scale, B7_shift, B7_of m ρ c main_v42_0 (by decide), B6_s, B6_sq, B6_h, B6_arg10, B6_arg11]
  rfl

end

end Cert.KernelIdeal.Hand

end
-- ==== Proof.RefValue.lean ====
/-
  The reference's result as one function of its twelve arguments, in the reference's own spelling. A layer is: the rows summed into
  their destinations; the clipped linear map `h` (rows summed · Wl, plus the bias, plus rows · Wr, clipped at zero); then batch
  normalisation as "centre, scale, shift": with `μ` the column mean `(0 + ∑ₚ h (p, q)) / n` and `v` the column mean of the squared
  deviations, `(h − μ) · rsqrt (v + ε) · γ + β`. The second layer takes the first layer's result in the place of the input rows, and the
  result is clipped at zero. Each piece is read here at an index on the extended reals.
-/
import proofs.«178594_j20590073217563_1_alg».proof.Proof.RefReadP
import proofs.«178594_j20590073217563_1_alg».proof.Proof.LibMatDot
import Idealize.ShloMosaic.Lib.Pipeline.Value
import Idealize.ShloMosaic.Lib.ValueIdx
import Idealize.ShloMosaic.PureOps.Ideal.Laws

set_option maxRecDepth 16384

noncomputable section

namespace Cert.ReferenceIdeal.Hand

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx

/-- The row count and the small constant, as the printed words denote them. -/
abbrev nRows : EReal := Ideal.ofBits .f32 0x48435000#32
abbrev epsV : EReal := Ideal.ofBits .f32 0x3727C5AC#32

/-- A vector as every row of a `[200000, 128]` array. -/
def overRows (v : FVec Ideal S128 .f32) : FVec Ideal S200000x128 .f32 :=
  broadcastInDim S200000x128 ![0, 1] bcast_S1x128_S200000x128_0_1 (broadcastInDim S1x128 ![1] bcast_S128_S1x128_1 v)

theorem overRows_apply (v : FVec Ideal S128 .f32) (p : Fin 200000) (q : Fin 128) : overRows v (ix2 p q) = v (ix1 q) := by
  unfold overRows
  rw [broadcastInDim_apply _ bcast_S1x128_S200000x128_0_1 _ (ix2 p q) (ix2 0 q) (fun a => match a with
      | ⟨0, _⟩ => by show 0 = if (1 : Nat) = 1 then 0 else p.val; rw [if_pos rfl]
      | ⟨1, _⟩ => by show q.val = if (128 : Nat) = 1 then 0 else q.val; rw [if_neg (by decide)]),
    broadcastInDim_apply _ bcast_S128_S1x128_1 _ (ix2 0 q) (ix1 q) (fun a => match a with
      | ⟨0, _⟩ => by show q.val = if (128 : Nat) = 1 then 0 else q.val; rw [if_neg (by decide)])]

/-- A scalar word as a vector of 128 equal entries. -/
def splat128 (w : BitVec 32) : FVec Ideal S128 .f32 := broadcastInDim S128 ![] bcast_S_S128 (constant (F := Ideal) S_ .f32 w)
theorem splat128_apply (w : BitVec 32) (i : S128.Idx) : splat128 w i = Ideal.ofBits .f32 w := rfl

/-- The host's column sums over all rows, from zero. -/
def colSum (H : FVec Ideal S200000x128 .f32) : FVec Ideal S128 .f32 :=
  Host.reduceAdd H (constant (F := Ideal) S_ .f32 0x00000000#32) reducesTo_S200000x128_S128_d0 h_S_

theorem colSum_apply (H : FVec Ideal S200000x128 .f32) (q : Fin 128) : colSum H (ix1 q) = 0 + ∑ k : Fin 200000, H (ix2 k q) := by
  unfold colSum
  simp only [Host.reduceAdd, Ideal.hostReduceAdd_def]
  rw [Ideal.hostReduceAdd_single reducesTo_S200000x128_S128_d0 (by decide)]
  refine congrArg₂ (· + ·) Ideal.ofBits_zero_f32 (Finset.sum_congr rfl fun k _ => ?_)
  exact congrArg H (funext fun a => Fin.ext (by match a with | ⟨0, _⟩ => rfl | ⟨1, _⟩ => rfl))

/-- Batch normalisation as the reference spells it. -/
def refBN (H : FVec Ideal S200000x128 .f32) (g be : FVec Ideal S128 .f32) : FVec Ideal S200000x128 .f32 :=
  addf (mulf (mulf (subf H (overRows (Host.divf (colSum H) (splat128 0x48435000#32))))
      (overRows (Host.rsqrt (addf (Host.divf (colSum (mulf (subf H (overRows (Host.divf (colSum H) (splat128 0x48435000#32))))
          (subf H (overRows (Host.divf (colSum H) (splat128 0x48435000#32)))))) (splat128 0x48435000#32)) (splat128 0x3727C5AC#32)))))
    (overRows g)) (overRows be)

theorem refBN_apply (H : FVec Ideal S200000x128 .f32) (g be : FVec Ideal S128 .f32) (p : Fin 200000) (q : Fin 128) :
    refBN H g be (ix2 p q)
      = (H (ix2 p q) - Ideal.div (0 + ∑ k : Fin 200000, H (ix2 k q)) nRows)
          * Ideal.rsqrt (Ideal.div (0 + ∑ k : Fin 200000, (H (ix2 k q) - Ideal.div (0 + ∑ k : Fin 200000, H (ix2 k q)) nRows)
              * (H (ix2 k q) - Ideal.div (0 + ∑ k : Fin 200000, H (ix2 k q)) nRows)) nRows + epsV)
          * g (ix1 q) + be (ix1 q) := by
  unfold refBN
  rw [addf_apply, mulf_apply, mulf_apply, subf_apply, overRows_apply, overRows_apply, overRows_apply, overRows_apply]
  have hμ : Host.divf (colSum H) (splat128 0x48435000#32) (ix1 q) = Ideal.div (0 + ∑ k : Fin 200000, H (ix2 k q)) nRows := by
    show Ideal.div (colSum H (ix1 q)) (splat128 0x48435000#32 (ix1 q)) = _
    rw [colSum_apply, splat128_apply]
  have hv : Host.rsqrt (addf (Host.divf (colSum (mulf (subf H (overRows (Host.divf (colSum H) (splat128 0x48435000#32))))
          (subf H (overRows (Host.divf (colSum H) (splat128 0x48435000#32)))))) (splat128 0x48435000#32)) (splat128 0x3727C5AC#32)) (ix1 q)
      = Ideal.rsqrt (Ideal.div (0 + ∑ k : Fin 200000, (H (ix2 k q) - Ideal.div (0 + ∑ k : Fin 200000, H (ix2 k q)) nRows)
              * (H (ix2 k q) - Ideal.div (0 + ∑ k : Fin 200000, H (ix2 k q)) nRows)) nRows + epsV) := by
    show Ideal.rsqrt (Ideal.div (colSum _ (ix1 q)) (splat128 0x48435000#32 (ix1 q)) + splat128 0x3727C5AC#32 (ix1 q)) = _
    rw [colSum_apply, splat128_apply, splat128_apply]
    simp only [mulf_apply, subf_apply, overRows_apply, hμ]
  rw [hμ, hv]

/-- The clipped linear map as the reference spells it: (rows summed · Wl + bias) + rows · Wr, clipped at zero. -/
def refLin64 (agg x : FVec Ideal S200000x64 .f32) (wl : FVec Ideal S64x128 .f32) (b : FVec Ideal S128 .f32)
    (wr : FVec Ideal S64x128 .f32) : FVec Ideal S200000x128 .f32 :=
  maximumf (addf (addf (Host.dotGeneral dot_S200000x64_S64x128_S200000x128_1_0_0_1_n_n none agg wl) (overRows b))
      (Host.dotGeneral dot_S200000x64_S64x128_S200000x128_1_0_0_1_n_n none x wr))
    (broadcastInDim S200000x128 ![] bcast_S_S200000x128 (constant (F := Ideal) S_ .f32 0x00000000#32))

theorem refLin64_apply (agg x : FVec Ideal S200000x64 .f32) (wl : FVec Ideal S64x128 .f32) (b : FVec Ideal S128 .f32)
    (wr : FVec Ideal S64x128 .f32) (p : Fin 200000) (q : Fin 128) :
    refLin64 agg x wl b wr (ix2 p q)
      = max (((∑ k : Fin 64, agg (ix2 p k) * wl (ix2 k q)) + b (ix1 q)) + ∑ k : Fin 64, x (ix2 p k) * wr (ix2 k q)) 0 := by
  unfold refLin64
  have e1 : Host.dotGeneral dot_S200000x64_S64x128_S200000x128_1_0_0_1_n_n none agg wl (ix2 p q) = ∑ k : Fin 64, agg (ix2 p k) * wl (ix2 k q) :=
    Cert.Lib.dotGeneral_plain_apply (φ₁ := .f32) (φ₂ := .f32) (a := 200000) (K := 64) (b := 128) dot_S200000x64_S64x128_S200000x128_1_0_0_1_n_n.wf none _ agg wl p q
  have e2 : Host.dotGeneral dot_S200000x64_S64x128_S200000x128_1_0_0_1_n_n none x wr (ix2 p q) = ∑ k : Fin 64, x (ix2 p k) * wr (ix2 k q) :=
    Cert.Lib.dotGeneral_plain_apply (φ₁ := .f32) (φ₂ := .f32) (a := 200000) (K := 64) (b := 128) dot_S200000x64_S64x128_S200000x128_1_0_0_1_n_n.wf none _ x wr p q
  exact congrArg₂ max (congrArg₂ (· + ·) (congrArg₂ (· + ·) e1 (overRows_apply b p q)) e2) Ideal.ofBits_zero_f32

/-- The clipped linear map as the reference spells it: (rows summed · Wl + bias) + rows · Wr, clipped at zero. -/
def refLin128 (agg x : FVec Ideal S200000x128 .f32) (wl : FVec Ideal S128x128 .f32) (b : FVec Ideal S128 .f32)
    (wr : FVec Ideal S128x128 .f32) : FVec Ideal S200000x128 .f32 :=
  maximumf (addf (addf (Host.dotGeneral dot_S200000x128_S128x128_S200000x128_1_0_0_1_n_n none agg wl) (overRows b))
      (Host.dotGeneral dot_S200000x128_S128x128_S200000x128_1_0_0_1_n_n none x wr))
    (broadcastInDim S200000x128 ![] bcast_S_S200000x128 (constant (F := Ideal) S_ .f32 0x00000000#32))

theorem refLin128_apply (agg x : FVec Ideal S200000x128 .f32) (wl : FVec Ideal S128x128 .f32) (b : FVec Ideal S128 .f32)
    (wr : FVec Ideal S128x128 .f32) (p : Fin 200000) (q : Fin 128) :
    refLin128 agg x wl b wr (ix2 p q)
      = max (((∑ k : Fin 128, agg (ix2 p k) * wl (ix2 k q)) + b (ix1 q)) + ∑ k : Fin 128, x (ix2 p k) * wr (ix2 k q)) 0 := by
  unfold refLin128
  have e1 : Host.dotGeneral dot_S200000x128_S128x128_S200000x128_1_0_0_1_n_n none agg wl (ix2 p q) = ∑ k : Fin 128, agg (ix2 p k) * wl (ix2 k q) :=
    Cert.Lib.dotGeneral_plain_apply (φ₁ := .f32) (φ₂ := .f32) (a := 200000) (K := 128) (b := 128) dot_S200000x128_S128x128_S200000x128_1_0_0_1_n_n.wf none _ agg wl p q
  have e2 : Host.dotGeneral dot_S200000x128_S128x128_S200000x128_1_0_0_1_n_n none x wr (ix2 p q) = ∑ k : Fin 128, x (ix2 p k) * wr (ix2 k q) :=
    Cert.Lib.dotGeneral_plain_apply (φ₁ := .f32) (φ₂ := .f32) (a := 200000) (K := 128) (b := 128) dot_S200000x128_S128x128_S200000x128_1_0_0_1_n_n.wf none _ x wr p q
  exact congrArg₂ max (congrArg₂ (· + ·) (congrArg₂ (· + ·) e1 (overRows_apply b p q)) e2) Ideal.ofBits_zero_f32

/-- Rows summed into their destinations, as the reference spells it. -/
def segR64 (x : FVec Ideal S200000x64 .f32) (src dst : IVec S1200000 32) :
    FVec Ideal S200000x64 .f32 :=
  Host.scatterAdd scatter_S200000x64_S1200000x1_S1200000x64_1_0_0_1
    (broadcastInDim S200000x64 ![] bcast_S_S200000x64 (constant (F := Ideal) S_ .f32 0x00000000#32))
    (broadcastInDim S1200000x1 ![0] bcast_S1200000_S1200000x1_0 dst)
    (Host.gather gather_S200000x64_S1200000x1_S1200000x64_1_0_n_n_0_1_164 x
      (broadcastInDim S1200000x1 ![0] bcast_S1200000_S1200000x1_0
        (select (cmpi .slt src (broadcastInDim S1200000 ![] bcast_S_S1200000 (constantI S_ 32 0#32)))
          (addi src (broadcastInDim S1200000 ![] bcast_S_S1200000 (constantI S_ 32 200000#32))) src)))

def segR128 (x : FVec Ideal S200000x128 .f32) (src dst : IVec S1200000 32) :
    FVec Ideal S200000x128 .f32 :=
  Host.scatterAdd scatter_S200000x128_S1200000x1_S1200000x128_1_0_0_1
    (broadcastInDim S200000x128 ![] bcast_S_S200000x128 (constant (F := Ideal) S_ .f32 0x00000000#32))
    (broadcastInDim S1200000x1 ![0] bcast_S1200000_S1200000x1_0 dst)
    (Host.gather gather_S200000x128_S1200000x1_S1200000x128_1_0_n_n_0_1_1128 x
      (broadcastInDim S1200000x1 ![0] bcast_S1200000_S1200000x1_0
        (select (cmpi .slt src (broadcastInDim S1200000 ![] bcast_S_S1200000 (constantI S_ 32 0#32)))
          (addi src (broadcastInDim S1200000 ![] bcast_S_S1200000 (constantI S_ 32 200000#32))) src)))

/-- The whole reference. -/
def refOut (x0 : FVec Ideal S200000x64 .f32) (x1 : IVec S2x1200000 32)
    (x2 : FVec Ideal S64x128 .f32) (x3 : FVec Ideal S128 .f32) (x4 : FVec Ideal S64x128 .f32) (x5 x6 : FVec Ideal S128 .f32)
    (x7 : FVec Ideal S128x128 .f32) (x8 : FVec Ideal S128 .f32) (x9 : FVec Ideal S128x128 .f32) (x10 x11 : FVec Ideal S128 .f32) : FVec Ideal S200000x128 .f32 :=
  maximumf (refBN (refLin128 (segR128 (refBN (refLin64 (segR64 x0 (val_main_v1 (F := Ideal) x1) (val_main_v3 (F := Ideal) x1)) x0 x2 x3 x4) x5 x6)
        (val_main_v1 (F := Ideal) x1) (val_main_v3 (F := Ideal) x1))
      (refBN (refLin64 (segR64 x0 (val_main_v1 (F := Ideal) x1) (val_main_v3 (F := Ideal) x1)) x0 x2 x3 x4) x5 x6) x7 x8 x9) x10 x11)
    (broadcastInDim S200000x128 ![] bcast_S_S200000x128 (constant (F := Ideal) S_ .f32 0x00000000#32))

set_option maxHeartbeats 4000000 in
theorem val_out_eq (x0 : FVec Ideal S200000x64 .f32) (x1 : IVec S2x1200000 32)
    (x2 : FVec Ideal S64x128 .f32) (x3 : FVec Ideal S128 .f32) (x4 : FVec Ideal S64x128 .f32) (x5 x6 : FVec Ideal S128 .f32)
    (x7 : FVec Ideal S128x128 .f32) (x8 : FVec Ideal S128 .f32) (x9 : FVec Ideal S128x128 .f32) (x10 x11 : FVec Ideal S128 .f32) :
    val_main_v88 (F := Ideal) x0 x1 x2 x3 x4 x5 x6 x7 x8 x9 x10 x11 = refOut x0 x1 x2 x3 x4 x5 x6 x7 x8 x9 x10 x11 := rfl

end Cert.ReferenceIdeal.Hand

end
-- ==== Proof.LibBatchNormForms.lean ====
/-
  Two spellings of batch normalisation over a finite set of rows, and that they agree.

  For a column `h : ι → ℝ` over `n = |ι|` rows, with mean `μ = (∑ h) / n`:
  * the mean of squares minus the square of the mean is the mean of the squared deviations,
    `(∑ h²) / n − μ² = (∑ (h − μ)²) / n`  (`Cert.Lib.meanSq_sub_sq_mean`);
  * hence "scale and shift" `h · (γ · r) + (β − μ · (γ · r))` with `r = (√(E[h²] − μ² + ε))⁻¹` is
    "centre, scale, shift" `(h − μ) · (√(E[(h − μ)²] + ε))⁻¹ · γ + β`  (`Cert.Lib.bn_real`).
  On the extended reals, with the printed operations (`Ideal.div` by the row count, `Ideal.rsqrt`), the same holds for a
  column whose entries are all real, real `γ`, `β`, and a positive real `ε`; and the common value is real
  (`Cert.Lib.bn_ereal`). Distributivity is what is used, so the entries must be real: at an infinite entry both sides are
  junk of different kinds.
-/
import Idealize.ShloMosaic.PureOps.Ideal
import Mathlib.Algebra.BigOperators.Ring.Finset
import Mathlib.Tactic.Ring
import Mathlib.Tactic.FieldSimp
import Mathlib.Tactic.Positivity

noncomputable section

namespace Cert.Lib

open Idealize.ShloMosaic
open scoped BigOperators

variable {ι : Type*} [Fintype ι]

/-- The mean of squares minus the squared mean is the mean squared deviation. -/
theorem meanSq_sub_sq_mean (h : ι → ℝ) (n : ℝ) (hn : n ≠ 0) (hcard : (Fintype.card ι : ℝ) = n) :
    (∑ p, h p * h p) / n - (∑ p, h p) / n * ((∑ p, h p) / n)
      = (∑ p, (h p - (∑ p, h p) / n) * (h p - (∑ p, h p) / n)) / n := by
  set μ : ℝ := (∑ p, h p) / n with hμ
  have hS : ∑ p, h p = n * μ := by rw [hμ]; field_simp
  have hdev : ∑ p, (h p - μ) * (h p - μ) = (∑ p, h p * h p) - 2 * μ * (∑ p, h p) + n * (μ * μ) := by
    have : ∀ p, (h p - μ) * (h p - μ) = h p * h p - 2 * μ * h p + μ * μ := fun p => by ring
    simp only [this, Finset.sum_add_distrib, Finset.sum_sub_distrib, ← Finset.mul_sum, Finset.sum_const, Finset.card_univ,
      nsmul_eq_mul, hcard]
    ring
  rw [hdev, hS]
  field_simp
  ring

/-- The mean squared deviation is not negative. -/
theorem meanDev_nonneg (h : ι → ℝ) (n : ℝ) (hn : 0 < n) :
    0 ≤ (∑ p, (h p - (∑ p, h p) / n) * (h p - (∑ p, h p) / n)) / n :=
  div_nonneg (Finset.sum_nonneg fun p _ => mul_self_nonneg _) hn.le

/-- Scale-and-shift is centre-scale-shift, over the reals. -/
theorem bn_real (h : ι → ℝ) (n : ℝ) (hn : n ≠ 0) (hcard : (Fintype.card ι : ℝ) = n) (γ β ε : ℝ) (p : ι) :
    h p * (γ * (Real.sqrt ((∑ p, h p * h p) / n - (∑ p, h p) / n * ((∑ p, h p) / n) + ε))⁻¹)
        + (β - (∑ p, h p) / n * (γ * (Real.sqrt ((∑ p, h p * h p) / n - (∑ p, h p) / n * ((∑ p, h p) / n) + ε))⁻¹))
      = (h p - (∑ p, h p) / n) * (Real.sqrt ((∑ p, (h p - (∑ p, h p) / n) * (h p - (∑ p, h p) / n)) / n + ε))⁻¹ * γ + β := by
  rw [meanSq_sub_sq_mean h n hn hcard]
  ring

/-- A finite sum of coerced reals is the coerced sum. -/
theorem coe_sum_univ (f : ι → ℝ) : ((∑ p, f p : ℝ) : EReal) = ∑ p, (f p : EReal) := by
  classical
  refine Finset.induction_on (Finset.univ : Finset ι) (by simp) ?_
  intro a s ha ih
  rw [Finset.sum_insert ha, Finset.sum_insert ha, EReal.coe_add, ih]

/-- The reciprocal square root of a positive real is the real one. -/
theorem rsqrt_coe_pos (v : ℝ) (hv : 0 < v) : Ideal.rsqrt (v : EReal) = (((Real.sqrt v)⁻¹ : ℝ) : EReal) := by
  rw [Ideal.rsqrt_coe, if_neg (not_lt.mpr hv.le), if_neg hv.ne']

/-- Division by a nonzero real of a real is the real quotient. -/
theorem div_coe_coe (a n : ℝ) (hn : n ≠ 0) : Ideal.div (a : EReal) (n : EReal) = ((a / n : ℝ) : EReal) := by
  rw [Ideal.div_coe hn, ← EReal.coe_mul]; congr 1; ring

/-- The two spellings on the extended reals, for a real column: both are the coerced real value. -/
theorem bn_ereal (h : ι → EReal) (hr : ι → ℝ) (hh : ∀ p, h p = (hr p : EReal)) (n : ℝ) (hn : 0 < n)
    (hcard : (Fintype.card ι : ℝ) = n) (γ β ε : ℝ) (hε : 0 < ε) (p : ι) :
    h p * ((γ : EReal) * Ideal.rsqrt (Ideal.div (∑ p, h p * h p) (n : EReal)
            - Ideal.div (∑ p, h p) (n : EReal) * Ideal.div (∑ p, h p) (n : EReal) + (ε : EReal)))
        + ((β : EReal) - Ideal.div (∑ p, h p) (n : EReal) * ((γ : EReal) * Ideal.rsqrt (Ideal.div (∑ p, h p * h p) (n : EReal)
            - Ideal.div (∑ p, h p) (n : EReal) * Ideal.div (∑ p, h p) (n : EReal) + (ε : EReal))))
      = (((hr p - (∑ p, hr p) / n) * (Real.sqrt ((∑ p, (hr p - (∑ p, hr p) / n) * (hr p - (∑ p, hr p) / n)) / n + ε))⁻¹ * γ + β : ℝ) : EReal)
    ∧ (h p - Ideal.div (0 + ∑ p, h p) (n : EReal))
          * Ideal.rsqrt (Ideal.div (0 + ∑ p, (h p - Ideal.div (0 + ∑ p, h p) (n : EReal)) * (h p - Ideal.div (0 + ∑ p, h p) (n : EReal))) (n : EReal) + (ε : EReal))
          * (γ : EReal) + (β : EReal)
      = (((hr p - (∑ p, hr p) / n) * (Real.sqrt ((∑ p, (hr p - (∑ p, hr p) / n) * (hr p - (∑ p, hr p) / n)) / n + ε))⁻¹ * γ + β : ℝ) : EReal) := by
  have hn' : n ≠ 0 := hn.ne'
  have hfun : h = fun p => (hr p : EReal) := funext hh
  subst hfun
  have hS : (∑ p, (hr p : EReal)) = ((∑ p, hr p : ℝ) : EReal) := (coe_sum_univ hr).symm
  have hQ : (∑ p, (hr p : EReal) * (hr p : EReal)) = ((∑ p, hr p * hr p : ℝ) : EReal) := by
    rw [coe_sum_univ]; exact Finset.sum_congr rfl fun p _ => (EReal.coe_mul _ _).symm
  constructor
  · rw [hS, hQ, div_coe_coe _ _ hn', div_coe_coe _ _ hn', ← EReal.coe_mul, ← EReal.coe_sub, ← EReal.coe_add,
      rsqrt_coe_pos _ (by
        rw [meanSq_sub_sq_mean hr n hn' hcard]
        exact add_pos_of_nonneg_of_pos (meanDev_nonneg hr n hn) hε),
      ← EReal.coe_mul, ← EReal.coe_mul, ← EReal.coe_mul, ← EReal.coe_sub, ← EReal.coe_add, bn_real hr n hn' hcard]
  · rw [zero_add, hS, div_coe_coe _ _ hn']
    have hD : (∑ p, ((hr p : EReal) - (((∑ p, hr p) / n : ℝ) : EReal)) * ((hr p : EReal) - (((∑ p, hr p) / n : ℝ) : EReal)))
        = ((∑ p, (hr p - (∑ p, hr p) / n) * (hr p - (∑ p, hr p) / n) : ℝ) : EReal) := by
      rw [coe_sum_univ]; exact Finset.sum_congr rfl fun p _ => by rw [← EReal.coe_sub, ← EReal.coe_mul]
    rw [zero_add, hD, div_coe_coe _ _ hn', ← EReal.coe_add,
      rsqrt_coe_pos _ (add_pos_of_nonneg_of_pos (meanDev_nonneg hr n hn) hε),
      ← EReal.coe_sub, ← EReal.coe_mul, ← EReal.coe_mul, ← EReal.coe_add]

end Cert.Lib

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.LibAggLinear.lean ====
/-
  A weighted neighbourhood sum commutes with a matrix product, on the extended reals, for REAL data.

  Over a set `A` of edges, each edge `e` taking the row `row e` of a matrix `X` with weight `n e`:
      ∑ k, (∑ e ∈ A, X (row e) k · n e) · W k  =  ∑ e ∈ A, (∑ k, X (row e) k · W k) · n e .
  Aggregating rows and then multiplying by a column of weights `W` is multiplying first and aggregating afterwards: both
  are the double sum of `X (row e) k · n e · W k`. The law needs every entry to be a real number: with infinite entries
  a product does not distribute over a sum on the extended reals.
-/
import Mathlib.Data.EReal.Basic
import Mathlib.Algebra.BigOperators.Ring.Finset
import Mathlib.Algebra.BigOperators.Group.Finset.Sigma
import Mathlib.Tactic.Ring

noncomputable section

namespace Cert.Lib

open scoped BigOperators

/-- The coercion of the reals into the extended reals carries a finite sum to the sum of the coercions. -/
theorem ereal_coe_sum {α : Type*} (s : Finset α) (f : α → ℝ) : ((∑ a ∈ s, f a : ℝ) : EReal) = ∑ a ∈ s, (f a : EReal) := by
  induction s using Finset.cons_induction with
  | empty => simp
  | cons a s ha ih => rw [Finset.sum_cons, Finset.sum_cons, EReal.coe_add, ih]

/-- A finite sum of real entries is a real. -/
theorem real_sum {α : Type*} (s : Finset α) (f : α → EReal) (hf : ∀ a, ∃ r : ℝ, f a = (r : EReal)) :
    ∃ r : ℝ, ∑ a ∈ s, f a = (r : EReal) := by
  choose g hg using hf
  exact ⟨∑ a ∈ s, g a, by rw [ereal_coe_sum]; exact Finset.sum_congr rfl fun a _ => hg a⟩

/-- Aggregate-then-multiply is multiply-then-aggregate, for real entries. -/
theorem sum_agg_mul {ν ε κ : Type*} [Fintype κ] (A : Finset ε) (row : ε → ν) (X : ν → κ → EReal) (W : κ → EReal)
    (n : ε → EReal) (hX : ∀ v k, ∃ r : ℝ, X v k = (r : EReal)) (hW : ∀ k, ∃ r : ℝ, W k = (r : EReal))
    (hn : ∀ e, ∃ r : ℝ, n e = (r : EReal)) :
    ∑ k, (∑ e ∈ A, X (row e) k * n e) * W k = ∑ e ∈ A, (∑ k, X (row e) k * W k) * n e := by
  choose x hx using hX
  choose w hw using hW
  choose nn hnn using hn
  have hl : ∀ k, (∑ e ∈ A, X (row e) k * n e) * W k = ((∑ e ∈ A, x (row e) k * nn e) * w k : ℝ) := fun k => by
    rw [EReal.coe_mul, ereal_coe_sum, hw]
    refine congrArg (· * (w k : EReal)) (Finset.sum_congr rfl fun e _ => ?_)
    rw [hx, hnn, EReal.coe_mul]
  have hr : ∀ e, (∑ k, X (row e) k * W k) * n e = ((∑ k, x (row e) k * w k) * nn e : ℝ) := fun e => by
    rw [EReal.coe_mul, ereal_coe_sum, hnn]
    refine congrArg (· * (nn e : EReal)) (Finset.sum_congr rfl fun k _ => ?_)
    rw [hx, hw, EReal.coe_mul]
  rw [Finset.sum_congr rfl fun k _ => hl k, Finset.sum_congr rfl fun e _ => hr e, ← ereal_coe_sum, ← ereal_coe_sum]
  refine congrArg _ ?_
  simp only [Finset.sum_mul]
  rw [Finset.sum_comm]
  refine Finset.sum_congr rfl fun e _ => Finset.sum_congr rfl fun k _ => ?_
  ring

end Cert.Lib

end
-- ==== Proof.LibEdgeRows.lean ====
/-
  Rows taken and rows accumulated along axis 0, read at an index.

  A graph layer reads the rows of a matrix `h : [N, D]` named by a column of `R` row numbers `[R, 1]`
  (`h[src]`, result `[R, D]`), and adds `R` update rows `[R, D]` into the rows of an accumulator `[N, D]` named
  by another such column (a segment sum). Both are read here entry by entry.

  The lookup's entry `(e, k)` is the operand at row `idx(e, 0)` and column `k`, the row number read as a signed
  integer and clamped into `[0, N − 1]`. The accumulation's entry `(p, k)` is the operand's entry plus the sum, over the
  update rows `e` whose row number `idx(e, 0)`, read as a signed integer and NOT clamped, is exactly `p`, of the
  update's entry `(e, k)`; an update row whose number falls outside `[0, N)` lands nowhere and is dropped.
-/
import Idealize.ShloMosaic.Lib.ValueIdx
import Idealize.ShloMosaic.PureOps.Ideal.Laws

noncomputable section

open scoped BigOperators

namespace Cert.Lib

open Idealize.ShloMosaic Idealize.ShloMosaic.ValueIdx

/-! ## Rows taken: `h[idx]` -/

variable {α : Type}

/-- The dimension numbers of the row lookup `h[idx]` for `h : [N, D]`, `idx : [R, 1]`, result `[R, D]`: the row axis
    is collapsed and named by the row number, the column axis is the result's offset axis, a slice is one whole row. -/
abbrev rowsTake (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The row lookup at `(e, k)`: the operand at row `idx(e, 0)`, read signed and clamped into `[0, N − 1]`, and
    column `k`. -/
theorem gather_rowsTake_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (k : Fin D) :
    Host.gather (rowsTake N D R wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    show (rowsTake N D R wf).start (ix2 e k) idx 0 + (rowsTake N D R wf).batchCoord (ix2 e k) 0
      + (rowsTake N D R wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsTake N D R wf).startIndexMap from List.mem_singleton.mpr rfl)]
    have hsi : (rowsTake N D R wf).siIdx (ix2 e k) ⟨List.idxOf (0 : Fin 2) (rowsTake N D R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsTake N D R wf).start (ix2 e k) idx 1 + (rowsTake N D R wf).batchCoord (ix2 e k) 1
      + (rowsTake N D R wf).offCoord (ix2 e k) 1 = k.val
    have hst : (rowsTake N D R wf).start (ix2 e k) idx 1 = 0 := by
      unfold GatherDims.start
      rw [dif_neg (show (1 : Fin 2) ∉ (rowsTake N D R wf).startIndexMap from
        (by decide : (1 : Fin 2) ∉ ([0] : List (Fin 2))))]
    have hoff : (rowsTake N D R wf).offCoord (ix2 e k) 1 = k.val := by
      unfold GatherDims.offCoord
      rw [dif_pos (show (1 : Fin 2) ∈ (rowsTake N D R wf).sKept from
        (by decide : (1 : Fin 2) ∈ (List.finRange 2).filter (· ∉ ([0] ++ [] : List (Fin 2)))))]
      rfl
    rw [GatherDims.batchCoord_eq_zero _ _ _ List.not_mem_nil, hst, hoff]
    omega

/-! ## Rows accumulated: `acc[idx] += upd` -/

/-- The dimension numbers of the row accumulation `acc[idx] += upd` for `acc : [N, D]`, `idx : [R, 1]`,
    `upd : [R, D]`: axis 1 of the updates is the window, axis 0 of the operand is the one the row number names. -/
abbrev rowsScatter (N D R : Nat) (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- On the row axis the window of update index `j` starts at the row number `idx(j₀, 0)`, read signed. -/
theorem start_rowsScatter_zero {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 0 = (idx (ix2 (j 0) (0 : Fin 1))).toInt := by
  unfold ScatterDims.start
  rw [dif_pos (show (0 : Fin 2) ∈ (rowsScatter N D R wf).scatterDimsToOperandDims from List.mem_singleton.mpr rfl)]
  have hsi : (rowsScatter N D R wf).siIdx j ⟨List.idxOf (0 : Fin 2) (rowsScatter N D R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which no row number names, the window starts at `0`. -/
theorem start_rowsScatter_one {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) :
    (rowsScatter N D R wf).start j idx 1 = 0 := by
  unfold ScatterDims.start
  rw [dif_neg (show (1 : Fin 2) ∉ (rowsScatter N D R wf).scatterDimsToOperandDims from
    (by decide : (1 : Fin 2) ∉ ([0] : List (Fin 2))))]

/-- The row axis is an inserted one: the window coordinate on it is `0`. -/
theorem window_rowsScatter_zero {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 0 = 0 := by
  unfold ScatterDims.window
  rw [dif_neg (show (0 : Fin 2) ∉ (rowsScatter N D R wf).sKept from
    (by decide : (0 : Fin 2) ∉ (List.finRange 2).filter (· ∉ ([0] : List (Fin 2)))))]

/-- On the column axis the window coordinate of update index `j` is its column `j₁`. -/
theorem window_rowsScatter_one {N D R : Nat}
    (wf : ScatterDims.WF ⟨2, ![N, D]⟩ ⟨2, ![R, 1]⟩ ⟨2, ![R, D]⟩ [1] [0] [0] 1)
    (j : (⟨2, ![R, D]⟩ : Shape).Idx) :
    (rowsScatter N D R wf).window j 1 = (j 1).val := by
  unfold ScatterDims.window
  rw [dif_pos (show (1 : Fin 2) ∈ (rowsScatter N D R wf).sKept from
    (by decide : (1 : Fin 2) ∈ (List.finRange 2).filter (· ∉ ([0] : List (Fin 2)))))]
  rfl

/-- Update index `j` lands on the operand's entry `(p, k)` exactly when its row number `idx(j₀, 0)`, read signed, is
    `p` and its column is `k`; a row number outside `[0, N)` lands on no entry. -/
theorem resultIdx_rowsScatter {N D R w : Nat}
    (wf : ScatterDims.WF ⟨2, ![N, D]⟩ ⟨2, ![R, 1]⟩ ⟨2, ![R, D]⟩ [1] [0] [0] 1)
    (j : (⟨2, ![R, D]⟩ : Shape).Idx) (idx : IVec ⟨2, ![R, 1]⟩ w) (p : Fin N) (k : Fin D) :
    (rowsScatter N D R wf).resultIdx? j idx = some (ix2 p k)
      ↔ (idx (ix2 (j 0) (0 : Fin 1))).toInt = (p.val : ℤ) ∧ j 1 = k := by
  have hs0 := start_rowsScatter_zero wf j idx
  have hs1 := start_rowsScatter_one wf j idx
  have hw0 := window_rowsScatter_zero wf j
  have hw1 := window_rowsScatter_one wf j
  have hj1 : (j 1).val < D := idx2_lt1 j
  have hpN : p.val < N := p.isLt
  unfold ScatterDims.resultIdx?
  split
  · rename_i h
    rw [Option.some.injEq]
    constructor
    · intro hf
      have h0 : ((rowsScatter N D R wf).start j idx 0 + ((rowsScatter N D R wf).window j 0 : ℤ)).toNat = p.val :=
        congrArg Fin.val (congrFun hf 0)
      have h1 : ((rowsScatter N D R wf).start j idx 1 + ((rowsScatter N D R wf).window j 1 : ℤ)).toNat = k.val :=
        congrArg Fin.val (congrFun hf 1)
      have hh0 := (h 0).1
      rw [hs0, hw0] at h0 hh0
      rw [hs1, hw1] at h1
      refine ⟨by omega, Fin.ext (by omega)⟩
    · rintro ⟨hp, hk⟩
      funext a
      refine Fin.ext ?_
      match a with
      | ⟨0, _⟩ =>
        show ((rowsScatter N D R wf).start j idx 0 + ((rowsScatter N D R wf).window j 0 : ℤ)).toNat = p.val
        rw [hs0, hw0, hp]; omega
      | ⟨1, _⟩ =>
        show ((rowsScatter N D R wf).start j idx 1 + ((rowsScatter N D R wf).window j 1 : ℤ)).toNat = k.val
        rw [hs1, hw1, hk]; omega
  · rename_i h
    constructor
    · intro hf; cases hf
    · rintro ⟨hp, hk⟩
      exfalso; apply h
      intro a
      match a with
      | ⟨0, _⟩ =>
        show 0 ≤ (rowsScatter N D R wf).start j idx 0 + ((rowsScatter N D R wf).window j 0 : ℤ)
          ∧ (rowsScatter N D R wf).start j idx 0 + ((rowsScatter N D R wf).window j 0 : ℤ) < (N : ℤ)
        rw [hs0, hw0, hp]; omega
      | ⟨1, _⟩ =>
        show 0 ≤ (rowsScatter N D R wf).start j idx 1 + ((rowsScatter N D R wf).window j 1 : ℤ)
          ∧ (rowsScatter N D R wf).start j idx 1 + ((rowsScatter N D R wf).window j 1 : ℤ) < (D : ℤ)
        rw [hs1, hw1]; omega

/-- The row accumulation at `(p, k)`: the operand's entry plus the sum of the updates' entries `(e, k)` over the
    update rows `e` whose row number `idx(e, 0)`, read signed and not clamped, is `p`. -/
theorem scatterAdd_rowsScatter_apply {N D R w : Nat}
    (wf : ScatterDims.WF ⟨2, ![N, D]⟩ ⟨2, ![R, 1]⟩ ⟨2, ![R, D]⟩ [1] [0] [0] 1)
    (x : (⟨2, ![N, D]⟩ : Shape).Idx → EReal) (idx : IVec ⟨2, ![R, 1]⟩ w)
    (upd : (⟨2, ![R, D]⟩ : Shape).Idx → EReal) (p : Fin N) (k : Fin D) :
    Host.scatterAdd (F := Ideal) (φ := .f32) (rowsScatter N D R wf) x idx upd (ix2 p k)
      = x (ix2 p k)
        + ∑ e ∈ Finset.univ.filter (fun e : Fin R => (idx (ix2 e (0 : Fin 1))).toInt = (p.val : ℤ)),
            upd (ix2 e k) := by
  show x (ix2 p k) + ∑ j ∈ Finset.univ.filter
      (fun j => (rowsScatter N D R wf).resultIdx? j idx = some (ix2 p k)), upd j = _
  congr 1
  symm
  refine Finset.sum_bij (fun e _ => ix2 e k) ?_ ?_ ?_ ?_
  · intro e he
    rw [Finset.mem_filter] at he ⊢
    exact ⟨Finset.mem_univ _, (resultIdx_rowsScatter wf (ix2 e k) idx p k).mpr ⟨he.2, rfl⟩⟩
  · intro e₁ _ e₂ _ h
    exact congrFun h 0
  · intro j hj
    rw [Finset.mem_filter] at hj
    have hj' := (resultIdx_rowsScatter wf j idx p k).mp hj.2
    refine ⟨j 0, Finset.mem_filter.mpr ⟨Finset.mem_univ _, hj'.1⟩, ?_⟩
    rw [← hj'.2]
    exact (eq_ix2 j).symm
  · intro e _
    rfl

end Cert.Lib

end
-- ==== Proof.Bridge.lean ====
/-
  The kernel's spelling and the reference's spelling compute one function. The clipped linear maps differ only in the order in
  which the bias is added, and addition of extended reals is commutative and associative. The batch normalisations differ as
  "scale and shift by rows computed from the sums of `h` and of `h·h`" against "centre by the mean, scale by the reciprocal root of
  the mean squared deviation, then by `γ`, shift by `β`": equal when every entry of `h`, `γ` and `β` is a real (LibBatchNormForms), the row
  count being the real 200000 and `ε` a positive real; their common value is then real too, which lets the second layer repeat
  the argument.
-/
import proofs.«178594_j20590073217563_1_alg».proof.Proof.KI.KernelValue
import proofs.«178594_j20590073217563_1_alg».proof.Proof.RefValue
import proofs.«178594_j20590073217563_1_alg».proof.Proof.LibBatchNormForms
import proofs.«178594_j20590073217563_1_alg».proof.Proof.LibRealEntries
import proofs.«178594_j20590073217563_1_alg».proof.Proof.LibAggLinear
import proofs.«178594_j20590073217563_1_alg».proof.Proof.LibEdgeRows

set_option maxRecDepth 16384

noncomputable section

namespace Cert.Bridge

open Idealize.ShloMosaic Idealize.ShloMosaic.ValueIdx
open Cert.KernelIdeal Cert.KernelIdeal.Gen Cert.KernelIdeal.Hand
open Cert.Lib (AllReal)

/-- The printed row count denotes the real 200000. -/
theorem nRows_eq : (Ideal.ofBits .f32 0x48435000#32 : EReal) = ((200000 : ℝ) : EReal) := by
  simp [Ideal.ofBits, Ideal.ieee, -EReal.coe_mul]; norm_num

/-- The printed small constant, as a real. -/
def epsR : ℝ := 10995116 / 2 ^ 40
theorem epsR_pos : 0 < epsR := by unfold epsR; positivity
theorem epsV_eq : (Ideal.ofBits .f32 0x3727C5AC#32 : EReal) = ((epsR : ℝ) : EReal) := by
  unfold epsR
  simp [Ideal.ofBits, Ideal.ieee, -EReal.coe_mul]; norm_num

/-- The two spellings of the clipped linear map of layer 1 agree. -/
theorem lin64_eq (agg x : FVec Ideal S200000x64 .f32) (wl wr : FVec Ideal S64x128 .f32) (b : FVec Ideal S128 .f32) :
    Cert.ReferenceIdeal.Hand.refLin64 agg x wl b wr = linG0 agg x wl wr (shapeCast S1x128 b shapeCasts_S128_S1x128) := by
  funext i
  obtain ⟨p, q, rfl⟩ : ∃ (p : Fin 200000) (q : Fin 128), i = ix2 p q := ⟨i 0, i 1, eq_ix2 i⟩
  rw [Cert.ReferenceIdeal.Hand.refLin64_apply]
  unfold linG0
  show _ = max (((∑ k : Fin 64, agg (ix2 p k) * wl (ix2 k q)) + ∑ k : Fin 64, x (ix2 p k) * wr (ix2 k q)) + shapeCast S1x128 b shapeCasts_S128_S1x128 (ix2 0 q)) 0
  rw [rowOfVec_apply, add_right_comm]

/-- The two spellings of the clipped linear map of layer 2 agree. -/
theorem lin128_eq (agg x : FVec Ideal S200000x128 .f32) (wl wr : FVec Ideal S128x128 .f32) (b : FVec Ideal S128 .f32) :
    Cert.ReferenceIdeal.Hand.refLin128 agg x wl b wr = linG2 agg x wl wr (shapeCast S1x128 b shapeCasts_S128_S1x128) := by
  funext i
  obtain ⟨p, q, rfl⟩ : ∃ (p : Fin 200000) (q : Fin 128), i = ix2 p q := ⟨i 0, i 1, eq_ix2 i⟩
  rw [Cert.ReferenceIdeal.Hand.refLin128_apply]
  unfold linG2
  show _ = max (((∑ k : Fin 128, agg (ix2 p k) * wl (ix2 k q)) + ∑ k : Fin 128, x (ix2 p k) * wr (ix2 k q)) + shapeCast S1x128 b shapeCasts_S128_S1x128 (ix2 0 q)) 0
  rw [rowOfVec_apply, add_right_comm]

/-- At an index, for a real array `H` and real `γ`, `β`: the reference's batch normalisation and the kernel's "scale and shift" are one real. -/
theorem bn_at (H : FVec Ideal S200000x128 .f32) (g be : FVec Ideal S128 .f32) (hH : AllReal H) (hg : AllReal g) (hbe : AllReal be)
    (p : Fin 200000) (q : Fin 128) :
    ∃ r : ℝ, Cert.ReferenceIdeal.Hand.refBN H g be (ix2 p q) = (r : EReal)
      ∧ H (ix2 p q) * scaleRow (colSumOf H) (colSqOf H) g (ix2 0 q) + shiftRow (colSumOf H) (colSqOf H) g be (ix2 0 q) = (r : EReal) := by
  choose Hr hHr using hH
  obtain ⟨gr, hgr⟩ := hg (ix1 q)
  obtain ⟨br, hbr⟩ := hbe (ix1 q)
  have hcard : (Fintype.card (Fin 200000) : ℝ) = 200000 := by simp
  have key := Cert.Lib.bn_ereal (ι := Fin 200000) (fun p => H (ix2 p q)) (fun p => Hr (ix2 p q)) (fun p => hHr (ix2 p q)) 200000 (by norm_num) hcard gr br epsR epsR_pos p
  refine ⟨?_, ?_, ?_⟩
  rotate_left
  · rw [Cert.ReferenceIdeal.Hand.refBN_apply, hgr, hbr]
    show _ = _
    rw [show (Cert.ReferenceIdeal.Hand.nRows : EReal) = ((200000 : ℝ) : EReal) from nRows_eq, show (Cert.ReferenceIdeal.Hand.epsV : EReal) = ((epsR : ℝ) : EReal) from epsV_eq]
    exact key.2
  · rw [scaleRow_apply, shiftRow_apply, scaleRow_apply, hgr, hbr]
    rw [show (nRows : EReal) = ((200000 : ℝ) : EReal) from nRows_eq, show (epsV : EReal) = ((epsR : ℝ) : EReal) from epsV_eq]
    exact key.1

/-! ## Real entries stay real -/

theorem real_add {a b : EReal} (ha : ∃ r : ℝ, a = (r : EReal)) (hb : ∃ r : ℝ, b = (r : EReal)) : ∃ r : ℝ, a + b = (r : EReal) := by
  obtain ⟨x, rfl⟩ := ha; obtain ⟨y, rfl⟩ := hb; exact ⟨x + y, (EReal.coe_add x y).symm⟩
theorem real_mul {a b : EReal} (ha : ∃ r : ℝ, a = (r : EReal)) (hb : ∃ r : ℝ, b = (r : EReal)) : ∃ r : ℝ, a * b = (r : EReal) := by
  obtain ⟨x, rfl⟩ := ha; obtain ⟨y, rfl⟩ := hb; exact ⟨x * y, (EReal.coe_mul x y).symm⟩
theorem real_max0 {a : EReal} (ha : ∃ r : ℝ, a = (r : EReal)) : ∃ r : ℝ, max a 0 = (r : EReal) := by
  obtain ⟨x, rfl⟩ := ha
  refine ⟨max x 0, ?_⟩
  rw [← EReal.coe_zero]
  exact (Monotone.map_max (f := fun r : ℝ => (r : EReal)) (fun a b h => EReal.coe_le_coe_iff.mpr h)).symm

/-- A real vector laid out as a row is a real row. -/
theorem row_real (b : FVec Ideal S128 .f32) (hb : AllReal b) : AllReal (shapeCast S1x128 b shapeCasts_S128_S1x128) := fun j => by
  obtain ⟨u, q, rfl⟩ : ∃ (u : Fin 1) (q : Fin 128), j = ix2 u q := ⟨j 0, j 1, eq_ix2 j⟩
  rw [rowOfVec_apply]; exact hb _

/-- The clipped linear map of real arrays is a real array. -/
theorem linG0_real (agg x : FVec Ideal S200000x64 .f32) (wl wr : FVec Ideal S64x128 .f32) (b : FVec Ideal S1x128 .f32)
    (hagg : AllReal agg) (hx : AllReal x) (hwl : AllReal wl) (hwr : AllReal wr) (hb : AllReal b) : AllReal (linG0 agg x wl wr b) := fun i => by
  unfold linG0
  exact real_max0 (real_add (real_add (Cert.Lib.real_sum _ _ fun k => real_mul (hagg _) (hwl _)) (Cert.Lib.real_sum _ _ fun k => real_mul (hx _) (hwr _))) (hb _))

/-- The clipped linear map of real arrays is a real array. -/
theorem linG2_real (agg x : FVec Ideal S200000x128 .f32) (wl wr : FVec Ideal S128x128 .f32) (b : FVec Ideal S1x128 .f32)
    (hagg : AllReal agg) (hx : AllReal x) (hwl : AllReal wl) (hwr : AllReal wr) (hb : AllReal b) : AllReal (linG2 agg x wl wr b) := fun i => by
  unfold linG2
  exact real_max0 (real_add (real_add (Cert.Lib.real_sum _ _ fun k => real_mul (hagg _) (hwl _)) (Cert.Lib.real_sum _ _ fun k => real_mul (hx _) (hwr _))) (hb _))

set_option maxHeartbeats 4000000 in
/-- Rows of a real array summed into their destinations give a real array. -/
theorem seg64_real (x : FVec Ideal S200000x64 .f32) (hx : AllReal x) (s d : IVec S1200000 32) : AllReal (seg64 x s d) := fun i => by
  obtain ⟨p, k, rfl⟩ : ∃ (p : Fin 200000) (k : Fin 64), i = ix2 p k := ⟨i 0, i 1, eq_ix2 i⟩
  have h :=
    Cert.Lib.scatterAdd_rowsScatter_apply (N := 200000) (D := 64) (R := 1200000) (w := 32) scatter_S200000x64_S1200000x1_S1200000x64_1_0_0_1.wf (broadcastInDim S200000x64 ![] bcast_S_S200000x64 (constant (F := Ideal) S_ .f32 0x00000000#32)) (broadcastInDim S1200000x1 ![0] bcast_S1200000_S1200000x1_0 d)
      (Host.gather gather_S200000x64_S1200000x1_S1200000x64_1_0_n_n_0_1_164 x (broadcastInDim S1200000x1 ![0] bcast_S1200000_S1200000x1_0
        (select (cmpi .slt s (broadcastInDim S1200000 ![] bcast_S_S1200000 (constantI S_ 32 0#32)))
          (addi s (broadcastInDim S1200000 ![] bcast_S_S1200000 (constantI S_ 32 200000#32))) s))) p k
  have h' : seg64 x s d (ix2 p k) = _ := h
  rw [h']
  refine real_add ⟨0, ?_⟩ (Cert.Lib.real_sum _ _ fun e => ?_)
  · show Ideal.ofBits .f32 0x00000000#32 = ((0 : ℝ) : EReal)
    rw [Ideal.ofBits_zero_f32]; rfl
  · have hg :=
      Cert.Lib.gather_rowsTake_apply (N := 200000) (D := 64) (R := 1200000) (w := 32) (by norm_num) gather_S200000x64_S1200000x1_S1200000x64_1_0_n_n_0_1_164.wf x (broadcastInDim S1200000x1 ![0] bcast_S1200000_S1200000x1_0
        (select (cmpi .slt s (broadcastInDim S1200000 ![] bcast_S_S1200000 (constantI S_ 32 0#32)))
          (addi s (broadcastInDim S1200000 ![] bcast_S_S1200000 (constantI S_ 32 200000#32))) s)) e k
    rw [show Host.gather gather_S200000x64_S1200000x1_S1200000x64_1_0_n_n_0_1_164 x (broadcastInDim S1200000x1 ![0] bcast_S1200000_S1200000x1_0
        (select (cmpi .slt s (broadcastInDim S1200000 ![] bcast_S_S1200000 (constantI S_ 32 0#32)))
          (addi s (broadcastInDim S1200000 ![] bcast_S_S1200000 (constantI S_ 32 200000#32))) s)) (ix2 e k) = _ from hg]; exact hx _

set_option maxHeartbeats 4000000 in
/-- Rows of a real array summed into their destinations give a real array. -/
theorem seg128_real (x : FVec Ideal S200000x128 .f32) (hx : AllReal x) (s d : IVec S1200000 32) : AllReal (seg128 x s d) := fun i => by
  obtain ⟨p, k, rfl⟩ : ∃ (p : Fin 200000) (k : Fin 128), i = ix2 p k := ⟨i 0, i 1, eq_ix2 i⟩
  have h :=
    Cert.Lib.scatterAdd_rowsScatter_apply (N := 200000) (D := 128) (R := 1200000) (w := 32) scatter_S200000x128_S1200000x1_S1200000x128_1_0_0_1.wf (broadcastInDim S200000x128 ![] bcast_S_S200000x128 (constant (F := Ideal) S_ .f32 0x00000000#32)) (broadcastInDim S1200000x1 ![0] bcast_S1200000_S1200000x1_0 d)
      (Host.gather gather_S200000x128_S1200000x1_S1200000x128_1_0_n_n_0_1_1128 x (broadcastInDim S1200000x1 ![0] bcast_S1200000_S1200000x1_0
        (select (cmpi .slt s (broadcastInDim S1200000 ![] bcast_S_S1200000 (constantI S_ 32 0#32)))
          (addi s (broadcastInDim S1200000 ![] bcast_S_S1200000 (constantI S_ 32 200000#32))) s))) p k
  have h' : seg128 x s d (ix2 p k) = _ := h
  rw [h']
  refine real_add ⟨0, ?_⟩ (Cert.Lib.real_sum _ _ fun e => ?_)
  · show Ideal.ofBits .f32 0x00000000#32 = ((0 : ℝ) : EReal)
    rw [Ideal.ofBits_zero_f32]; rfl
  · have hg :=
      Cert.Lib.gather_rowsTake_apply (N := 200000) (D := 128) (R := 1200000) (w := 32) (by norm_num) gather_S200000x128_S1200000x1_S1200000x128_1_0_n_n_0_1_1128.wf x (broadcastInDim S1200000x1 ![0] bcast_S1200000_S1200000x1_0
        (select (cmpi .slt s (broadcastInDim S1200000 ![] bcast_S_S1200000 (constantI S_ 32 0#32)))
          (addi s (broadcastInDim S1200000 ![] bcast_S_S1200000 (constantI S_ 32 200000#32))) s)) e k
    rw [show Host.gather gather_S200000x128_S1200000x1_S1200000x128_1_0_n_n_0_1_1128 x (broadcastInDim S1200000x1 ![0] bcast_S1200000_S1200000x1_0
        (select (cmpi .slt s (broadcastInDim S1200000 ![] bcast_S_S1200000 (constantI S_ 32 0#32)))
          (addi s (broadcastInDim S1200000 ![] bcast_S_S1200000 (constantI S_ 32 200000#32))) s)) (ix2 e k) = _ from hg]; exact hx _

/-! ## Layer by layer -/

/-- For a real array the reference's batch normalisation is the kernel's scale-and-shift, -/
theorem bn1_eq (H : FVec Ideal S200000x128 .f32) (g be : FVec Ideal S128 .f32) (hH : AllReal H) (hg : AllReal g) (hbe : AllReal be) :
    Cert.ReferenceIdeal.Hand.refBN H g be = normG1 H (scaleRow (colSumOf H) (colSqOf H) g) (shiftRow (colSumOf H) (colSqOf H) g be) := by
  funext i
  obtain ⟨p, q, rfl⟩ : ∃ (p : Fin 200000) (q : Fin 128), i = ix2 p q := ⟨i 0, i 1, eq_ix2 i⟩
  obtain ⟨r, h1, h2⟩ := bn_at H g be hH hg hbe p q
  rw [h1]
  exact h2.symm

/-- and it is a real array. -/
theorem bn1_real (H : FVec Ideal S200000x128 .f32) (g be : FVec Ideal S128 .f32) (hH : AllReal H) (hg : AllReal g) (hbe : AllReal be) :
    AllReal (Cert.ReferenceIdeal.Hand.refBN H g be) := fun i => by
  obtain ⟨p, q, rfl⟩ : ∃ (p : Fin 200000) (q : Fin 128), i = ix2 p q := ⟨i 0, i 1, eq_ix2 i⟩
  obtain ⟨r, h1, -⟩ := bn_at H g be hH hg hbe p q
  exact ⟨r, h1⟩

/-- The same clipped at zero: the last layer. -/
theorem bn3_eq (H : FVec Ideal S200000x128 .f32) (g be : FVec Ideal S128 .f32) (hH : AllReal H) (hg : AllReal g) (hbe : AllReal be) :
    maximumf (Cert.ReferenceIdeal.Hand.refBN H g be)
        (broadcastInDim Cert.ReferenceIdeal.S200000x128 ![] Cert.ReferenceIdeal.Gen.bcast_S_S200000x128 (constant (F := Ideal) Cert.ReferenceIdeal.S_ .f32 0x00000000#32))
      = normG3 H (scaleRow (colSumOf H) (colSqOf H) g) (shiftRow (colSumOf H) (colSqOf H) g be) := by
  funext i
  obtain ⟨p, q, rfl⟩ : ∃ (p : Fin 200000) (q : Fin 128), i = ix2 p q := ⟨i 0, i 1, eq_ix2 i⟩
  obtain ⟨r, h1, h2⟩ := bn_at H g be hH hg hbe p q
  show max (Cert.ReferenceIdeal.Hand.refBN H g be (ix2 p q)) (Ideal.ofBits .f32 0x00000000#32)
    = max (H (ix2 p q) * scaleRow (colSumOf H) (colSqOf H) g (ix2 0 q) + shiftRow (colSumOf H) (colSqOf H) g be (ix2 0 q)) 0
  rw [h1, h2, Ideal.ofBits_zero_f32]

set_option maxHeartbeats 2000000 in
/-- The two programs' functions agree on real arguments. -/
theorem main_eq (x0 : FVec Ideal S200000x64 .f32) (x1 : IVec S2x1200000 32) (x2 : FVec Ideal S64x128 .f32) (x3 : FVec Ideal S128 .f32)
    (x4 : FVec Ideal S64x128 .f32) (x5 x6 : FVec Ideal S128 .f32) (x7 : FVec Ideal S128x128 .f32) (x8 : FVec Ideal S128 .f32)
    (x9 : FVec Ideal S128x128 .f32) (x10 x11 : FVec Ideal S128 .f32)
    (h0 : AllReal x0) (h2 : AllReal x2) (h3 : AllReal x3) (h4 : AllReal x4) (h5 : AllReal x5) (h6 : AllReal x6) (h7 : AllReal x7)
    (h8 : AllReal x8) (h9 : AllReal x9) (h10 : AllReal x10) (h11 : AllReal x11) :
    Cert.ReferenceIdeal.Hand.refOut x0 x1 x2 x3 x4 x5 x6 x7 x8 x9 x10 x11 = kernelOut x0 x1 x2 x3 x4 x5 x6 x7 x8 x9 x10 x11 := by
  have hs : Cert.ReferenceIdeal.ReadP.val_main_v1 (F := Ideal) x1 = srcOf x1 := rfl
  have hd : Cert.ReferenceIdeal.ReadP.val_main_v3 (F := Ideal) x1 = dstOf x1 := rfl
  have hseg64 : ∀ (x : FVec Ideal S200000x64 .f32) (s d : IVec S1200000 32), Cert.ReferenceIdeal.Hand.segR64 x s d = seg64 x s d := fun _ _ _ => rfl
  have hseg128 : ∀ (x : FVec Ideal S200000x128 .f32) (s d : IVec S1200000 32), Cert.ReferenceIdeal.Hand.segR128 x s d = seg128 x s d := fun _ _ _ => rfl
  have hH1r : AllReal (linG0 (seg64 x0 (srcOf x1) (dstOf x1)) x0 x2 x4 (shapeCast S1x128 x3 shapeCasts_S128_S1x128)) :=
    linG0_real _ _ _ _ _ (seg64_real x0 h0 _ _) h0 h2 h4 (row_real x3 h3)
  have hO1 := bn1_eq _ x5 x6 hH1r h5 h6
  have hO1r : AllReal (layer1K (seg64 x0 (srcOf x1) (dstOf x1)) x0 x2 x4 x3 x5 x6) := by
    unfold layer1K; rw [← hO1]; exact bn1_real _ x5 x6 hH1r h5 h6
  have hH2r : AllReal (linG2 (seg128 (layer1K (seg64 x0 (srcOf x1) (dstOf x1)) x0 x2 x4 x3 x5 x6) (srcOf x1) (dstOf x1))
      (layer1K (seg64 x0 (srcOf x1) (dstOf x1)) x0 x2 x4 x3 x5 x6) x7 x9 (shapeCast S1x128 x8 shapeCasts_S128_S1x128)) :=
    linG2_real _ _ _ _ _ (seg128_real _ hO1r _ _) hO1r h7 h9 (row_real x8 h8)
  unfold Cert.ReferenceIdeal.Hand.refOut kernelOut
  rw [hs, hd, hseg64, lin64_eq, hO1]
  change maximumf (Cert.ReferenceIdeal.Hand.refBN (Cert.ReferenceIdeal.Hand.refLin128 (Cert.ReferenceIdeal.Hand.segR128 (layer1K (seg64 x0 (srcOf x1) (dstOf x1)) x0 x2 x4 x3 x5 x6) (srcOf x1) (dstOf x1))
      (layer1K (seg64 x0 (srcOf x1) (dstOf x1)) x0 x2 x4 x3 x5 x6) x7 x8 x9) x10 x11) _ = _
  rw [hseg128, lin128_eq]
  unfold layer2K
  exact bn3_eq _ x10 x11 hH2r h10 h11

end Cert.Bridge

end
-- ==== Proof.PreReal.lean ====
/-
  From the precondition to real entries. The precondition is the conjunction, over the eleven float arguments, of "every entry has
  absolute value below +∞", each spelt as a reduction by `and` of the comparison against the word of +∞. An extended real whose absolute
  value is below +∞ is a real, so under the precondition every float argument is an array of reals.
-/
import proofs.«178594_j20590073217563_1_alg».proof.Pre_finite_inputs
import proofs.«178594_j20590073217563_1_alg».proof.Proof.Gen.Pre_finite_inputs
import proofs.«178594_j20590073217563_1_alg».proof.Proof.LibRealEntries
import Idealize.ShloMosaic.Lib.Affine
import Idealize.ShloMosaic.Lib.ValueIdx

set_option maxRecDepth 16384

noncomputable section

namespace Cert.PreReal

open Idealize.ShloMosaic Idealize.ShloMosaic.ValueIdx
open Cert.Pre_finite_inputs Cert.Pre_finite_inputs.Gen
open Cert.Lib (AllReal)

instance : Subsingleton Cert.Pre_finite_inputs.S_.Idx := ⟨fun a b => funext fun d => d.elim0⟩

set_option maxHeartbeats 2000000 in
/-- Under the precondition every float argument is an array of reals. -/
theorem allReal_of_pre (a0 : FVec Ideal Cert.Pre_finite_inputs.S200000x64 .f32) (a1 : IVec Cert.Pre_finite_inputs.S2x1200000 32) (a2 : FVec Ideal Cert.Pre_finite_inputs.S64x128 .f32) (a3 : FVec Ideal Cert.Pre_finite_inputs.S128 .f32) (a4 : FVec Ideal Cert.Pre_finite_inputs.S64x128 .f32) (a5 : FVec Ideal Cert.Pre_finite_inputs.S128 .f32) (a6 : FVec Ideal Cert.Pre_finite_inputs.S128 .f32) (a7 : FVec Ideal Cert.Pre_finite_inputs.S128x128 .f32) (a8 : FVec Ideal Cert.Pre_finite_inputs.S128 .f32) (a9 : FVec Ideal Cert.Pre_finite_inputs.S128x128 .f32) (a10 : FVec Ideal Cert.Pre_finite_inputs.S128 .f32) (a11 : FVec Ideal Cert.Pre_finite_inputs.S128 .f32)
    (h : Cert.Pre_finite_inputs.fn (F := Ideal) a0 a1 a2 a3 a4 a5 a6 a7 a8 a9 a10 a11 = (fun _ => 1#1)) :
    AllReal a0 ∧ AllReal a2 ∧ AllReal a3 ∧ AllReal a4 ∧ AllReal a5 ∧ AllReal a6 ∧ AllReal a7 ∧ AllReal a8 ∧ AllReal a9 ∧ AllReal a10 ∧ AllReal a11 := by
  have h0 := congrFun h ix0
  unfold Cert.Pre_finite_inputs.fn Cert.Pre_finite_inputs.fn_part1 Cert.Pre_finite_inputs.fn_part2 Cert.Pre_finite_inputs.fn_part3 at h0
  dsimp only at h0
  simp only [andi, IntOp.andi_eq_one] at h0
  obtain ⟨⟨⟨⟨⟨⟨⟨⟨⟨⟨e0, e2⟩, e3⟩, e4⟩, e5⟩, e6⟩, e7⟩, e8⟩, e9⟩, e10⟩, e11⟩ := h0
  exact ⟨Cert.Lib.allReal_of_all_abs_lt a0 _ (fun _ => rfl) reducesTo_S200000x64_S_d0_1 _ h_S_ ix0 e0,
    Cert.Lib.allReal_of_all_abs_lt a2 _ (fun _ => rfl) reducesTo_S64x128_S_d0_1 _ h_S_ ix0 e2,
    Cert.Lib.allReal_of_all_abs_lt a3 _ (fun _ => rfl) reducesTo_S128_S_d0 _ h_S_ ix0 e3,
    Cert.Lib.allReal_of_all_abs_lt a4 _ (fun _ => rfl) reducesTo_S64x128_S_d0_1 _ h_S_ ix0 e4,
    Cert.Lib.allReal_of_all_abs_lt a5 _ (fun _ => rfl) reducesTo_S128_S_d0 _ h_S_ ix0 e5,
    Cert.Lib.allReal_of_all_abs_lt a6 _ (fun _ => rfl) reducesTo_S128_S_d0 _ h_S_ ix0 e6,
    Cert.Lib.allReal_of_all_abs_lt a7 _ (fun _ => rfl) reducesTo_S128x128_S_d0_1 _ h_S_ ix0 e7,
    Cert.Lib.allReal_of_all_abs_lt a8 _ (fun _ => rfl) reducesTo_S128_S_d0 _ h_S_ ix0 e8,
    Cert.Lib.allReal_of_all_abs_lt a9 _ (fun _ => rfl) reducesTo_S128x128_S_d0_1 _ h_S_ ix0 e9,
    Cert.Lib.allReal_of_all_abs_lt a10 _ (fun _ => rfl) reducesTo_S128_S_d0 _ h_S_ ix0 e10,
    Cert.Lib.allReal_of_all_abs_lt a11 _ (fun _ => rfl) reducesTo_S128_S_d0 _ h_S_ ix0 e11⟩

end Cert.PreReal

end
-- ==== Proof.lean ====
/-
  Two layers of neighbour-sum aggregation, a linear map of the aggregated rows plus a linear map of the rows themselves plus a bias,
  clipped at zero, followed by batch normalisation over the 200000 rows (the second layer clipped at zero once more), computed by a
  kernel of four tiled passes and by a plain reference.

  The kernel's two fused passes produce, tile by tile over forty tiles of 5000 rows, the clipped linear map `h` and the column sums of
  `h` and of `h·h`; between the passes the host turns the sums into a scale row `γ · rsqrt (E[h²] − E[h]² + ε)` and a shift row
  `β − E[h] · scale`, and the normalising passes apply `h · scale + shift`. The reference centres by the mean, scales by the reciprocal
  root of the mean squared deviation plus `ε`, then by `γ`, and shifts by `β`. Over the reals these agree, since
  `E[h²] − E[h]² = E[(h − E[h])²]` and multiplication distributes over the difference; on the extended reals that needs every entry
  real, which the precondition (all float arguments finite) gives for the arguments and which each layer preserves. The aggregation is
  the same chain of operations in both programs; sums taken tile by tile and in one piece agree because addition of extended reals is
  associative and commutative.

  The three frames: each kernel pass runs to its end at every tile (the body's run, by cases on whether the tile is the first, where the
  running totals are cleared), no pass writes an input array and no host operation writes an argument; the reference is a straight line
  of host operations. The idealization changed no operation, so there is nothing to preserve beyond the text itself.
-/
import proofs.«178594_j20590073217563_1_alg».proof.Defs
import proofs.«178594_j20590073217563_1_alg».proof.Proof.Gen.Kernel
import proofs.«178594_j20590073217563_1_alg».proof.Proof.Gen.KernelIdeal
import proofs.«178594_j20590073217563_1_alg».proof.Proof.Gen.ReferenceIdeal
import proofs.«178594_j20590073217563_1_alg».proof.Proof.Gen.Pre_finite_inputs
import proofs.«178594_j20590073217563_1_alg».proof.Proof.KB.Run
import proofs.«178594_j20590073217563_1_alg».proof.Proof.KI.Run
import proofs.«178594_j20590073217563_1_alg».proof.Proof.KI.KernelValue
import proofs.«178594_j20590073217563_1_alg».proof.Proof.RefValue
import proofs.«178594_j20590073217563_1_alg».proof.Proof.Bridge
import proofs.«178594_j20590073217563_1_alg».proof.Proof.PreReal
import Idealize.ShloMosaic.Adequacy
import Idealize.ShloMosaic.Init

noncomputable section

namespace Cert.Proof

open Idealize.ShloMosaic Idealize.SL.Sem

/-- Run from memories agreeing on the arguments, under the precondition, the two idealized programs end with the same array. -/
theorem algebraic : Cert.algebraic_KernelIdeal_ReferenceIdeal := by
  intro m ρ m' ρ' hpre hagree
  refine ⟨fun c => Cert.KernelIdeal.Hand.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ?_) (Cert.KernelIdeal.Hand.run (F := Ideal) m ρ)
    exact ⟨(h c _ (Cert.KernelIdeal.Hand.mem_uc Cert.KernelIdeal.main_v57 (by decide))).trans (Cert.KernelIdeal.Hand.B8_out m ρ c),
      (h c _ (Cert.KernelIdeal.Hand.mem_uc Cert.KernelIdeal.main_arg0 (by decide))).trans (Cert.KernelIdeal.Hand.B8_main_arg0 m ρ c),
      (h c _ (Cert.KernelIdeal.Hand.mem_uc Cert.KernelIdeal.main_arg1 (by decide))).trans (Cert.KernelIdeal.Hand.B8_main_arg1 m ρ c),
      (h c _ (Cert.KernelIdeal.Hand.mem_uc Cert.KernelIdeal.main_arg2 (by decide))).trans (Cert.KernelIdeal.Hand.B8_main_arg2 m ρ c),
      (h c _ (Cert.KernelIdeal.Hand.mem_uc Cert.KernelIdeal.main_arg3 (by decide))).trans (Cert.KernelIdeal.Hand.B8_main_arg3 m ρ c),
      (h c _ (Cert.KernelIdeal.Hand.mem_uc Cert.KernelIdeal.main_arg4 (by decide))).trans (Cert.KernelIdeal.Hand.B8_main_arg4 m ρ c),
      (h c _ (Cert.KernelIdeal.Hand.mem_uc Cert.KernelIdeal.main_arg5 (by decide))).trans (Cert.KernelIdeal.Hand.B8_main_arg5 m ρ c),
      (h c _ (Cert.KernelIdeal.Hand.mem_uc Cert.KernelIdeal.main_arg6 (by decide))).trans (Cert.KernelIdeal.Hand.B8_main_arg6 m ρ c),
      (h c _ (Cert.KernelIdeal.Hand.mem_uc Cert.KernelIdeal.main_arg7 (by decide))).trans (Cert.KernelIdeal.Hand.B8_main_arg7 m ρ c),
      (h c _ (Cert.KernelIdeal.Hand.mem_uc Cert.KernelIdeal.main_arg8 (by decide))).trans (Cert.KernelIdeal.Hand.B8_main_arg8 m ρ c),
      (h c _ (Cert.KernelIdeal.Hand.mem_uc Cert.KernelIdeal.main_arg9 (by decide))).trans (Cert.KernelIdeal.Hand.B8_main_arg9 m ρ c),
      (h c _ (Cert.KernelIdeal.Hand.mem_uc Cert.KernelIdeal.main_arg10 (by decide))).trans (Cert.KernelIdeal.Hand.B8_main_arg10 m ρ c),
      (h c _ (Cert.KernelIdeal.Hand.mem_uc Cert.KernelIdeal.main_arg11 (by decide))).trans (Cert.KernelIdeal.Hand.B8_main_arg11 m ρ c)⟩
  · refine (θ_run Cert.ReferenceIdeal.defs _ _).mono (fun r h c => ⟨(h c).1.trans ?_, (h c).2⟩) (Cert.ReferenceIdeal.ValueP.run (F := Ideal) m' ρ')
    obtain ⟨g0, g1, g2, g3, g4, g5, g6, g7, g8, g9, g10, g11⟩ := hagree c
    obtain ⟨r0, r2, r3, r4, r5, r6, r7, r8, r9, r10, r11⟩ := Cert.PreReal.allReal_of_pre _ _ _ _ _ _ _ _ _ _ _ _ (hpre c)
    rw [Cert.ReferenceIdeal.ReadP.val_main_v88_eq, g0, g1, g2, g3, g4, g5, g6, g7, g8, g9, g10, g11, Cert.ReferenceIdeal.Hand.val_out_eq]
    exact Cert.Bridge.main_eq _ _ _ _ _ _ _ _ _ _ _ _ r0 r2 r3 r4 r5 r6 r7 r8 r9 r10 r11

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.ValueP.run (F := Ideal) m ρ),
  trivial,
  algebraic⟩

end Cert.Proof

end
